-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "pair_scale" .f32 0x35802008#32 ((1 / 1047552 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024 : Shape := ⟨1, ![1024]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) (main_arg1 : IVec S1024 32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Kernel.lean ====
abbrev S1024x512 : Shape := ⟨2, ![1024, 512]⟩
abbrev S1024 : Shape := ⟨1, ![1024]⟩
abbrev S1024x1 : Shape := ⟨2, ![1024, 1]⟩
abbrev S1x1024 : Shape := ⟨2, ![1, 1024]⟩
abbrev S1x1 : Shape := ⟨2, ![1, 1]⟩
abbrev S1024x1024 : Shape := ⟨2, ![1024, 1024]⟩
abbrev S1x512 : Shape := ⟨2, ![1, 512]⟩
abbrev S1x1024x1024 : Shape := ⟨3, ![1, 1024, 1024]⟩
abbrev S1 : Shape := ⟨1, ![1]⟩
abbrev S1x1x1 : Shape := ⟨3, ![1, 1, 1]⟩
abbrev S_ : Shape := ⟨0, ![]⟩

abbrev nBuf : Space → Nat
  | .hbm => 6
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S1024x1, .i32⟩
  | .hbm, ⟨3, _⟩ => ⟨S1x1024, .i32⟩
  | .hbm, ⟨4, _⟩ => ⟨S1x1, .f32⟩
  | .hbm, ⟨5, _⟩ => ⟨S_, .f32⟩
  | .local _ .vmem, ⟨0, _⟩ => ⟨S1024x512, .f32⟩
  | .local _ .vmem, ⟨1, _⟩ => ⟨S1024x1, .i32⟩
  | .local _ .vmem, ⟨2, _⟩ => ⟨S1x1024, .i32⟩
  | .local _ .vmem, ⟨3, _⟩ => ⟨S1x1, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  shapeCasts_S1024_S1024x1 : S1024.ShapeCasts S1024x1
  shapeCasts_S1024_S1x1024 : S1024.ShapeCasts S1x1024
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  broadcasts_S1024x1_S1024x1024 : S1024x1.Broadcasts S1024x1024
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  dot_S1024x512_S1024x512_S1024x1024_1_1_0_0_n_n_wf : DotDims.WF S1024x512 S1024x512 S1024x1024 [1] [1] [0] [0] [] []
  dot_S1x512_S1024x512_S1x1024_1_1_0_0_n_n_wf : DotDims.WF S1x512 S1024x512 S1x1024 [1] [1] [0] [0] [] []
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1x512_S1024x512_S1x1024_1_1_0_0_n_n : DotDims S1x512 S1024x512 S1x1024 where
  lhsContracting := [1]
  rhsContracting := [1]
  lhsNonContracting := [0]
  rhsNonContracting := [0]
  lhsBatch := []
  rhsBatch := []
  wf := dot_S1x512_S1024x512_S1x1024_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v0) false false (stage0_1 0) (sem0_1 0) (Memref.isWhole_whole _) (hstage0_1 0)

abbrev win0_2 : Pipeline.Window sig grid0 :=
  Pipeline.Window.whole (Memref.whole main_v1) false false (stage0_2 0) (sem0_2 0) (Memref.isWhole_whole _) (hstage0_2 0)

abbrev win0_3 : Pipeline.Window sig grid0 :=
  Pipeline.Window.whole (Memref.whole main_v2) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x512 : Shape := ⟨2, ![1024, 512]⟩
abbrev S1024 : Shape := ⟨1, ![1024]⟩
abbrev S_ : Shape := ⟨0, ![]⟩
abbrev S1024x1024 : Shape := ⟨2, ![1024, 1024]⟩
abbrev S1048576 : Shape := ⟨1, ![1048576]⟩
abbrev S523776 : Shape := ⟨1, ![523776]⟩
abbrev S1048576x1 : Shape := ⟨2, ![1048576, 1]⟩
abbrev S523776x1 : Shape := ⟨2, ![523776, 1]⟩
abbrev S523776x512 : Shape := ⟨2, ![523776, 512]⟩

abbrev nBuf : Space → Nat
  | .hbm => 181
  | .vmem => 0
  | .smem => 0
  | _ => 0

abbrev hbmTy0_0 (i : Nat) : BufTy := match i % 128 with
  | 0 => ⟨S1024x512, .f32⟩
  | 1 => ⟨S1024, .i32⟩
  | 2 => ⟨S_, .f32⟩
  | 3 => ⟨S1024x1024, .f32⟩
  | 4 => ⟨S1024x1024, .i32⟩
  | 5 => ⟨S_, .i32⟩
  | 6 => ⟨S1024x1024, .i32⟩
  | 7 => ⟨S1024x1024, .i32⟩
  | 8 => ⟨S1024x1024, .i32⟩
  | 9 => ⟨S1024x1024, .i1⟩
  | 10 => ⟨S_, .f32⟩
  | 11 => ⟨S1024x1024, .f32⟩
  | 12 => ⟨S1024x1024, .f32⟩
  | 13 => ⟨S_, .f32⟩
  | 14 => ⟨S1024x1024, .f32⟩
  | 15 => ⟨S1024x1024, .i1⟩
  | 16 => ⟨S1048576, .i1⟩
  | 17 => ⟨S1048576, .i32⟩
  | 18 => ⟨S_, .i32⟩
  | 19 => ⟨S_, .i32⟩
  | 20 => ⟨S1048576, .i32⟩
  | 21 => ⟨S_, .i32⟩
  | 22 => ⟨S523776, .i32⟩
  | 23 => ⟨S_, .i32⟩
  | 24 => ⟨S_, .i32⟩
  | 25 => ⟨S1048576, .i32⟩
  | 26 => ⟨S1048576, .i32⟩
  | 27 => ⟨S_, .i32⟩
  | 28 => ⟨S1048576, .i32⟩
  | 29 => ⟨S1048576, .i1⟩
  | 30 => ⟨S_, .i32⟩
  | 31 => ⟨S1048576, .i32⟩
  | 32 => ⟨S1048576, .i32⟩
  | 33 => ⟨S1048576, .i32⟩
  | 34 => ⟨S1048576x1, .i32⟩
  | 35 => ⟨S_, .i32⟩
  | 36 => ⟨S1048576, .i32⟩
  | 37 => ⟨S523776, .i32⟩
  | 38 => ⟨S_, .i32⟩
  | 39 => ⟨S_, .i32⟩
  | 40 => ⟨S523776, .i32⟩
  | 41 => ⟨S_, .i32⟩
  | 42 => ⟨S523776, .i32⟩
  | 43 => ⟨S523776, .i32⟩
  | 44 => ⟨S523776, .i32⟩
  | 45 => ⟨S_, .i32⟩
  | 46 => ⟨S523776, .i32⟩
  | 47 => ⟨S523776, .i1⟩
  | 48 => ⟨S523776, .i32⟩
  | 49 => ⟨S523776, .i32⟩
  | 50 => ⟨S_, .i32⟩
  | 51 => ⟨S523776, .i32⟩
  | 52 => ⟨S523776, .i1⟩
  | 53 => ⟨S523776, .i1⟩
  | 54 => ⟨S_, .i32⟩
  | 55 => ⟨S523776, .i32⟩
  | 56 => ⟨S523776, .i32⟩
  | 57 => ⟨S523776, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S523776, .i32⟩
  | 65 => ⟨S523776, .i32⟩
  | 66 => ⟨S_, .i32⟩
  | 67 => ⟨S523776, .i32⟩
  | 68 => ⟨S523776, .i1⟩
  | 69 => ⟨S_, .i32⟩
  | 70 => ⟨S523776, .i32⟩
  | 71 => ⟨S523776, .i1⟩
  | 72 => ⟨S_, .i32⟩
  | 73 => ⟨S_, .i1⟩
  | 74 => ⟨S523776, .i1⟩
  | 75 => ⟨S523776, .i1⟩
  | 76 => ⟨S523776, .i1⟩
  | 77 => ⟨S523776, .i32⟩
  | 78 => ⟨S523776, .i32⟩
  | 79 => ⟨S523776, .i32⟩
  | 80 => ⟨S_, .i32⟩
  | 81 => ⟨S523776, .i32⟩
  | 82 => ⟨S523776, .i32⟩
  | 83 => ⟨S523776, .i32⟩
  | 84 => ⟨S_, .i32⟩
  | 85 => ⟨S523776, .i32⟩
  | 86 => ⟨S523776, .i1⟩
  | 87 => ⟨S523776, .i32⟩
  | 88 => ⟨S523776, .i32⟩
  | 89 => ⟨S_, .i32⟩
  | 90 => ⟨S523776, .i32⟩
  | 91 => ⟨S523776, .i1⟩
  | 92 => ⟨S523776, .i1⟩
  | 93 => ⟨S_, .i32⟩
  | 94 => ⟨S523776, .i32⟩
  | 95 => ⟨S523776, .i32⟩
  | 96 => ⟨S523776, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S523776, .i32⟩
  | 104 => ⟨S523776, .i32⟩
  | 105 => ⟨S_, .i32⟩
  | 106 => ⟨S523776, .i32⟩
  | 107 => ⟨S523776, .i1⟩
  | 108 => ⟨S_, .i32⟩
  | 109 => ⟨S523776, .i32⟩
  | 110 => ⟨S523776, .i1⟩
  | 111 => ⟨S_, .i32⟩
  | 112 => ⟨S_, .i1⟩
  | 113 => ⟨S523776, .i1⟩
  | 114 => ⟨S523776, .i1⟩
  | 115 => ⟨S523776, .i1⟩
  | 116 => ⟨S523776, .i32⟩
  | 117 => ⟨S523776, .i32⟩
  | 118 => ⟨S523776, .i32⟩
  | 119 => ⟨S_, .i32⟩
  | 120 => ⟨S523776, .i32⟩
  | 121 => ⟨S523776, .i1⟩
  | 122 => ⟨S_, .i32⟩
  | 123 => ⟨S523776, .i32⟩
  | 124 => ⟨S523776, .i32⟩
  | 125 => ⟨S523776, .i32⟩
  | 126 => ⟨S523776x1, .i32⟩
  | 127 => ⟨S523776, .i32⟩
  | _ => ⟨S1024x512, .f32⟩

abbrev hbmTy0_1 (i : Nat) : BufTy := match i % 128 with
  | 0 => ⟨S_, .i32⟩
  | 1 => ⟨S523776, .i32⟩
  | 2 => ⟨S523776, .i1⟩
  | 3 => ⟨S_, .i32⟩
  | 4 => ⟨S523776, .i32⟩
  | 5 => ⟨S523776, .i32⟩
  | 6 => ⟨S523776, .i32⟩
  | 7 => ⟨S523776x1, .i32⟩
  | 8 => ⟨S523776, .i32⟩
  | 9 => ⟨S523776, .i1⟩
  | 10 => ⟨S_, .i32⟩
  | 11 => ⟨S523776, .i32⟩
  | 12 => ⟨S523776, .i1⟩
  | 13 => ⟨S_, .i32⟩
  | 14 => ⟨S523776, .i32⟩
  | 15 => ⟨S523776, .i32⟩
  | 16 => ⟨S523776, .i32⟩
  | 17 => ⟨S523776x1, .i32⟩
  | 18 => ⟨S523776x512, .f32⟩
  | 19 => ⟨S_, .i32⟩
  | 20 => ⟨S523776, .i32⟩
  | 21 => ⟨S523776, .i1⟩
  | 22 => ⟨S_, .i32⟩
  | 23 => ⟨S523776, .i32⟩
  | 24 => ⟨S523776, .i32⟩
  | 25 => ⟨S523776, .i32⟩
  | 26 => ⟨S523776x1, .i32⟩
  | 27 => ⟨S523776x512, .f32⟩
  | 28 => ⟨S523776x512, .f32⟩
  | 29 => ⟨S523776x512, .f32⟩
  | 30 => ⟨S_, .f32⟩
  | 31 => ⟨S523776, .f32⟩
  | 32 => ⟨S_, .f32⟩
  | 33 => ⟨S_, .f32⟩
  | 34 => ⟨S523776, .f32⟩
  | 35 => ⟨S523776, .f32⟩
  | 36 => ⟨S523776, .f32⟩
  | 37 => ⟨S_, .f32⟩
  | 38 => ⟨S523776, .f32⟩
  | 39 => ⟨S523776, .f32⟩
  | 40 => ⟨S_, .f32⟩
  | 41 => ⟨S523776, .f32⟩
  | 42 => ⟨S523776, .f32⟩
  | 43 => ⟨S523776, .f32⟩
  | 44 => ⟨S_, .f32⟩
  | 45 => ⟨S_, .f32⟩
  | 46 => ⟨S523776, .f32⟩
  | 47 => ⟨S523776, .f32⟩
  | 48 => ⟨S523776, .f32⟩
  | 49 => ⟨S_, .f32⟩
  | 50 => ⟨S_, .f32⟩
  | 51 => ⟨S_, .f32⟩
  | 52 => ⟨S_, .f32⟩
  | _ => ⟨S1024x512, .f32⟩

abbrev hbmTy (i : Nat) : BufTy := match i / 128 with
  | 0 => hbmTy0_0 i
  | 1 => hbmTy0_1 i
  | _ => ⟨S1024x512, .f32⟩

abbrev bufTy : (tb : Table) → Fin (tcTables nBuf tb) → BufTy
  | .hbm, ⟨i, _⟩ => hbmTy i
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_call1_v0 : Ref sig .tc := ⟨.hbm, 16, rfl⟩
abbrev main_call1_v1 : Ref sig .tc := ⟨.hbm, 17, rfl⟩
abbrev main_call1_call0_c : Ref sig .tc := ⟨.hbm, 18, rfl⟩
abbrev main_call1_call0_v0 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_c_1 : Ref sig .tc := ⟨.hbm, 23, rfl⟩
abbrev main_call2_v0 : Ref sig .tc := ⟨.hbm, 24, rfl⟩
abbrev main_call2_v1 : Ref sig .tc := ⟨.hbm, 25, rfl⟩
abbrev main_v6 : Ref sig .tc := ⟨.hbm, 26, rfl⟩
abbrev main_c_2 : Ref sig .tc := ⟨.hbm, 27, rfl⟩
abbrev main_v7 : Ref sig .tc := ⟨.hbm, 28, rfl⟩
abbrev main_v8 : Ref sig .tc := ⟨.hbm, 29, rfl⟩
abbrev main_c_3 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_4 : Ref sig .tc := ⟨.hbm, 35, rfl⟩
abbrev main_v13 : Ref sig .tc := ⟨.hbm, 36, rfl⟩
abbrev main_v14 : Ref sig .tc := ⟨.hbm, 37, rfl⟩
abbrev main_call3_call0_c : Ref sig .tc := ⟨.hbm, 38, rfl⟩
abbrev main_call3_call0_v0 : Ref sig .tc := ⟨.hbm, 39, rfl⟩
abbrev main_v15 : Ref sig .tc := ⟨.hbm, 40, rfl⟩
abbrev main_c_5 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_call4_v5 : Ref sig .tc := ⟨.hbm, 47, rfl⟩
abbrev main_call4_v6 : Ref sig .tc := ⟨.hbm, 48, rfl⟩
abbrev main_call4_v7 : Ref sig .tc := ⟨.hbm, 49, rfl⟩
abbrev main_call4_c : Ref sig .tc := ⟨.hbm, 50, rfl⟩
abbrev main_call4_v8 : Ref sig .tc := ⟨.hbm, 51, rfl⟩
abbrev main_call4_v9 : Ref sig .tc := ⟨.hbm, 52, rfl⟩
abbrev main_call4_v10 : Ref sig .tc := ⟨.hbm, 53, rfl⟩
abbrev main_call4_c_0 : Ref sig .tc := ⟨.hbm, 54, rfl⟩
abbrev main_call4_v11 : Ref sig .tc := ⟨.hbm, 55, rfl⟩
abbrev main_call4_v12 : Ref sig .tc := ⟨.hbm, 56, rfl⟩
abbrev main_v16 : Ref sig .tc := ⟨.hbm, 57, rfl⟩
abbrev main_c_6 : Ref sig .tc := ⟨.hbm, 58, rfl⟩
abbrev main_call5_v0 : Ref sig .tc := ⟨.hbm, 59, rfl⟩
abbrev main_call5_c : Ref sig .tc := ⟨.hbm, 60, rfl⟩
abbrev main_call5_v1 : Ref sig .tc := ⟨.hbm, 61, rfl⟩
abbrev main_call5_c_0 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_c_1 : Ref sig .tc := ⟨.hbm, 66, rfl⟩
abbrev main_call5_v5 : Ref sig .tc := ⟨.hbm, 67, rfl⟩
abbrev main_call5_v6 : Ref sig .tc := ⟨.hbm, 68, rfl⟩
abbrev main_call5_c_2 : Ref sig .tc := ⟨.hbm, 69, rfl⟩
abbrev main_call5_v7 : Ref sig .tc := ⟨.hbm, 70, rfl⟩
abbrev main_call5_v8 : Ref sig .tc := ⟨.hbm, 71, rfl⟩
abbrev main_call5_c_3 : Ref sig .tc := ⟨.hbm, 72, rfl⟩
abbrev main_call5_v9 : Ref sig .tc := ⟨.hbm, 73, rfl⟩
abbrev main_call5_v10 : Ref sig .tc := ⟨.hbm, 74, rfl⟩
abbrev main_call5_v11 : Ref sig .tc := ⟨.hbm, 75, rfl⟩
abbrev main_call5_v12 : Ref sig .tc := ⟨.hbm, 76, rfl⟩
abbrev main_call5_v13 : Ref sig .tc := ⟨.hbm, 77, rfl⟩
abbrev main_call5_v14 : Ref sig .tc := ⟨.hbm, 78, rfl⟩
abbrev main_v17 : Ref sig .tc := ⟨.hbm, 79, rfl⟩
abbrev main_c_7 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_v5 : Ref sig .tc := ⟨.hbm, 86, rfl⟩
abbrev main_call6_v6 : Ref sig .tc := ⟨.hbm, 87, rfl⟩
abbrev main_call6_v7 : Ref sig .tc := ⟨.hbm, 88, rfl⟩
abbrev main_call6_c : Ref sig .tc := ⟨.hbm, 89, rfl⟩
abbrev main_call6_v8 : Ref sig .tc := ⟨.hbm, 90, rfl⟩
abbrev main_call6_v9 : Ref sig .tc := ⟨.hbm, 91, rfl⟩
abbrev main_call6_v10 : Ref sig .tc := ⟨.hbm, 92, rfl⟩
abbrev main_call6_c_0 : Ref sig .tc := ⟨.hbm, 93, rfl⟩
abbrev main_call6_v11 : Ref sig .tc := ⟨.hbm, 94, rfl⟩
abbrev main_call6_v12 : Ref sig .tc := ⟨.hbm, 95, rfl⟩
abbrev main_v18 : Ref sig .tc := ⟨.hbm, 96, rfl⟩
abbrev main_c_8 : Ref sig .tc := ⟨.hbm, 97, rfl⟩
abbrev main_call7_v0 : Ref sig .tc := ⟨.hbm, 98, rfl⟩
abbrev main_call7_c : Ref sig .tc := ⟨.hbm, 99, rfl⟩
abbrev main_call7_v1 : Ref sig .tc := ⟨.hbm, 100, rfl⟩
abbrev main_call7_c_0 : Ref sig .tc := ⟨.hbm, 101, rfl⟩
abbrev main_call7_v2 : Ref sig .tc := ⟨.hbm, 102, rfl⟩
abbrev main_call7_v3 : Ref sig .tc := ⟨.hbm, 103, rfl⟩
abbrev main_call7_v4 : Ref sig .tc := ⟨.hbm, 104, rfl⟩
abbrev main_call7_c_1 : Ref sig .tc := ⟨.hbm, 105, rfl⟩
abbrev main_call7_v5 : Ref sig .tc := ⟨.hbm, 106, rfl⟩
abbrev main_call7_v6 : Ref sig .tc := ⟨.hbm, 107, rfl⟩
abbrev main_call7_c_2 : Ref sig .tc := ⟨.hbm, 108, rfl⟩
abbrev main_call7_v7 : Ref sig .tc := ⟨.hbm, 109, rfl⟩
abbrev main_call7_v8 : Ref sig .tc := ⟨.hbm, 110, rfl⟩
abbrev main_call7_c_3 : Ref sig .tc := ⟨.hbm, 111, rfl⟩
abbrev main_call7_v9 : Ref sig .tc := ⟨.hbm, 112, rfl⟩
abbrev main_call7_v10 : Ref sig .tc := ⟨.hbm, 113, rfl⟩
abbrev main_call7_v11 : Ref sig .tc := ⟨.hbm, 114, rfl⟩
abbrev main_call7_v12 : Ref sig .tc := ⟨.hbm, 115, rfl⟩
abbrev main_call7_v13 : Ref sig .tc := ⟨.hbm, 116, rfl⟩
abbrev main_call7_v14 : Ref sig .tc := ⟨.hbm, 117, rfl⟩
abbrev main_v19 : Ref sig .tc := ⟨.hbm, 118, rfl⟩
abbrev main_c_9 : Ref sig .tc := ⟨.hbm, 119, rfl⟩
abbrev main_v20 : Ref sig .tc := ⟨.hbm, 120, rfl⟩
abbrev main_v21 : Ref sig .tc := ⟨.hbm, 121, rfl⟩
abbrev main_c_10 : Ref sig .tc := ⟨.hbm, 122, rfl⟩
abbrev main_v22 : Ref sig .tc := ⟨.hbm, 123, rfl⟩
abbrev main_v23 : Ref sig .tc := ⟨.hbm, 124, rfl⟩
abbrev main_v24 : Ref sig .tc := ⟨.hbm, 125, rfl⟩
abbrev main_v25 : Ref sig .tc := ⟨.hbm, 126, rfl⟩
abbrev main_v26 : Ref sig .tc := ⟨.hbm, 127, rfl⟩
abbrev main_c_11 : Ref sig .tc := ⟨.hbm, 128, rfl⟩
abbrev main_v27 : Ref sig .tc := ⟨.hbm, 129, rfl⟩
abbrev main_v28 : Ref sig .tc := ⟨.hbm, 130, rfl⟩
abbrev main_c_12 : Ref sig .tc := ⟨.hbm, 131, rfl⟩
abbrev main_v29 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_c_13 : Ref sig .tc := ⟨.hbm, 138, rfl⟩
abbrev main_v35 : Ref sig .tc := ⟨.hbm, 139, rfl⟩
abbrev main_v36 : Ref sig .tc := ⟨.hbm, 140, rfl⟩
abbrev main_c_14 : Ref sig .tc := ⟨.hbm, 141, rfl⟩
abbrev main_v37 : Ref sig .tc := ⟨.hbm, 142, rfl⟩
abbrev main_v38 : Ref sig .tc := ⟨.hbm, 143, rfl⟩
abbrev main_v39 : Ref sig .tc := ⟨.hbm, 144, rfl⟩
abbrev main_v40 : Ref sig .tc := ⟨.hbm, 145, rfl⟩
abbrev main_v41 : Ref sig .tc := ⟨.hbm, 146, rfl⟩
abbrev main_c_15 : Ref sig .tc := ⟨.hbm, 147, rfl⟩
abbrev main_v42 : Ref sig .tc := ⟨.hbm, 148, rfl⟩
abbrev main_v43 : Ref sig .tc := ⟨.hbm, 149, rfl⟩
abbrev main_c_16 : Ref sig .tc := ⟨.hbm, 150, rfl⟩
abbrev main_v44 : Ref sig .tc := ⟨.hbm, 151, rfl⟩
abbrev main_v45 : Ref sig .tc := ⟨.hbm, 152, rfl⟩
abbrev main_v46 : Ref sig .tc := ⟨.hbm, 153, rfl⟩
abbrev main_v47 : Ref sig .tc := ⟨.hbm, 154, rfl⟩
abbrev main_v48 : Ref sig .tc := ⟨.hbm, 155, rfl⟩
abbrev main_v49 : Ref sig .tc := ⟨.hbm, 156, rfl⟩
abbrev main_v50 : Ref sig .tc := ⟨.hbm, 157, rfl⟩
abbrev main_cst_17 : Ref sig .tc := ⟨.hbm, 158, rfl⟩
abbrev main_v51 : Ref sig .tc := ⟨.hbm, 159, rfl⟩
abbrev main_cst_18 : Ref sig .tc := ⟨.hbm, 160, rfl⟩
abbrev main_call8_v0 : Ref sig .tc := ⟨.hbm, 161, rfl⟩
abbrev main_call8_v1 : Ref sig .tc := ⟨.hbm, 162, rfl⟩
abbrev main_v52 : Ref sig .tc := ⟨.hbm, 163, rfl⟩
abbrev main_v53 : Ref sig .tc := ⟨.hbm, 164, rfl⟩
abbrev main_cst_19 : Ref sig .tc := ⟨.hbm, 165, rfl⟩
abbrev main_v54 : Ref sig .tc := ⟨.hbm, 166, rfl⟩
abbrev main_v55 : Ref sig .tc := ⟨.hbm, 167, rfl⟩
abbrev main_call9_cst : Ref sig .tc := ⟨.hbm, 168, rfl⟩
abbrev main_call9_v0 : Ref sig .tc := ⟨.hbm, 169, rfl⟩
abbrev main_v56 : Ref sig .tc := ⟨.hbm, 170, rfl⟩
abbrev main_v57 : Ref sig .tc := ⟨.hbm, 171, rfl⟩
abbrev main_cst_20 : Ref sig .tc := ⟨.hbm, 172, rfl⟩
abbrev main_call10_v0 : Ref sig .tc := ⟨.hbm, 173, rfl⟩
abbrev main_call10_v1 : Ref sig .tc := ⟨.hbm, 174, rfl⟩
abbrev main_v58 : Ref sig .tc := ⟨.hbm, 175, rfl⟩
abbrev main_v59 : Ref sig .tc := ⟨.hbm, 176, rfl⟩
abbrev main_cst_21 : Ref sig .tc := ⟨.hbm, 177, rfl⟩
abbrev main_v60 : Ref sig .tc := ⟨.hbm, 178, rfl⟩
abbrev main_cst_22 : Ref sig .tc := ⟨.hbm, 179, rfl⟩
abbrev main_v61 : Ref sig .tc := ⟨.hbm, 180, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  shapeCasts_S1024x1024_S1048576 : S1024x1024.ShapeCasts S1048576
  natLt_1_32 : 1 < 32
  bcast_S_S_ : S_.BroadcastsInDim S_ (![] : Fin 0 → Fin S_.rank)
  reduceWindows_S1048576_S1048576_w1048576s1p1048575_0 : S1048576.ReduceWindows (![1048576] : Fin 1 → Nat) ![1] ![1048575] ![0] S1048576
  h_S_ : 0 < S_.numel
  bcast_S_S523776 : S_.BroadcastsInDim S523776 (![] : Fin 0 → Fin S523776.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  reduceWindows_S523776_S523776_w523776s1p523775_0 : S523776.ReduceWindows (![523776] : Fin 1 → Nat) ![1] ![523775] ![0] S523776
  bcast_S523776_S523776x1_0 : S523776.BroadcastsInDim S523776x1 (![0] : Fin 1 → Fin S523776x1.rank)
  reducesTo_S523776x512_S523776_d1 : S523776x512.ReducesTo [1] S523776
  reducesTo_S523776_S_d0 : S523776.ReducesTo [0] S_
  scatter_S523776_S1048576x1_S1048576_n_0_0_1_wf : ScatterDims.WF S523776 S1048576x1 S1048576 [] [0] [0] 1
  gather_S1024_S523776x1_S523776_n_0_n_n_0_1_1_wf : GatherDims.WF S1024 S523776x1 S523776 [] [0] [] [0] [] 1 ![1]
  gather_S1024x512_S523776x1_S523776x512_1_0_n_n_0_1_1512_wf : GatherDims.WF S1024x512 S523776x1 S523776x512 [1] [0] [] [0] [] 1 ![1, 512]

variable [Facts₀]

def scatter_S523776_S1048576x1_S1048576_n_0_0_1 : ScatterDims S523776 S1048576x1 S1048576 where
  updateWindowDims := []
  insertedWindowDims := [0]
  scatterDimsToOperandDims := [0]
  indexVectorDim := 1
  wf := scatter_S523776_S1048576x1_S1048576_n_0_0_1_wf
def gather_S1024_S523776x1_S523776_n_0_n_n_0_1_1 : GatherDims S1024 S523776x1 S523776 where
  offsetDims := []
  collapsedSliceDims := [0]
  operandBatchingDims := []
  startIndicesBatchingDims := []
  startIndexMap := [0]
  indexVectorDim := 1
  sliceSizes := ![1]
  wf := gather_S1024_S523776x1_S523776_n_0_n_n_0_1_1_wf
def gather_S1024x512_S523776x1_S523776x512_1_0_n_n_0_1_1512 : GatherDims S1024x512 S523776x1 S523776x512 where
  offsetDims := [1]
  collapsedSliceDims := [0]
  operandBatchingDims := []
  startIndicesBatchingDims := []
  startIndexMap := [0]
  indexVectorDim := 1
  sliceSizes := ![1, 512]
  wf := gather_S1024x512_S523776x1_S523776x512_1_0_n_n_0_1_1512_wf

class Facts : Prop extends Facts₀ where

variable [Facts]
-- ==== Proof.KernelPreserves.lean ====
/-
  The ledger's one entry: the certificate's table gives the name "pair_scale" the rational 1 / 1047552
  = 1 / (1024 · 1023), and the printed constant is that value at the ideal instance.
-/
import proofs.«144406_g54881092108806_cont_sun_m_11_6_alg».proof.Defs

noncomputable section

open Idealize.ShloMosaic

namespace Cert.KernelIdeal.KValue

/-- The named constant "pair_scale" denotes 1 / 1047552 at the ideal instance, by the certificate's table. -/
theorem preserves : Cert.preserves_Kernel_KernelIdeal :=
  IdealRules.named_const.statement Cert.KernelIdeal.κ "pair_scale" .f32 0x35802008#32 ((1 / 1047552 : ℝ) : EReal) rfl

end Cert.KernelIdeal.KValue

end
-- ==== Proof.Spec.lean ====
/-
  The mathematics both programs compute, stated once over plain coordinates.

  For rows x_0 … x_1023 of 512 extended reals and integer labels, the loss of a pair (i, j) is the squared distance
  of the two rows when the labels agree, and the squared hinge (max (1 − distance) 0)² when they differ.

  The kernel reads the squared distance as ‖x_i‖² + ‖x_j‖² − 2⟨x_i, x_j⟩ clamped at zero, sums the loss over ALL
  ordered pairs and multiplies by 1 / (1024 · 1023); the reference reads it as Σ_k (x_ik − x_jk)², sums over an
  enumeration of the 523776 pairs i < j and divides by 523776.
-/
import Mathlib
import Idealize.ShloMosaic.PureOps.Ideal

noncomputable section

open scoped BigOperators
open Idealize.ShloMosaic

namespace Cert.PairLoss

/-- ‖x_i‖² as a sum of products. -/
def sq (x : Fin 1024 → Fin 512 → EReal) (i : Fin 1024) : EReal := ∑ k : Fin 512, x i k * x i k

/-- ⟨x_i, x_j⟩. -/
def gram (x : Fin 1024 → Fin 512 → EReal) (i j : Fin 1024) : EReal := ∑ k : Fin 512, x i k * x j k

/-- The kernel's squared distance: the expansion ‖x_i‖² + ‖x_j‖² − 2⟨x_i, x_j⟩, clamped at zero. -/
def distK (x : Fin 1024 → Fin 512 → EReal) (i j : Fin 1024) : EReal :=
  max (sq x i + sq x j - ((2 : ℝ) : EReal) * gram x i j) 0

/-- The squared hinge of a squared distance `d`: (max (1 − √d) 0)². -/
def hinge (d : EReal) : EReal := max (((1 : ℝ) : EReal) - Ideal.sqrt d) 0 * max (((1 : ℝ) : EReal) - Ideal.sqrt d) 0

/-- The kernel's loss of the ordered pair (i, j). -/
def lossK (x : Fin 1024 → Fin 512 → EReal) (lab : Fin 1024 → BitVec 32) (i j : Fin 1024) : EReal :=
  if lab i = lab j then distK x i j else hinge (distK x i j)

/-- The kernel's result: the loss summed over all ordered pairs, times 1 / (1024 · 1023). -/
def kernelVal (x : Fin 1024 → Fin 512 → EReal) (lab : Fin 1024 → BitVec 32) : EReal :=
  (∑ i : Fin 1024, ∑ j : Fin 1024, lossK x lab i j) * ((1 / 1047552 : ℝ) : EReal)

/-- The reference's squared distance: Σ_k (x_ik − x_jk)². -/
def distR (x : Fin 1024 → Fin 512 → EReal) (i j : Fin 1024) : EReal :=
  ∑ k : Fin 512, (x i k - x j k) * (x i k - x j k)

/-- The reference's loss of the pair (i, j): the positive part plus the negative part, one of them zero. -/
def lossR (x : Fin 1024 → Fin 512 → EReal) (lab : Fin 1024 → BitVec 32) (i j : Fin 1024) : EReal :=
  (if lab i = lab j then distR x i j else 0) + (if lab i = lab j then 0 else hinge (distR x i j))

/-- The reference's result over an enumeration `e` of pairs: the mean of the loss over the 523776 enumerated pairs. -/
def refVal (x : Fin 1024 → Fin 512 → EReal) (lab : Fin 1024 → BitVec 32) (e : Fin 523776 → Fin 1024 × Fin 1024) : EReal :=
  Ideal.div (∑ k : Fin 523776, lossR x lab (e k).1 (e k).2) ((523776 : ℝ) : EReal)

/-! ## The enumeration of the pairs i < j in row-major order, by counting -/

/-- Position `q` of the flattened 1024 × 1024 matrix lies strictly above the diagonal. -/
def above (q : ℕ) : Prop := q / 1024 < q % 1024

instance : DecidablePred above := fun q => inferInstanceAs (Decidable (q / 1024 < q % 1024))

/-- The inclusive running count of positions above the diagonal: how many `q ≤ p` lie above it. -/
def cnt (p : ℕ) : ℕ := ((Finset.range (p + 1)).filter above).card

/-- How many positions `p < 1024²` have running count at most `k`: the position of the (k+1)-th one. -/
def pos (k : ℕ) : ℕ := ((Finset.range 1048576).filter fun p => cnt p ≤ k).card

end Cert.PairLoss

end
-- ==== Proof.LibMatmul.lean ====
/-
  A matrix product with ONE contracted axis, into the zero accumulator, read at an output index: the sum over that
  axis's coordinate k of the left operand at L k times the right operand at R k, for any functions L, R that give the
  two operand indices at each contraction position with coordinate k.
-/
import Idealize.ShloMosaic.PureOps.Ideal
import Idealize.ShloMosaic.PureOps.Ideal.Laws
import Idealize.ShloMosaic.Lib.ValueIdx

noncomputable section

namespace Cert.LibMatmul

open Idealize.ShloMosaic Idealize.ShloMosaic.ValueIdx

/-- Σ over the contraction index re-indexed by its one coordinate. -/
theorem matmul_zero_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

end Cert.LibMatmul

end
-- ==== Proof.LibKeepdims.lean ====
/-
  The "keepdims" column forms of two layout operations, read at an index given by its coordinates.

  A length-a vector viewed as an a × 1 column reads, at (i, ·), the vector at i; an a × 1 column broadcast to
  a × b reads, at (p, c), the column at (p, 0). (The third form a row sum with keepdims meets, the column
  transposed to a 1 × a row, is the library's matrix transpose at b = 1.)
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.KernelLayout.lean ====
/-
  Small facts about indices, layouts and two float words, independent of any program.

  A sum over the indices of a 1 × a × b array is the double sum over its last two coordinates; a one-element
  vector viewed as a 1 × 1 × 1 array and read at its one position is the vector's one entry; the single-precision
  words of one and of two denote the reals 1 and 2.
-/
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.IdealHost

noncomputable section

open scoped BigOperators

namespace Cert.PairLoss.Layout

open Idealize.ShloMosaic Idealize.ShloMosaic.ValueIdx

/-- The indices of a 1 × a × b array are the pairs of its last two coordinates … -/
def idxEquiv3u {a b : Nat} : (⟨3, ![1, a, b]⟩ : Shape).Idx ≃ Fin a × Fin b where
  toFun i := (i 1, i 2)
  invFun p := ix3 (0 : Fin 1) p.1 p.2
  left_inv i := by
    funext d
    match d with
    | ⟨0, _⟩ =>
      have h1 : (i 0).val < 1 := (i 0).isLt
      exact Fin.ext (show 0 = (i 0).val by omega)
    | ⟨1, _⟩ => rfl
    | ⟨2, _⟩ => rfl
  right_inv _ := rfl

/-- … so a sum over them is the double sum over those coordinates. -/
theorem sum_idx3u {M : Type*} [AddCommMonoid M] {a b : Nat} (f : (⟨3, ![1, a, b]⟩ : Shape).Idx → M) :
    ∑ i, f i = ∑ p : Fin a, ∑ q : Fin b, f (ix3 (0 : Fin 1) p q) := by
  rw [← Equiv.sum_comp (idxEquiv3u (a := a) (b := b)).symm f, Fintype.sum_prod_type]
  rfl

/-- A one-element vector cast to 1 × 1 × 1 and read at position (0, 0, 0) is its one entry. -/
theorem extract_cast_111 {α : Type} (v : (⟨1, ![1]⟩ : Shape).Idx → α)
    (h : (⟨1, ![1]⟩ : Shape).ShapeCasts ⟨3, ![1, 1, 1]⟩)
    (hp : ∀ a, (![0, 0, 0] : Fin 3 → Nat) a < (⟨3, ![1, 1, 1]⟩ : Shape).size a) :
    extractAt ![0, 0, 0] (shapeCast ⟨3, ![1, 1, 1]⟩ v h) hp = v (ix1 (0 : Fin 1)) := by
  unfold extractAt
  refine shapeCast_apply v h _ _ ?_
  rw [Shape.rowMajor_val_three, Shape.rowMajor_val_one]
  rfl

/-- The single-precision word of 1.0 is the real one. -/
theorem ofBits_one : Ideal.ofBits .f32 0x3F800000#32 = ((1 : ℝ) : EReal) := by
  rw [Ideal.ofBits_one_f32]; norm_cast

/-- The single-precision word of 2.0 is the real two. -/
theorem ofBits_two : Ideal.ofBits .f32 0x40000000#32 = ((2 : ℝ) : EReal) := by
  simp [Ideal.ofBits, Ideal.ieee, -EReal.coe_mul]; norm_num

end Cert.PairLoss.Layout

end
-- ==== Proof.KernelPayload.lean ====
/-
  The kernel body's arithmetic, read index by index at exact (extended-real) arithmetic.

  The body takes the 1024 × 512 block x, the labels as a 1024 × 1 column and as a 1 × 1024 row, and stores one
  number. Its stages, each a 1024 × 1024 array:
    · the Gram matrix  g(i, j) = Σ_k x_ik · x_jk  (a product contracting the second axis of both operands);
    · the squared norms along the rows,  Σ_k x_ik · x_ik, computed twice: as a lane sum kept as a column and
      spread over the columns (so it reads ‖x_i‖² at (i, j)), and as the product of a row of ones with x ∘ x,
      a 1 × 1024 row spread over the rows (so it reads 1 · ‖x_j‖² at (i, j));
    · the clamped squared distance  max (‖x_i‖² + ‖x_j‖² − 2 · g(i, j)) 0;
    · the label test: the column spread over columns against the row spread over rows, so (i, j) compares
      label i with label j;
    · the loss: the distance where the labels agree, the squared hinge (max (1 − √d) 0)² where they differ.
  The loss is then summed over all of its 1024 × 1024 entries and multiplied by the named scale 1 / 1047552.
  Each stage is named, the body is their composition by definition, and each is read at (i, j).
-/
import proofs.«144406_g54881092108806_cont_sun_m_11_6_alg».proof.Proof.Gen.KernelIdeal.Skeleton
import proofs.«144406_g54881092108806_cont_sun_m_11_6_alg».proof.Proof.Spec
import proofs.«144406_g54881092108806_cont_sun_m_11_6_alg».proof.Proof.LibMatmul
import proofs.«144406_g54881092108806_cont_sun_m_11_6_alg».proof.Proof.LibKeepdims
import proofs.«144406_g54881092108806_cont_sun_m_11_6_alg».proof.Proof.KernelLayout
import Idealize.ShloMosaic.Lib.ValueLayout

noncomputable section

open scoped BigOperators

namespace Cert.KernelIdeal.KValue

open Idealize.ShloMosaic Idealize.ShloMosaic.ValueIdx Cert.KernelIdeal Cert.KernelIdeal.Gen

/-- The block's rows by coordinates. -/
def rows (v0 : FVec Ideal S1024x512 .f32) : Fin 1024 → Fin 512 → EReal := fun i k => v0 (ix2 i k)

/-! ## The stages -/

/-- The Gram matrix of the rows. -/
def gramV (v0 : FVec Ideal S1024x512 .f32) : FVec Ideal S1024x1024 .f32 :=
  matmul dot_S1024x512_S1024x512_S1024x1024_1_1_0_0_n_n none v0 v0 (constant S1024x1024 .f32 0x00000000#32)

/-- The squared norms as a lane sum. -/
def normV (v0 : FVec Ideal S1024x512 .f32) : FVec Ideal S1024 .f32 :=
  multiReduction .add [1] S1024 (mulf v0 v0) 0x00000000#32 reduces_S1024x512_S1024 (.inl rfl) rfl

/-- The squared norms kept as a column and spread over the columns. -/
def sqColV (v0 : FVec Ideal S1024x512 .f32) : FVec Ideal S1024x1024 .f32 :=
  broadcastTo S1024x1024 (shapeCast S1024x1 (normV v0) shapeCasts_S1024_S1024x1) broadcasts_S1024x1_S1024x1024

/-- The squared norms as a row of ones times x ∘ x. -/
def normRowV (v0 : FVec Ideal S1024x512 .f32) : FVec Ideal S1x1024 .f32 :=
  matmul dot_S1x512_S1024x512_S1x1024_1_1_0_0_n_n none (broadcast S1x512 (Scalar.ofBits .f32 0x3F800000#32)) (mulf v0 v0)
    (constant S1x1024 .f32 0x00000000#32)

/-- That row spread over the rows. -/
def sqRowV (v0 : FVec Ideal S1024x512 .f32) : FVec Ideal S1024x1024 .f32 :=
  broadcastTo S1024x1024 (normRowV v0) broadcasts_S1x1024_S1024x1024

/-- The clamped squared distance. -/
def distV (v0 : FVec Ideal S1024x512 .f32) : FVec Ideal S1024x1024 .f32 :=
  maximumf (subf (addf (sqColV v0) (sqRowV v0)) (mulf (broadcast S1024x1024 (Scalar.ofBits .f32 0x40000000#32)) (gramV v0)))
    (broadcast S1024x1024 (Scalar.ofBits .f32 0x00000000#32))

/-- The label test. -/
def sameV (v16 : IVec S1024x1 32) (v18 : IVec S1x1024 32) : IVec S1024x1024 1 :=
  cmpi .eq (broadcastTo S1024x1024 (shapeCast S1024x1 v16 shapeCasts_S1024x1_S1024x1) broadcasts_S1024x1_S1024x1024)
    (broadcastTo S1024x1024 (shapeCast S1x1024 v18 shapeCasts_S1x1024_S1x1024) broadcasts_S1x1024_S1024x1024)

/-- The hinge max (1 − √d) 0. -/
def marginV (v0 : FVec Ideal S1024x512 .f32) : FVec Ideal S1024x1024 .f32 :=
  maximumf (subf (broadcast S1024x1024 (Scalar.ofBits .f32 0x3F800000#32)) (sqrt (distV v0)))
    (broadcast S1024x1024 (Scalar.ofBits .f32 0x00000000#32))

/-- The loss of every ordered pair. -/
def lossV (v0 : FVec Ideal S1024x512 .f32) (v16 : IVec S1024x1 32) (v18 : IVec S1x1024 32) :
    FVec Ideal S1024x1024 .f32 :=
  select (sameV v16 v18) (distV v0) (mulf (marginV v0) (marginV v0))

/-- The sum of the loss over every entry, as the body takes it: a reduction of the 1 × 1024 × 1024 view over its last
    two axes. -/
def totalV (v0 : FVec Ideal S1024x512 .f32) (v16 : IVec S1024x1 32) (v18 : IVec S1x1024 32) : FVec Ideal S1 .f32 :=
  multiReduction .add [1, 2] S1 (shapeCast S1x1024x1024 (lossV v0 v16 v18) shapeCasts_S1024x1024_S1x1024x1024) 0x00000000#32
    reduces_S1x1024x1024_S1 (.inl rfl) rfl

/-- The body's stored value is the composition of the stages: by definition. -/
theorem pay_stages (v0 : FVec Ideal S1024x512 .f32) (v16 : IVec S1024x1 32) (v18 : IVec S1x1024 32) :
    k0_pay1 (F := Ideal) v0 v16 v18
      = mulf (broadcast S1x1 (extractAt ![0, 0, 0] (shapeCast S1x1x1 (totalV v0 v16 v18) shapeCasts_S1_S1x1x1) inpos_S1x1x1_p0_0_0))
          (broadcast S1x1 (Named.named (F := Ideal) κ "pair_scale" (φ := .f32) 0x35802008#32)) := rfl

/-! ## Each stage at an index -/

/-- The Gram matrix at (i, j) is ⟨x_i, x_j⟩. -/
theorem gramV_apply (v0 : FVec Ideal S1024x512 .f32) (i j : Fin 1024) :
    gramV v0 (ix2 i j) = PairLoss.gram (rows v0) i j := by
  unfold gramV
  refine Cert.LibMatmul.matmul_zero_sum1 dot_S1024x512_S1024x512_S1024x1024_1_1_0_0_n_n none 512 rfl rfl v0 v0 (ix2 i j)
    (fun k => ix2 i k) (fun k => ix2 j k) ?_ ?_
  · intro q k hk
    funext a
    match a with
    | ⟨0, _⟩ => exact Fin.ext rfl
    | ⟨1, _⟩ =>
      exact Fin.ext ((dot_S1024x512_S1024x512_S1024x1024_1_1_0_0_n_n.lhsIdx_val_of_single (cl := ⟨1, by decide⟩) rfl (ix2 i j) q).trans hk)
  · intro q k hk
    funext a
    match a with
    | ⟨0, _⟩ => exact Fin.ext rfl
    | ⟨1, _⟩ =>
      exact Fin.ext ((dot_S1024x512_S1024x512_S1024x1024_1_1_0_0_n_n.rhsIdx_val_of_single (cr := ⟨1, by decide⟩) rfl (ix2 i j) q).trans hk)

/-- The index of row i with lane k inserted is (i, k). -/
theorem lift_row (i : Fin 1024) (k : Fin 512) : (reduces_S1024x512_S1024).lift (ix1 i) k = ix2 i k := by
  funext a
  match a with
  | ⟨0, _⟩ => rfl
  | ⟨1, _⟩ => rfl

/-- The lane sum at i is ‖x_i‖². -/
theorem normV_apply (v0 : FVec Ideal S1024x512 .f32) (i : Fin 1024) : normV v0 (ix1 i) = PairLoss.sq (rows v0) i := by
  unfold normV
  refine (Ideal.multiReduction_add_single (mulf v0 v0) 0x00000000#32 reduces_S1024x512_S1024 (.inl rfl) rfl (ix1 i)).trans ?_
  show ∑ k : Fin 512, mulf v0 v0 ((reduces_S1024x512_S1024).lift (ix1 i) k) = ∑ k : Fin 512, v0 (ix2 i k) * v0 (ix2 i k)
  refine Finset.sum_congr rfl fun k _ => ?_
  rw [lift_row]
  rfl

/-- Kept as a column and spread over the columns, it reads ‖x_i‖² at (i, j). -/
theorem sqColV_apply (v0 : FVec Ideal S1024x512 .f32) (i j : Fin 1024) : sqColV v0 (ix2 i j) = PairLoss.sq (rows v0) i := by
  unfold sqColV
  refine (Cert.LibKeepdims.broadcastTo_a1_ab_apply (a := 1024) (b := 1024) _ broadcasts_S1024x1_S1024x1024 i j).trans ?_
  refine (Cert.LibKeepdims.shapeCast_a_a1_apply (a := 1024) _ shapeCasts_S1024_S1024x1 i (0 : Fin 1)).trans ?_
  exact normV_apply v0 i

/-- The row of ones times x ∘ x at (0, j) is ‖x_j‖². -/
theorem normRowV_apply (v0 : FVec Ideal S1024x512 .f32) (j : Fin 1024) :
    normRowV v0 (ix2 (0 : Fin 1) j) = PairLoss.sq (rows v0) j := by
  unfold normRowV
  refine (Cert.LibMatmul.matmul_zero_sum1 dot_S1x512_S1024x512_S1x1024_1_1_0_0_n_n none 512 rfl rfl _ _ (ix2 (0 : Fin 1) j)
    (fun k => ix2 (0 : Fin 1) k) (fun k => ix2 j k) ?_ ?_).trans ?_
  · intro q k hk
    funext a
    match a with
    | ⟨0, _⟩ => exact Fin.ext rfl
    | ⟨1, _⟩ =>
      exact Fin.ext ((dot_S1x512_S1024x512_S1x1024_1_1_0_0_n_n.lhsIdx_val_of_single (cl := ⟨1, by decide⟩) rfl (ix2 (0 : Fin 1) j) q).trans hk)
  · intro q k hk
    funext a
    match a with
    | ⟨0, _⟩ => exact Fin.ext rfl
    | ⟨1, _⟩ =>
      exact Fin.ext ((dot_S1x512_S1024x512_S1x1024_1_1_0_0_n_n.rhsIdx_val_of_single (cr := ⟨1, by decide⟩) rfl (ix2 (0 : Fin 1) j) q).trans hk)
  · refine Finset.sum_congr rfl fun k _ => ?_
    show Ideal.ofBits .f32 0x3F800000#32 * (v0 (ix2 j k) * v0 (ix2 j k)) = v0 (ix2 j k) * v0 (ix2 j k)
    rw [Ideal.ofBits_one_f32, one_mul]

/-- Spread over the rows, it reads ‖x_j‖² at (i, j). -/
theorem sqRowV_apply (v0 : FVec Ideal S1024x512 .f32) (i j : Fin 1024) : sqRowV v0 (ix2 i j) = PairLoss.sq (rows v0) j := by
  unfold sqRowV
  refine (broadcastTo_1b_ab_apply (a := 1024) (b := 1024) _ broadcasts_S1x1024_S1024x1024 i j).trans ?_
  exact normRowV_apply v0 j

/-- The clamped squared distance at (i, j). -/
theorem distV_apply (v0 : FVec Ideal S1024x512 .f32) (i j : Fin 1024) : distV v0 (ix2 i j) = PairLoss.distK (rows v0) i j := by
  unfold distV
  show max (sqColV v0 (ix2 i j) + sqRowV v0 (ix2 i j) - Ideal.ofBits .f32 0x40000000#32 * gramV v0 (ix2 i j))
      (Ideal.ofBits .f32 0x00000000#32) = _
  rw [sqColV_apply, sqRowV_apply, gramV_apply, PairLoss.Layout.ofBits_two, Ideal.ofBits_zero_f32]
  rfl

/-- The hinge at (i, j). -/
theorem marginV_apply (v0 : FVec Ideal S1024x512 .f32) (i j : Fin 1024) :
    marginV v0 (ix2 i j) = max (((1 : ℝ) : EReal) - Ideal.sqrt (PairLoss.distK (rows v0) i j)) 0 := by
  unfold marginV
  show max (Ideal.ofBits .f32 0x3F800000#32 - Ideal.sqrt (distV v0 (ix2 i j))) (Ideal.ofBits .f32 0x00000000#32) = _
  rw [distV_apply, PairLoss.Layout.ofBits_one, Ideal.ofBits_zero_f32]

/-- The label test at (i, j) compares label i with label j. -/
theorem sameV_apply (v16 : IVec S1024x1 32) (v18 : IVec S1x1024 32) (lab : Fin 1024 → BitVec 32)
    (h16 : ∀ i : Fin 1024, v16 (ix2 i (0 : Fin 1)) = lab i) (h18 : ∀ j : Fin 1024, v18 (ix2 (0 : Fin 1) j) = lab j)
    (i j : Fin 1024) : sameV v16 v18 (ix2 i j) = IntOp.cmpi .eq (lab i) (lab j) := by
  unfold sameV
  show IntOp.cmpi .eq
      (broadcastTo S1024x1024 (shapeCast S1024x1 v16 shapeCasts_S1024x1_S1024x1) broadcasts_S1024x1_S1024x1024 (ix2 i j))
      (broadcastTo S1024x1024 (shapeCast S1x1024 v18 shapeCasts_S1x1024_S1x1024) broadcasts_S1x1024_S1024x1024 (ix2 i j)) = _
  rw [shapeCast_self, shapeCast_self,
    Cert.LibKeepdims.broadcastTo_a1_ab_apply (a := 1024) (b := 1024) v16 broadcasts_S1024x1_S1024x1024 i j,
    broadcastTo_1b_ab_apply (a := 1024) (b := 1024) v18 broadcasts_S1x1024_S1024x1024 i j, h16, h18]

/-- Choosing by the equality test of two words is choosing by their equality. -/
theorem select_cmpi_eq {α : Type} (a b : BitVec 32) (A B : α) :
    Scalar.select (IntOp.cmpi .eq a b) A B = if a = b then A else B := by
  have hc : IntOp.cmpi .eq a b = BitVec.ofBool (a == b) := rfl
  rw [hc]
  unfold Scalar.select
  cases hb : (a == b) with
  | false =>
    have hne : ¬ a = b := fun e => by rw [e, beq_self_eq_true] at hb; exact Bool.noConfusion hb
    rw [if_neg hne]
    exact if_neg (by decide)
  | true =>
    rw [if_pos (eq_of_beq hb)]
    exact if_pos rfl

/-- The loss at (i, j). -/
theorem lossV_apply (v0 : FVec Ideal S1024x512 .f32) (v16 : IVec S1024x1 32) (v18 : IVec S1x1024 32)
    (lab : Fin 1024 → BitVec 32)
    (h16 : ∀ i : Fin 1024, v16 (ix2 i (0 : Fin 1)) = lab i) (h18 : ∀ j : Fin 1024, v18 (ix2 (0 : Fin 1) j) = lab j)
    (i j : Fin 1024) : lossV v0 v16 v18 (ix2 i j) = PairLoss.lossK (rows v0) lab i j := by
  unfold lossV
  show Scalar.select (sameV v16 v18 (ix2 i j)) (distV v0 (ix2 i j)) (marginV v0 (ix2 i j) * marginV v0 (ix2 i j)) = _
  rw [sameV_apply v16 v18 lab h16 h18, distV_apply, marginV_apply, select_cmpi_eq]
  rfl

/-! ## The stored value -/

/-- The named scale is 1 / 1047552, by the certificate's table. -/
theorem scale_eq : Named.named (F := Ideal) κ "pair_scale" (φ := .f32) 0x35802008#32 = ((1 / 1047552 : ℝ) : EReal) :=
  IdealRules.named_const.ideal_named_scalar _ _ _ _ rfl

/-- The sum over every entry is the double sum of the pair losses. -/
theorem totalV_apply (v0 : FVec Ideal S1024x512 .f32) (v16 : IVec S1024x1 32) (v18 : IVec S1x1024 32)
    (lab : Fin 1024 → BitVec 32)
    (h16 : ∀ i : Fin 1024, v16 (ix2 i (0 : Fin 1)) = lab i) (h18 : ∀ j : Fin 1024, v18 (ix2 (0 : Fin 1) j) = lab j) :
    totalV v0 v16 v18 (ix1 (0 : Fin 1)) = ∑ i : Fin 1024, ∑ j : Fin 1024, PairLoss.lossK (rows v0) lab i j := by
  unfold totalV
  refine (Ideal.multiReduction_add_total _ 0x00000000#32 reduces_S1x1024x1024_S1
    (fun b => by match b with | ⟨0, _⟩ => rfl) (.inl rfl) rfl (ix1 (0 : Fin 1))).trans ?_
  refine (PairLoss.Layout.sum_idx3u (a := 1024) (b := 1024) _).trans ?_
  refine Finset.sum_congr rfl fun i _ => Finset.sum_congr rfl fun j _ => ?_
  refine (shapeCast_ab_1ab_apply (a := 1024) (b := 1024) _ shapeCasts_S1024x1024_S1x1024x1024 (0 : Fin 1) i j).trans ?_
  exact lossV_apply v0 v16 v18 lab h16 h18 i j

/-- The body stores, at its one index, the kernel's result of the rows and the labels. -/
theorem pay_eq (v0 : FVec Ideal S1024x512 .f32) (v16 : IVec S1024x1 32) (v18 : IVec S1x1024 32)
    (lab : Fin 1024 → BitVec 32)
    (h16 : ∀ i : Fin 1024, v16 (ix2 i (0 : Fin 1)) = lab i) (h18 : ∀ j : Fin 1024, v18 (ix2 (0 : Fin 1) j) = lab j) :
    k0_pay1 (F := Ideal) v0 v16 v18 = fun _ => PairLoss.kernelVal (rows v0) lab := by
  rw [pay_stages]
  funext y
  show extractAt ![0, 0, 0] (shapeCast S1x1x1 (totalV v0 v16 v18) shapeCasts_S1_S1x1x1) inpos_S1x1x1_p0_0_0
      * Named.named (F := Ideal) κ "pair_scale" (φ := .f32) 0x35802008#32 = _
  rw [PairLoss.Layout.extract_cast_111, totalV_apply v0 v16 v18 lab h16 h18, scale_eq]
  rfl

end Cert.KernelIdeal.KValue

end
-- ==== Proof.KernelValue.lean ====
/-
  What the kernel program leaves in its result buffer, read off its run.

  The program reshapes the labels to a 1024 × 1 column and to a 1 × 1024 row, runs the body once (no grid: every
  window's block is its whole array), and reshapes the body's 1 × 1 output to a scalar. So the three blocks the body
  loads are the argument x, the label column and the label row; the one block it writes back is the whole 1 × 1 output,
  which therefore ends holding the body's stored value; and the scalar result is that value. With the body's
  arithmetic read index by index, the result is the pair loss of the argument arrays.
-/
import proofs.«144406_g54881092108806_cont_sun_m_11_6_alg».proof.Proof.Gen.KernelIdeal.Frame
import proofs.«144406_g54881092108806_cont_sun_m_11_6_alg».proof.Proof.KernelPayload
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The argument x by coordinates. -/
def argRows (c : Dev nD) : Fin 1024 → Fin 512 → EReal :=
  fun i k => (m ((c.tc : Thread nD τ).loc main_arg0) : S1024x512.Idx → EReal) (ix2 i k)

/-- The labels by coordinate. -/
def argLab (c : Dev nD) : Fin 1024 → BitVec 32 :=
  fun i => (m ((c.tc : Thread nD τ).loc main_arg1) : S1024.Idx → BitVec 32) (ix1 i)

/-- The kernel's result on device c. -/
def result (c : Dev nD) : EReal := PairLoss.kernelVal (argRows m c) (argLab m c)

theorem hz : (![0, 0] : Fin 2 → Nat) = fun _ => 0 := funext fun a => by fin_cases a <;> rfl

/-! ## The arrays the region finds -/

/-- The label column the region finds is the labels viewed as 1024 × 1. -/
theorem V_col (c : Dev nD) : (V m c main_v0 : S1024x1.Idx → BitVec 32)
    = shapeCast S1024x1 (m ((c.tc : Thread nD τ).loc main_arg1) : S1024.Idx → BitVec 32) shapeCasts_S1024_S1024x1 := by
  show StableHlo.after hostOps0 (fun b => m (c, b)) (Proc.devRef .tc main_v0) = _
  after_results
  rfl

/-- The label row the region finds is the labels viewed as 1 × 1024. -/
theorem V_row (c : Dev nD) : (V m c main_v1 : S1x1024.Idx → BitVec 32)
    = shapeCast S1x1024 (m ((c.tc : Thread nD τ).loc main_arg1) : S1024.Idx → BitVec 32) shapeCasts_S1024_S1x1024 := by
  show StableHlo.after hostOps0 (fun b => m (c, b)) (Proc.devRef .tc main_v1) = _
  after_results
  rfl

/-! ## The blocks the body loads: each window's block is its whole array -/

/-- Window 0's block is the argument x. -/
theorem blk_x (c : Dev nD) (t : Fin cfg0.N) (i : Fin 1024) (k : Fin 512) :
    (iblk m c 0 t : S1024x512.Idx → EReal) (ix2 i k) = argRows m c i k := by
  unfold iblk
  rw [View.read_apply]
  show V m c main_arg0 (((cfg0.win 0).blk t).view.emb (ix2 i k)) = _
  rw [V_main_arg0]
  unfold argRows
  congr 1
  funext a
  apply Fin.ext
  match a with
  | ⟨0, _⟩ => show 0 * 1024 + 1 * i.val = i.val; omega
  | ⟨1, _⟩ => show 0 * 512 + 1 * k.val = k.val; omega

/-- Window 1's block, the label column, reads label i at (i, 0). -/
theorem blk_col (c : Dev nD) (t : Fin cfg0.N) (i : Fin 1024) :
    (iblk m c 1 t : S1024x1.Idx → BitVec 32) (ix2 i (0 : Fin 1)) = argLab m c i := by
  unfold iblk
  rw [View.read_apply]
  show V m c main_v0 (((cfg0.win 1).blk t).view.emb (ix2 i (0 : Fin 1))) = _
  rw [V_col]
  have he : ((cfg0.win 1).blk t).view.emb (ix2 i (0 : Fin 1)) = ix2 i (0 : Fin 1) := by
    funext a
    apply Fin.ext
    match a with
    | ⟨0, _⟩ => show 0 * 1024 + 1 * i.val = i.val; omega
    | ⟨1, _⟩ => rfl
  rw [he]
  exact Cert.LibKeepdims.shapeCast_a_a1_apply (a := 1024) _ shapeCasts_S1024_S1024x1 i (0 : Fin 1)

/-- Window 2's block, the label row, reads label j at (0, j). -/
theorem blk_row (c : Dev nD) (t : Fin cfg0.N) (j : Fin 1024) :
    (iblk m c 2 t : S1x1024.Idx → BitVec 32) (ix2 (0 : Fin 1) j) = argLab m c j := by
  unfold iblk
  rw [View.read_apply]
  show V m c main_v1 (((cfg0.win 2).blk t).view.emb (ix2 (0 : Fin 1) j)) = _
  rw [V_row]
  have he : ((cfg0.win 2).blk t).view.emb (ix2 (0 : Fin 1) j) = ix2 (0 : Fin 1) j := by
    funext a
    apply Fin.ext
    match a with
    | ⟨0, _⟩ => rfl
    | ⟨1, _⟩ => show 0 * 1024 + 1 * j.val = j.val; omega
  rw [he]
  exact shapeCast_a_1a_apply (a := 1024) _ shapeCasts_S1024_S1x1024 (0 : Fin 1) j

/-- The rows of window 0's block are the argument's. -/
theorem rows_blk (c : Dev nD) (t : Fin cfg0.N) : rows (iblk m c 0 t) = argRows m c :=
  funext fun i => funext fun k => blk_x m c t i k

/-! ## What the one point writes back, and the output array after the run -/

/-- The point writes back the block of the constant array holding the result. -/
theorem flushed_eq (c : Dev nD) (t : Fin cfg0.N) :
    (dats m 0 c).flushed 3 t = ((cfg0.win 3).blk t).view.read (Elt Ideal) (fun _ => result m c) := by
  show (cfg0.win 3).cut (grid0.coords t) ((dats m 0 c).after 3 t) = _
  rw [after0_3]
  unfold out0_3
  rw [View.canon_unit_zero hz]
  simp only [View.ld_unit_zero (S := S1024x512) hz, View.ld_unit_zero (S := S1024x1) hz, View.ld_unit_zero (S := S1x1024) hz]
  rw [pay_eq (iblk m c 0 t) (iblk m c 1 t) (iblk m c 2 t) (argLab m c) (blk_col m c t) (blk_row m c t), rows_blk]
  rfl

/-- The one block covers the 1 × 1 output, so it ends holding the result. -/
theorem final (c : Dev nD) : (dats m 0 c).arrAt 3 cfg0.N = fun _ => result m c :=
  (dats m 0 c).arrAt_eq_of_cover 3 (fun _ => result m c) (fun t _ => flushed_eq m c t) fun i =>
    ⟨t0_0, flush0_3 t0_0, by
      show i ∈ ((View.whole main_v2).slice (win0_3.rect t0_0)).set
      rw [View.set_slice_whole, Rect.mem_set_unit]
      intro a
      have h0 : (i 0 : Nat) < 1 := (i 0).isLt
      have h1 : (i 1 : Nat) < 1 := (i 1).isLt
      match a with
      | ⟨0, _⟩ => show 0 * 1 ≤ (i 0 : Nat) ∧ (i 0 : Nat) < 0 * 1 + 1; omega
      | ⟨1, _⟩ => show 0 * 1 ≤ (i 1 : Nat) ∧ (i 1 : Nat) < 0 * 1 + 1; omega⟩

/-! ## The scalar result: the host reshape after the region -/

/-- The scalar the program returns is the result. -/
theorem tail_eq (c : Dev nD) :
    Pipeline.afterTail₀ cfgs (dats m) 0 (V0 m) [hostOps1] c main_v3 = fun _ => result m c := by
  unfold Pipeline.afterTail₀
  show StableHlo.after hostOps1 _ (Proc.devRef .tc main_v3) = _
  after_results
  rw [(Pipeline.withArrays_arr spec0 launch0.win.arr_inj c _ _ 3).trans (final m c)]
  rfl

/-! ## The run -/

/-- Every fair execution of the program terminates, and on every device the result buffer ends holding the pair loss
    of the argument arrays, the arguments unchanged. -/
theorem run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v3)
            = (fun _ => Cert.PairLoss.kernelVal
                (fun i k => (m ((c.tc : Thread Cert.KernelIdeal.nD Cert.KernelIdeal.τ).loc Cert.KernelIdeal.main_arg0) : S1024x512.Idx → EReal) (ix2 i k))
                (fun i => (m ((c.tc : Thread Cert.KernelIdeal.nD Cert.KernelIdeal.τ).loc Cert.KernelIdeal.main_arg1) : S1024.Idx → BitVec 32) (ix1 i)))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KValue

end
-- ==== Proof.RefOps.lean ====
/-
  The reference program's @main as lists of its host operations, in order, cut into seven consecutive segments:
  the running count of the strict upper triangle (A), the histogram of that count (B), its running sum — the flat
  position of each pair — (C), the row (D) and column (E) of each position, the label comparison and the first row
  gather (G), and the loss and its mean (H). The functions the program outlines are written out at their calls,
  over each call's own buffers; each segment is given twice, over the calls' typed references as the program states
  them and over the plain buffers, and the two are the same lists. Every weakly fair execution of @main terminates
  with every buffer at the fold of these operations over the launch contents.
-/
import proofs.«144406_g54881092108806_cont_sun_m_11_6_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Segment A over the calls' typed references: 19 operations. -/
abbrev segA_T : List (HloOp τ sig (Elt F)) :=
  [ nullary main_cst (constant S_ .f32 0x3F800000#32),
    unary main_cst main_v0 (broadcastInDim S1024x1024 ![] bcast_S_S1024x1024 : (⟨S_, .f32⟩ : BufTy).Contents (Elt F) → (⟨S1024x1024, .f32⟩ : BufTy).Contents (Elt F)),
    TRef.nullary main_call0.v0 (iotaInDim S1024x1024 32 0),
    TRef.nullary main_call0.c (constantI S_ 32 0#32),
    TRef.unary main_call0.c main_call0.v1 (broadcastInDim S1024x1024 ![] bcast_S_S1024x1024),
    TRef.binary main_call0.v0 main_call0.v1 main_call0.v2 addi,
    TRef.nullary main_call0.v3 (iotaInDim S1024x1024 32 1),
    TRef.binary main_call0.v2 main_call0.v3 main_call0.v4 (cmpi .sge),
    TRef.nullary main_call0.cst (constant S_ .f32 0x00000000#32),
    TRef.unary main_call0.cst main_call0.v5 (broadcastInDim S1024x1024 ![] bcast_S_S1024x1024),
    TRef.ternary main_call0.v4 main_call0.v5 (TRef.of main_v0 rfl) main_call0.v6 select,
    nullary main_cst_0 (constant S_ .f32 0x00000000#32),
    unary main_cst_0 main_v2 (broadcastInDim S1024x1024 ![] bcast_S_S1024x1024 : (⟨S_, .f32⟩ : BufTy).Contents (Elt F) → (⟨S1024x1024, .f32⟩ : BufTy).Contents (Elt F)),
    binary main_v1 main_v2 main_v3 (cmpf .une : (⟨S1024x1024, .f32⟩ : BufTy).Contents (Elt F) → (⟨S1024x1024, .f32⟩ : BufTy).Contents (Elt F) → (⟨S1024x1024, .i1⟩ : BufTy).Contents (Elt F)),
    TRef.reshape (TRef.of main_v3 rfl) main_call1.v0 rfl shapeCasts_S1024x1024_S1048576,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![1048576] ![1] ![1048575] ![0] x v reduceWindows_S1048576_S1048576_w1048576s1p1048575_0 h_S_) ]

/-- Segment A over the plain buffers. -/
abbrev segA : List (HloOp τ sig (Elt F)) :=
  [ nullary main_cst (constant S_ .f32 0x3F800000#32),
    unary main_cst main_v0 (broadcastInDim S1024x1024 ![] bcast_S_S1024x1024 : (⟨S_, .f32⟩ : BufTy).Contents (Elt F) → (⟨S1024x1024, .f32⟩ : BufTy).Contents (Elt F)),
    nullary main_call0_v0 (iotaInDim S1024x1024 32 0),
    nullary main_call0_c (constantI S_ 32 0#32),
    unary main_call0_c main_call0_v1 (broadcastInDim S1024x1024 ![] bcast_S_S1024x1024),
    binary main_call0_v0 main_call0_v1 main_call0_v2 addi,
    nullary main_call0_v3 (iotaInDim S1024x1024 32 1),
    binary main_call0_v2 main_call0_v3 main_call0_v4 (cmpi .sge),
    nullary main_call0_cst (constant S_ .f32 0x00000000#32),
    unary main_call0_cst main_call0_v5 (broadcastInDim S1024x1024 ![] bcast_S_S1024x1024),
    ternary main_call0_v4 main_call0_v5 main_v0 main_v1 select,
    nullary main_cst_0 (constant S_ .f32 0x00000000#32),
    unary main_cst_0 main_v2 (broadcastInDim S1024x1024 ![] bcast_S_S1024x1024 : (⟨S_, .f32⟩ : BufTy).Contents (Elt F) → (⟨S1024x1024, .f32⟩ : BufTy).Contents (Elt F)),
    binary main_v1 main_v2 main_v3 (cmpf .une : (⟨S1024x1024, .f32⟩ : BufTy).Contents (Elt F) → (⟨S1024x1024, .f32⟩ : BufTy).Contents (Elt F) → (⟨S1024x1024, .i1⟩ : BufTy).Contents (Elt F)),
    reshape main_v3 main_call1_v0 rfl shapeCasts_S1024x1024_S1048576,
    unary main_call1_v0 main_call1_v1 (extui 32 · natLt_1_32),
    nullary main_call1_call0_c (constantI S_ 32 0#32),
    unary main_call1_call0_c main_call1_call0_v0 (broadcastInDim S_ ![] bcast_S_S_),
    binary main_call1_v1 main_call1_call0_v0 main_v4 (fun x v => Host.reduceWindow IntOp.addi ![1048576] ![1] ![1048575] ![0] x v reduceWindows_S1048576_S1048576_w1048576s1p1048575_0 h_S_) ]

attribute [local irreducible] Host.scatter Host.reduceWindow Host.gather Host.reduceAdd in
set_option maxRecDepth 65536 in
theorem segA_eq : (segA_T : List (HloOp τ sig (Elt F))) = segA := rfl

/-- Segment B over the calls' typed references: 17 operations. -/
abbrev segB_T : List (HloOp τ sig (Elt F)) :=
  [ nullary main_c (constantI S_ 32 0#32),
    unary main_c main_v5 (broadcastInDim S523776 ![] bcast_S_S523776 : (⟨S_, .i32⟩ : BufTy).Contents (Elt F) → (⟨S523776, .i32⟩ : BufTy).Contents (Elt F)),
    nullary main_c_1 (constantI S_ 32 0#32),
    TRef.unary (TRef.of main_c_1 rfl) main_call2.v0 id,
    TRef.unary main_call2.v0 main_call2.v1 (broadcastInDim S1048576 ![] bcast_S_S1048576),
    TRef.binary main_call2.v1 (TRef.of main_v4 rfl) main_call2.v2 maxsi,
    nullary main_c_2 (constantI S_ 32 0#32),
    unary main_c_2 main_v7 (broadcastInDim S1048576 ![] bcast_S_S1048576 : (⟨S_, .i32⟩ : BufTy).Contents (Elt F) → (⟨S1048576, .i32⟩ : BufTy).Contents (Elt F)),
    binary main_v6 main_v7 main_v8 (cmpi .slt : (⟨S1048576, .i32⟩ : BufTy).Contents (Elt F) → (⟨S1048576, .i32⟩ : BufTy).Contents (Elt F) → (⟨S1048576, .i1⟩ : BufTy).Contents (Elt F)),
    nullary main_c_3 (constantI S_ 32 523776#32),
    unary main_c_3 main_v9 (broadcastInDim S1048576 ![] bcast_S_S1048576 : (⟨S_, .i32⟩ : BufTy).Contents (Elt F) → (⟨S1048576, .i32⟩ : BufTy).Contents (Elt F)),
    binary main_v6 main_v9 main_v10 (addi : (⟨S1048576, .i32⟩ : BufTy).Contents (Elt F) → (⟨S1048576, .i32⟩ : BufTy).Contents (Elt F) → (⟨S1048576, .i32⟩ : BufTy).Contents (Elt F)),
    ternary main_v8 main_v10 main_v6 main_v11 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v11 main_v12 (broadcastInDim S1048576x1 ![0] bcast_S1048576_S1048576x1_0 : (⟨S1048576, .i32⟩ : BufTy).Contents (Elt F) → (⟨S1048576x1, .i32⟩ : BufTy).Contents (Elt F)),
    nullary main_c_4 (constantI S_ 32 1#32),
    unary main_c_4 main_v13 (broadcastInDim S1048576 ![] bcast_S_S1048576 : (⟨S_, .i32⟩ : BufTy).Contents (Elt F) → (⟨S1048576, .i32⟩ : BufTy).Contents (Elt F)),
    ternary main_v5 main_v12 main_v13 main_v14 ((fun x i u => Host.scatter scatter_S523776_S1048576x1_S1048576_n_0_0_1 IntOp.addi x i u) : (⟨S523776, .i32⟩ : BufTy).Contents (Elt F) → (⟨S1048576x1, .i32⟩ : BufTy).Contents (Elt F) → (⟨S1048576, .i32⟩ : BufTy).Contents (Elt F) → (⟨S523776, .i32⟩ : BufTy).Contents (Elt F)) ]

/-- Segment B over the plain buffers. -/
abbrev segB : List (HloOp τ sig (Elt F)) :=
  [ nullary main_c (constantI S_ 32 0#32),
    unary main_c main_v5 (broadcastInDim S523776 ![] bcast_S_S523776 : (⟨S_, .i32⟩ : BufTy).Contents (Elt F) → (⟨S523776, .i32⟩ : BufTy).Contents (Elt F)),
    nullary main_c_1 (constantI S_ 32 0#32),
    unary main_c_1 main_call2_v0 id,
    unary main_call2_v0 main_call2_v1 (broadcastInDim S1048576 ![] bcast_S_S1048576),
    binary main_call2_v1 main_v4 main_v6 maxsi,
    nullary main_c_2 (constantI S_ 32 0#32),
    unary main_c_2 main_v7 (broadcastInDim S1048576 ![] bcast_S_S1048576 : (⟨S_, .i32⟩ : BufTy).Contents (Elt F) → (⟨S1048576, .i32⟩ : BufTy).Contents (Elt F)),
    binary main_v6 main_v7 main_v8 (cmpi .slt : (⟨S1048576, .i32⟩ : BufTy).Contents (Elt F) → (⟨S1048576, .i32⟩ : BufTy).Contents (Elt F) → (⟨S1048576, .i1⟩ : BufTy).Contents (Elt F)),
    nullary main_c_3 (constantI S_ 32 523776#32),
    unary main_c_3 main_v9 (broadcastInDim S1048576 ![] bcast_S_S1048576 : (⟨S_, .i32⟩ : BufTy).Contents (Elt F) → (⟨S1048576, .i32⟩ : BufTy).Contents (Elt F)),
    binary main_v6 main_v9 main_v10 (addi : (⟨S1048576, .i32⟩ : BufTy).Contents (Elt F) → (⟨S1048576, .i32⟩ : BufTy).Contents (Elt F) → (⟨S1048576, .i32⟩ : BufTy).Contents (Elt F)),
    ternary main_v8 main_v10 main_v6 main_v11 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v11 main_v12 (broadcastInDim S1048576x1 ![0] bcast_S1048576_S1048576x1_0 : (⟨S1048576, .i32⟩ : BufTy).Contents (Elt F) → (⟨S1048576x1, .i32⟩ : BufTy).Contents (Elt F)),
    nullary main_c_4 (constantI S_ 32 1#32),
    unary main_c_4 main_v13 (broadcastInDim S1048576 ![] bcast_S_S1048576 : (⟨S_, .i32⟩ : BufTy).Contents (Elt F) → (⟨S1048576, .i32⟩ : BufTy).Contents (Elt F)),
    ternary main_v5 main_v12 main_v13 main_v14 ((fun x i u => Host.scatter scatter_S523776_S1048576x1_S1048576_n_0_0_1 IntOp.addi x i u) : (⟨S523776, .i32⟩ : BufTy).Contents (Elt F) → (⟨S1048576x1, .i32⟩ : BufTy).Contents (Elt F) → (⟨S1048576, .i32⟩ : BufTy).Contents (Elt F) → (⟨S523776, .i32⟩ : BufTy).Contents (Elt F)) ]

attribute [local irreducible] Host.scatter Host.reduceWindow Host.gather Host.reduceAdd in
set_option maxRecDepth 65536 in
theorem segB_eq : (segB_T : List (HloOp τ sig (Elt F))) = segB := rfl

/-- Segment C over the calls' typed references: 3 operations. -/
abbrev segC_T : List (HloOp τ sig (Elt F)) :=
  [ TRef.nullary main_call3.call0.c (constantI S_ 32 0#32),
    TRef.unary main_call3.call0.c main_call3.call0.v0 (broadcastInDim S_ ![] bcast_S_S_),
    TRef.binary (TRef.of main_v14 rfl) main_call3.call0.v0 main_call3.call0.v1 (fun x v => Host.reduceWindow IntOp.addi ![523776] ![1] ![523775] ![0] x v reduceWindows_S523776_S523776_w523776s1p523775_0 h_S_) ]

/-- Segment C over the plain buffers. -/
abbrev segC : List (HloOp τ sig (Elt F)) :=
  [ nullary main_call3_call0_c (constantI S_ 32 0#32),
    unary main_call3_call0_c main_call3_call0_v0 (broadcastInDim S_ ![] bcast_S_S_),
    binary main_v14 main_call3_call0_v0 main_v15 (fun x v => Host.reduceWindow IntOp.addi ![523776] ![1] ![523775] ![0] x v reduceWindows_S523776_S523776_w523776s1p523775_0 h_S_) ]

attribute [local irreducible] Host.scatter Host.reduceWindow Host.gather Host.reduceAdd in
set_option maxRecDepth 65536 in
theorem segC_eq : (segC_T : List (HloOp τ sig (Elt F))) = segC := rfl

/-- Segment D over the calls' typed references: 39 operations. -/
abbrev segD_T : List (HloOp τ sig (Elt F)) :=
  [ nullary main_c_5 (constantI S_ 32 1024#32),
    TRef.unary (TRef.of main_c_5 rfl) main_call4.v0 (broadcastInDim S523776 ![] bcast_S_S523776),
    TRef.binary (TRef.of main_v15 rfl) main_call4.v0 main_call4.v1 Host.divsi,
    TRef.unary (TRef.of main_v15 rfl) main_call4.v2 signi,
    TRef.unary (TRef.of main_c_5 rfl) main_call4.v3 signi,
    TRef.unary main_call4.v3 main_call4.v4 (broadcastInDim S523776 ![] bcast_S_S523776),
    TRef.binary main_call4.v2 main_call4.v4 main_call4.v5 (cmpi .ne),
    TRef.unary (TRef.of main_c_5 rfl) main_call4.v6 (broadcastInDim S523776 ![] bcast_S_S523776),
    TRef.binary (TRef.of main_v15 rfl) main_call4.v6 main_call4.v7 Host.remsi,
    TRef.nullary main_call4.c (constantI S_ 32 0#32),
    TRef.unary main_call4.c main_call4.v8 (broadcastInDim S523776 ![] bcast_S_S523776),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S523776 ![] bcast_S_S523776),
    TRef.binary main_call4.v1 main_call4.v11 main_call4.v12 subi,
    TRef.ternary main_call4.v10 main_call4.v12 main_call4.v1 main_call4.call0.v0 select,
    nullary main_c_6 (constantI S_ 32 1024#32),
    TRef.unary (TRef.of main_c_6 rfl) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S523776 ![] bcast_S_S523776),
    TRef.binary (TRef.of main_v16 rfl) main_call5.v3 main_call5.v4 Host.remsi,
    TRef.nullary main_call5.c_1 (constantI S_ 32 0#32),
    TRef.unary main_call5.c_1 main_call5.v5 (broadcastInDim S523776 ![] bcast_S_S523776),
    TRef.binary main_call5.v4 main_call5.v5 main_call5.v6 (cmpi .ne),
    TRef.nullary main_call5.c_2 (constantI S_ 32 0#32),
    TRef.unary main_call5.c_2 main_call5.v7 (broadcastInDim S523776 ![] bcast_S_S523776),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S523776 ![] bcast_S_S523776),
    TRef.binary main_call5.v8 main_call5.v10 main_call5.v11 (cmpi .ne),
    TRef.binary main_call5.v11 main_call5.v6 main_call5.v12 andi,
    TRef.unary main_call5.call0.v0 main_call5.v13 (broadcastInDim S523776 ![] bcast_S_S523776),
    TRef.binary main_call5.v4 main_call5.v13 main_call5.v14 addi,
    TRef.ternary main_call5.v12 main_call5.v14 main_call5.v4 main_call5.v15 select ]

/-- Segment D over the plain buffers. -/
abbrev segD : List (HloOp τ sig (Elt F)) :=
  [ nullary main_c_5 (constantI S_ 32 1024#32),
    unary main_c_5 main_call4_v0 (broadcastInDim S523776 ![] bcast_S_S523776),
    binary main_v15 main_call4_v0 main_call4_v1 Host.divsi,
    unary main_v15 main_call4_v2 signi,
    unary main_c_5 main_call4_v3 signi,
    unary main_call4_v3 main_call4_v4 (broadcastInDim S523776 ![] bcast_S_S523776),
    binary main_call4_v2 main_call4_v4 main_call4_v5 (cmpi .ne),
    unary main_c_5 main_call4_v6 (broadcastInDim S523776 ![] bcast_S_S523776),
    binary main_v15 main_call4_v6 main_call4_v7 Host.remsi,
    nullary main_call4_c (constantI S_ 32 0#32),
    unary main_call4_c main_call4_v8 (broadcastInDim S523776 ![] bcast_S_S523776),
    binary main_call4_v7 main_call4_v8 main_call4_v9 (cmpi .ne),
    binary main_call4_v5 main_call4_v9 main_call4_v10 andi,
    nullary main_call4_c_0 (constantI S_ 32 1#32),
    unary main_call4_c_0 main_call4_v11 (broadcastInDim S523776 ![] bcast_S_S523776),
    binary main_call4_v1 main_call4_v11 main_call4_v12 subi,
    ternary main_call4_v10 main_call4_v12 main_call4_v1 main_v16 select,
    nullary main_c_6 (constantI S_ 32 1024#32),
    unary main_c_6 main_call5_v0 id,
    nullary main_call5_c (constantI S_ 32 0#32),
    binary main_call5_v0 main_call5_c main_call5_v1 (cmpi .eq),
    nullary main_call5_c_0 (constantI S_ 32 1#32),
    ternary main_call5_v1 main_call5_c_0 main_call5_v0 main_call5_v2 select,
    unary main_call5_v2 main_call5_v3 (broadcastInDim S523776 ![] bcast_S_S523776),
    binary main_v16 main_call5_v3 main_call5_v4 Host.remsi,
    nullary main_call5_c_1 (constantI S_ 32 0#32),
    unary main_call5_c_1 main_call5_v5 (broadcastInDim S523776 ![] bcast_S_S523776),
    binary main_call5_v4 main_call5_v5 main_call5_v6 (cmpi .ne),
    nullary main_call5_c_2 (constantI S_ 32 0#32),
    unary main_call5_c_2 main_call5_v7 (broadcastInDim S523776 ![] bcast_S_S523776),
    binary main_call5_v4 main_call5_v7 main_call5_v8 (cmpi .slt),
    nullary main_call5_c_3 (constantI S_ 32 0#32),
    binary main_call5_v2 main_call5_c_3 main_call5_v9 (cmpi .slt),
    unary main_call5_v9 main_call5_v10 (broadcastInDim S523776 ![] bcast_S_S523776),
    binary main_call5_v8 main_call5_v10 main_call5_v11 (cmpi .ne),
    binary main_call5_v11 main_call5_v6 main_call5_v12 andi,
    unary main_call5_v2 main_call5_v13 (broadcastInDim S523776 ![] bcast_S_S523776),
    binary main_call5_v4 main_call5_v13 main_call5_v14 addi,
    ternary main_call5_v12 main_call5_v14 main_call5_v4 main_v17 select ]

attribute [local irreducible] Host.scatter Host.reduceWindow Host.gather Host.reduceAdd in
set_option maxRecDepth 65536 in
theorem segD_eq : (segD_T : List (HloOp τ sig (Elt F))) = segD := rfl

/-- Segment E over the calls' typed references: 39 operations. -/
abbrev segE_T : List (HloOp τ sig (Elt F)) :=
  [ nullary main_c_7 (constantI S_ 32 1#32),
    TRef.unary (TRef.of main_c_7 rfl) main_call6.v0 (broadcastInDim S523776 ![] bcast_S_S523776),
    TRef.binary (TRef.of main_v15 rfl) main_call6.v0 main_call6.v1 Host.divsi,
    TRef.unary (TRef.of main_v15 rfl) main_call6.v2 signi,
    TRef.unary (TRef.of main_c_7 rfl) main_call6.v3 signi,
    TRef.unary main_call6.v3 main_call6.v4 (broadcastInDim S523776 ![] bcast_S_S523776),
    TRef.binary main_call6.v2 main_call6.v4 main_call6.v5 (cmpi .ne),
    TRef.unary (TRef.of main_c_7 rfl) main_call6.v6 (broadcastInDim S523776 ![] bcast_S_S523776),
    TRef.binary (TRef.of main_v15 rfl) main_call6.v6 main_call6.v7 Host.remsi,
    TRef.nullary main_call6.c (constantI S_ 32 0#32),
    TRef.unary main_call6.c main_call6.v8 (broadcastInDim S523776 ![] bcast_S_S523776),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S523776 ![] bcast_S_S523776),
    TRef.binary main_call6.v1 main_call6.v11 main_call6.v12 subi,
    TRef.ternary main_call6.v10 main_call6.v12 main_call6.v1 main_call6.call0.v0 select,
    nullary main_c_8 (constantI S_ 32 1024#32),
    TRef.unary (TRef.of main_c_8 rfl) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S523776 ![] bcast_S_S523776),
    TRef.binary (TRef.of main_v18 rfl) main_call7.v3 main_call7.v4 Host.remsi,
    TRef.nullary main_call7.c_1 (constantI S_ 32 0#32),
    TRef.unary main_call7.c_1 main_call7.v5 (broadcastInDim S523776 ![] bcast_S_S523776),
    TRef.binary main_call7.v4 main_call7.v5 main_call7.v6 (cmpi .ne),
    TRef.nullary main_call7.c_2 (constantI S_ 32 0#32),
    TRef.unary main_call7.c_2 main_call7.v7 (broadcastInDim S523776 ![] bcast_S_S523776),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S523776 ![] bcast_S_S523776),
    TRef.binary main_call7.v8 main_call7.v10 main_call7.v11 (cmpi .ne),
    TRef.binary main_call7.v11 main_call7.v6 main_call7.v12 andi,
    TRef.unary main_call7.call0.v0 main_call7.v13 (broadcastInDim S523776 ![] bcast_S_S523776),
    TRef.binary main_call7.v4 main_call7.v13 main_call7.v14 addi,
    TRef.ternary main_call7.v12 main_call7.v14 main_call7.v4 main_call7.v15 select ]

/-- Segment E over the plain buffers. -/
abbrev segE : List (HloOp τ sig (Elt F)) :=
  [ nullary main_c_7 (constantI S_ 32 1#32),
    unary main_c_7 main_call6_v0 (broadcastInDim S523776 ![] bcast_S_S523776),
    binary main_v15 main_call6_v0 main_call6_v1 Host.divsi,
    unary main_v15 main_call6_v2 signi,
    unary main_c_7 main_call6_v3 signi,
    unary main_call6_v3 main_call6_v4 (broadcastInDim S523776 ![] bcast_S_S523776),
    binary main_call6_v2 main_call6_v4 main_call6_v5 (cmpi .ne),
    unary main_c_7 main_call6_v6 (broadcastInDim S523776 ![] bcast_S_S523776),
    binary main_v15 main_call6_v6 main_call6_v7 Host.remsi,
    nullary main_call6_c (constantI S_ 32 0#32),
    unary main_call6_c main_call6_v8 (broadcastInDim S523776 ![] bcast_S_S523776),
    binary main_call6_v7 main_call6_v8 main_call6_v9 (cmpi .ne),
    binary main_call6_v5 main_call6_v9 main_call6_v10 andi,
    nullary main_call6_c_0 (constantI S_ 32 1#32),
    unary main_call6_c_0 main_call6_v11 (broadcastInDim S523776 ![] bcast_S_S523776),
    binary main_call6_v1 main_call6_v11 main_call6_v12 subi,
    ternary main_call6_v10 main_call6_v12 main_call6_v1 main_v18 select,
    nullary main_c_8 (constantI S_ 32 1024#32),
    unary main_c_8 main_call7_v0 id,
    nullary main_call7_c (constantI S_ 32 0#32),
    binary main_call7_v0 main_call7_c main_call7_v1 (cmpi .eq),
    nullary main_call7_c_0 (constantI S_ 32 1#32),
    ternary main_call7_v1 main_call7_c_0 main_call7_v0 main_call7_v2 select,
    unary main_call7_v2 main_call7_v3 (broadcastInDim S523776 ![] bcast_S_S523776),
    binary main_v18 main_call7_v3 main_call7_v4 Host.remsi,
    nullary main_call7_c_1 (constantI S_ 32 0#32),
    unary main_call7_c_1 main_call7_v5 (broadcastInDim S523776 ![] bcast_S_S523776),
    binary main_call7_v4 main_call7_v5 main_call7_v6 (cmpi .ne),
    nullary main_call7_c_2 (constantI S_ 32 0#32),
    unary main_call7_c_2 main_call7_v7 (broadcastInDim S523776 ![] bcast_S_S523776),
    binary main_call7_v4 main_call7_v7 main_call7_v8 (cmpi .slt),
    nullary main_call7_c_3 (constantI S_ 32 0#32),
    binary main_call7_v2 main_call7_c_3 main_call7_v9 (cmpi .slt),
    unary main_call7_v9 main_call7_v10 (broadcastInDim S523776 ![] bcast_S_S523776),
    binary main_call7_v8 main_call7_v10 main_call7_v11 (cmpi .ne),
    binary main_call7_v11 main_call7_v6 main_call7_v12 andi,
    unary main_call7_v2 main_call7_v13 (broadcastInDim S523776 ![] bcast_S_S523776),
    binary main_call7_v4 main_call7_v13 main_call7_v14 addi,
    ternary main_call7_v12 main_call7_v14 main_call7_v4 main_v19 select ]

attribute [local irreducible] Host.scatter Host.reduceWindow Host.gather Host.reduceAdd in
set_option maxRecDepth 65536 in
theorem segE_eq : (segE_T : List (HloOp τ sig (Elt F))) = segE := rfl

/-- Segment G over the calls' typed references: 29 operations. -/
abbrev segG_T : List (HloOp τ sig (Elt F)) :=
  [ nullary main_c_9 (constantI S_ 32 0#32),
    unary main_c_9 main_v20 (broadcastInDim S523776 ![] bcast_S_S523776 : (⟨S_, .i32⟩ : BufTy).Contents (Elt F) → (⟨S523776, .i32⟩ : BufTy).Contents (Elt F)),
    binary main_v17 main_v20 main_v21 (cmpi .slt : (⟨S523776, .i32⟩ : BufTy).Contents (Elt F) → (⟨S523776, .i32⟩ : BufTy).Contents (Elt F) → (⟨S523776, .i1⟩ : BufTy).Contents (Elt F)),
    nullary main_c_10 (constantI S_ 32 1024#32),
    unary main_c_10 main_v22 (broadcastInDim S523776 ![] bcast_S_S523776 : (⟨S_, .i32⟩ : BufTy).Contents (Elt F) → (⟨S523776, .i32⟩ : BufTy).Contents (Elt F)),
    binary main_v17 main_v22 main_v23 (addi : (⟨S523776, .i32⟩ : BufTy).Contents (Elt F) → (⟨S523776, .i32⟩ : BufTy).Contents (Elt F) → (⟨S523776, .i32⟩ : BufTy).Contents (Elt F)),
    ternary main_v21 main_v23 main_v17 main_v24 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    unary main_v24 main_v25 (broadcastInDim S523776x1 ![0] bcast_S523776_S523776x1_0 : (⟨S523776, .i32⟩ : BufTy).Contents (Elt F) → (⟨S523776x1, .i32⟩ : BufTy).Contents (Elt F)),
    binary main_arg1 main_v25 main_v26 ((fun x i => Host.gather gather_S1024_S523776x1_S523776_n_0_n_n_0_1_1 x i) : (⟨S1024, .i32⟩ : BufTy).Contents (Elt F) → (⟨S523776x1, .i32⟩ : BufTy).Contents (Elt F) → (⟨S523776, .i32⟩ : BufTy).Contents (Elt F)),
    nullary main_c_11 (constantI S_ 32 0#32),
    unary main_c_11 main_v27 (broadcastInDim S523776 ![] bcast_S_S523776 : (⟨S_, .i32⟩ : BufTy).Contents (Elt F) → (⟨S523776, .i32⟩ : BufTy).Contents (Elt F)),
    binary main_v19 main_v27 main_v28 (cmpi .slt : (⟨S523776, .i32⟩ : BufTy).Contents (Elt F) → (⟨S523776, .i32⟩ : BufTy).Contents (Elt F) → (⟨S523776, .i1⟩ : BufTy).Contents (Elt F)),
    nullary main_c_12 (constantI S_ 32 1024#32),
    unary main_c_12 main_v29 (broadcastInDim S523776 ![] bcast_S_S523776 : (⟨S_, .i32⟩ : BufTy).Contents (Elt F) → (⟨S523776, .i32⟩ : BufTy).Contents (Elt F)),
    binary main_v19 main_v29 main_v30 (addi : (⟨S523776, .i32⟩ : BufTy).Contents (Elt F) → (⟨S523776, .i32⟩ : BufTy).Contents (Elt F) → (⟨S523776, .i32⟩ : BufTy).Contents (Elt F)),
    ternary main_v28 main_v30 main_v19 main_v31 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    unary main_v31 main_v32 (broadcastInDim S523776x1 ![0] bcast_S523776_S523776x1_0 : (⟨S523776, .i32⟩ : BufTy).Contents (Elt F) → (⟨S523776x1, .i32⟩ : BufTy).Contents (Elt F)),
    binary main_arg1 main_v32 main_v33 ((fun x i => Host.gather gather_S1024_S523776x1_S523776_n_0_n_n_0_1_1 x i) : (⟨S1024, .i32⟩ : BufTy).Contents (Elt F) → (⟨S523776x1, .i32⟩ : BufTy).Contents (Elt F) → (⟨S523776, .i32⟩ : BufTy).Contents (Elt F)),
    binary main_v26 main_v33 main_v34 (cmpi .eq : (⟨S523776, .i32⟩ : BufTy).Contents (Elt F) → (⟨S523776, .i32⟩ : BufTy).Contents (Elt F) → (⟨S523776, .i1⟩ : BufTy).Contents (Elt F)),
    nullary main_c_13 (constantI S_ 32 0#32),
    unary main_c_13 main_v35 (broadcastInDim S523776 ![] bcast_S_S523776 : (⟨S_, .i32⟩ : BufTy).Contents (Elt F) → (⟨S523776, .i32⟩ : BufTy).Contents (Elt F)),
    binary main_v17 main_v35 main_v36 (cmpi .slt : (⟨S523776, .i32⟩ : BufTy).Contents (Elt F) → (⟨S523776, .i32⟩ : BufTy).Contents (Elt F) → (⟨S523776, .i1⟩ : BufTy).Contents (Elt F)),
    nullary main_c_14 (constantI S_ 32 1024#32),
    unary main_c_14 main_v37 (broadcastInDim S523776 ![] bcast_S_S523776 : (⟨S_, .i32⟩ : BufTy).Contents (Elt F) → (⟨S523776, .i32⟩ : BufTy).Contents (Elt F)),
    binary main_v17 main_v37 main_v38 (addi : (⟨S523776, .i32⟩ : BufTy).Contents (Elt F) → (⟨S523776, .i32⟩ : BufTy).Contents (Elt F) → (⟨S523776, .i32⟩ : BufTy).Contents (Elt F)),
    ternary main_v36 main_v38 main_v17 main_v39 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    unary main_v39 main_v40 (broadcastInDim S523776x1 ![0] bcast_S523776_S523776x1_0 : (⟨S523776, .i32⟩ : BufTy).Contents (Elt F) → (⟨S523776x1, .i32⟩ : BufTy).Contents (Elt F)),
    binary main_arg0 main_v40 main_v41 ((fun x i => Host.gather gather_S1024x512_S523776x1_S523776x512_1_0_n_n_0_1_1512 x i) : (⟨S1024x512, .f32⟩ : BufTy).Contents (Elt F) → (⟨S523776x1, .i32⟩ : BufTy).Contents (Elt F) → (⟨S523776x512, .f32⟩ : BufTy).Contents (Elt F)),
    nullary main_c_15 (constantI S_ 32 0#32) ]

/-- Segment G over the plain buffers. -/
abbrev segG : List (HloOp τ sig (Elt F)) :=
  [ nullary main_c_9 (constantI S_ 32 0#32),
    unary main_c_9 main_v20 (broadcastInDim S523776 ![] bcast_S_S523776 : (⟨S_, .i32⟩ : BufTy).Contents (Elt F) → (⟨S523776, .i32⟩ : BufTy).Contents (Elt F)),
    binary main_v17 main_v20 main_v21 (cmpi .slt : (⟨S523776, .i32⟩ : BufTy).Contents (Elt F) → (⟨S523776, .i32⟩ : BufTy).Contents (Elt F) → (⟨S523776, .i1⟩ : BufTy).Contents (Elt F)),
    nullary main_c_10 (constantI S_ 32 1024#32),
    unary main_c_10 main_v22 (broadcastInDim S523776 ![] bcast_S_S523776 : (⟨S_, .i32⟩ : BufTy).Contents (Elt F) → (⟨S523776, .i32⟩ : BufTy).Contents (Elt F)),
    binary main_v17 main_v22 main_v23 (addi : (⟨S523776, .i32⟩ : BufTy).Contents (Elt F) → (⟨S523776, .i32⟩ : BufTy).Contents (Elt F) → (⟨S523776, .i32⟩ : BufTy).Contents (Elt F)),
    ternary main_v21 main_v23 main_v17 main_v24 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    unary main_v24 main_v25 (broadcastInDim S523776x1 ![0] bcast_S523776_S523776x1_0 : (⟨S523776, .i32⟩ : BufTy).Contents (Elt F) → (⟨S523776x1, .i32⟩ : BufTy).Contents (Elt F)),
    binary main_arg1 main_v25 main_v26 ((fun x i => Host.gather gather_S1024_S523776x1_S523776_n_0_n_n_0_1_1 x i) : (⟨S1024, .i32⟩ : BufTy).Contents (Elt F) → (⟨S523776x1, .i32⟩ : BufTy).Contents (Elt F) → (⟨S523776, .i32⟩ : BufTy).Contents (Elt F)),
    nullary main_c_11 (constantI S_ 32 0#32),
    unary main_c_11 main_v27 (broadcastInDim S523776 ![] bcast_S_S523776 : (⟨S_, .i32⟩ : BufTy).Contents (Elt F) → (⟨S523776, .i32⟩ : BufTy).Contents (Elt F)),
    binary main_v19 main_v27 main_v28 (cmpi .slt : (⟨S523776, .i32⟩ : BufTy).Contents (Elt F) → (⟨S523776, .i32⟩ : BufTy).Contents (Elt F) → (⟨S523776, .i1⟩ : BufTy).Contents (Elt F)),
    nullary main_c_12 (constantI S_ 32 1024#32),
    unary main_c_12 main_v29 (broadcastInDim S523776 ![] bcast_S_S523776 : (⟨S_, .i32⟩ : BufTy).Contents (Elt F) → (⟨S523776, .i32⟩ : BufTy).Contents (Elt F)),
    binary main_v19 main_v29 main_v30 (addi : (⟨S523776, .i32⟩ : BufTy).Contents (Elt F) → (⟨S523776, .i32⟩ : BufTy).Contents (Elt F) → (⟨S523776, .i32⟩ : BufTy).Contents (Elt F)),
    ternary main_v28 main_v30 main_v19 main_v31 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    unary main_v31 main_v32 (broadcastInDim S523776x1 ![0] bcast_S523776_S523776x1_0 : (⟨S523776, .i32⟩ : BufTy).Contents (Elt F) → (⟨S523776x1, .i32⟩ : BufTy).Contents (Elt F)),
    binary main_arg1 main_v32 main_v33 ((fun x i => Host.gather gather_S1024_S523776x1_S523776_n_0_n_n_0_1_1 x i) : (⟨S1024, .i32⟩ : BufTy).Contents (Elt F) → (⟨S523776x1, .i32⟩ : BufTy).Contents (Elt F) → (⟨S523776, .i32⟩ : BufTy).Contents (Elt F)),
    binary main_v26 main_v33 main_v34 (cmpi .eq : (⟨S523776, .i32⟩ : BufTy).Contents (Elt F) → (⟨S523776, .i32⟩ : BufTy).Contents (Elt F) → (⟨S523776, .i1⟩ : BufTy).Contents (Elt F)),
    nullary main_c_13 (constantI S_ 32 0#32),
    unary main_c_13 main_v35 (broadcastInDim S523776 ![] bcast_S_S523776 : (⟨S_, .i32⟩ : BufTy).Contents (Elt F) → (⟨S523776, .i32⟩ : BufTy).Contents (Elt F)),
    binary main_v17 main_v35 main_v36 (cmpi .slt : (⟨S523776, .i32⟩ : BufTy).Contents (Elt F) → (⟨S523776, .i32⟩ : BufTy).Contents (Elt F) → (⟨S523776, .i1⟩ : BufTy).Contents (Elt F)),
    nullary main_c_14 (constantI S_ 32 1024#32),
    unary main_c_14 main_v37 (broadcastInDim S523776 ![] bcast_S_S523776 : (⟨S_, .i32⟩ : BufTy).Contents (Elt F) → (⟨S523776, .i32⟩ : BufTy).Contents (Elt F)),
    binary main_v17 main_v37 main_v38 (addi : (⟨S523776, .i32⟩ : BufTy).Contents (Elt F) → (⟨S523776, .i32⟩ : BufTy).Contents (Elt F) → (⟨S523776, .i32⟩ : BufTy).Contents (Elt F)),
    ternary main_v36 main_v38 main_v17 main_v39 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    unary main_v39 main_v40 (broadcastInDim S523776x1 ![0] bcast_S523776_S523776x1_0 : (⟨S523776, .i32⟩ : BufTy).Contents (Elt F) → (⟨S523776x1, .i32⟩ : BufTy).Contents (Elt F)),
    binary main_arg0 main_v40 main_v41 ((fun x i => Host.gather gather_S1024x512_S523776x1_S523776x512_1_0_n_n_0_1_1512 x i) : (⟨S1024x512, .f32⟩ : BufTy).Contents (Elt F) → (⟨S523776x1, .i32⟩ : BufTy).Contents (Elt F) → (⟨S523776x512, .f32⟩ : BufTy).Contents (Elt F)),
    nullary main_c_15 (constantI S_ 32 0#32) ]

attribute [local irreducible] Host.scatter Host.reduceWindow Host.gather Host.reduceAdd in
set_option maxRecDepth 65536 in
theorem segG_eq : (segG_T : List (HloOp τ sig (Elt F))) = segG := rfl

/-- Segment H over the calls' typed references: 33 operations. -/
abbrev segH_T : List (HloOp τ sig (Elt F)) :=
  [ unary main_c_15 main_v42 (broadcastInDim S523776 ![] bcast_S_S523776 : (⟨S_, .i32⟩ : BufTy).Contents (Elt F) → (⟨S523776, .i32⟩ : BufTy).Contents (Elt F)),
    binary main_v19 main_v42 main_v43 (cmpi .slt : (⟨S523776, .i32⟩ : BufTy).Contents (Elt F) → (⟨S523776, .i32⟩ : BufTy).Contents (Elt F) → (⟨S523776, .i1⟩ : BufTy).Contents (Elt F)),
    nullary main_c_16 (constantI S_ 32 1024#32),
    unary main_c_16 main_v44 (broadcastInDim S523776 ![] bcast_S_S523776 : (⟨S_, .i32⟩ : BufTy).Contents (Elt F) → (⟨S523776, .i32⟩ : BufTy).Contents (Elt F)),
    binary main_v19 main_v44 main_v45 (addi : (⟨S523776, .i32⟩ : BufTy).Contents (Elt F) → (⟨S523776, .i32⟩ : BufTy).Contents (Elt F) → (⟨S523776, .i32⟩ : BufTy).Contents (Elt F)),
    ternary main_v43 main_v45 main_v19 main_v46 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    unary main_v46 main_v47 (broadcastInDim S523776x1 ![0] bcast_S523776_S523776x1_0 : (⟨S523776, .i32⟩ : BufTy).Contents (Elt F) → (⟨S523776x1, .i32⟩ : BufTy).Contents (Elt F)),
    binary main_arg0 main_v47 main_v48 ((fun x i => Host.gather gather_S1024x512_S523776x1_S523776x512_1_0_n_n_0_1_1512 x i) : (⟨S1024x512, .f32⟩ : BufTy).Contents (Elt F) → (⟨S523776x1, .i32⟩ : BufTy).Contents (Elt F) → (⟨S523776x512, .f32⟩ : BufTy).Contents (Elt F)),
    binary main_v41 main_v48 main_v49 (subf : (⟨S523776x512, .f32⟩ : BufTy).Contents (Elt F) → (⟨S523776x512, .f32⟩ : BufTy).Contents (Elt F) → (⟨S523776x512, .f32⟩ : BufTy).Contents (Elt F)),
    binary main_v49 main_v49 main_v50 (mulf : (⟨S523776x512, .f32⟩ : BufTy).Contents (Elt F) → (⟨S523776x512, .f32⟩ : BufTy).Contents (Elt F) → (⟨S523776x512, .f32⟩ : BufTy).Contents (Elt F)),
    nullary main_cst_17 (constant S_ .f32 0x00000000#32),
    binary main_v50 main_cst_17 main_v51 ((fun x v => Host.reduceAdd x v reducesTo_S523776x512_S523776_d1 h_S_) : (⟨S523776x512, .f32⟩ : BufTy).Contents (Elt F) → (⟨S_, .f32⟩ : BufTy).Contents (Elt F) → (⟨S523776, .f32⟩ : BufTy).Contents (Elt F)),
    nullary main_cst_18 (constant S_ .f32 0x00000000#32),
    TRef.unary (TRef.of main_cst_18 rfl) main_call8.v0 id,
    TRef.unary main_call8.v0 main_call8.v1 (broadcastInDim S523776 ![] bcast_S_S523776),
    TRef.ternary (TRef.of main_v34 rfl) (TRef.of main_v51 rfl) main_call8.v1 main_call8.v2 select,
    unary main_v51 main_v53 (Host.sqrt : (⟨S523776, .f32⟩ : BufTy).Contents (Elt F) → (⟨S523776, .f32⟩ : BufTy).Contents (Elt F)),
    nullary main_cst_19 (constant S_ .f32 0x3F800000#32),
    unary main_cst_19 main_v54 (broadcastInDim S523776 ![] bcast_S_S523776 : (⟨S_, .f32⟩ : BufTy).Contents (Elt F) → (⟨S523776, .f32⟩ : BufTy).Contents (Elt F)),
    binary main_v54 main_v53 main_v55 (subf : (⟨S523776, .f32⟩ : BufTy).Contents (Elt F) → (⟨S523776, .f32⟩ : BufTy).Contents (Elt F) → (⟨S523776, .f32⟩ : BufTy).Contents (Elt F)),
    TRef.nullary main_call9.cst (constant S_ .f32 0x00000000#32),
    TRef.unary main_call9.cst main_call9.v0 (broadcastInDim S523776 ![] bcast_S_S523776),
    TRef.binary (TRef.of main_v55 rfl) main_call9.v0 main_call9.v1 maximumf,
    binary main_v56 main_v56 main_v57 (mulf : (⟨S523776, .f32⟩ : BufTy).Contents (Elt F) → (⟨S523776, .f32⟩ : BufTy).Contents (Elt F) → (⟨S523776, .f32⟩ : BufTy).Contents (Elt F)),
    nullary main_cst_20 (constant S_ .f32 0x00000000#32),
    TRef.unary (TRef.of main_cst_20 rfl) main_call10.v0 id,
    TRef.unary main_call10.v0 main_call10.v1 (broadcastInDim S523776 ![] bcast_S_S523776),
    TRef.ternary (TRef.of main_v34 rfl) main_call10.v1 (TRef.of main_v57 rfl) main_call10.v2 select,
    binary main_v52 main_v58 main_v59 (addf : (⟨S523776, .f32⟩ : BufTy).Contents (Elt F) → (⟨S523776, .f32⟩ : BufTy).Contents (Elt F) → (⟨S523776, .f32⟩ : BufTy).Contents (Elt F)),
    nullary main_cst_21 (constant S_ .f32 0x00000000#32),
    binary main_v59 main_cst_21 main_v60 ((fun x v => Host.reduceAdd x v reducesTo_S523776_S_d0 h_S_) : (⟨S523776, .f32⟩ : BufTy).Contents (Elt F) → (⟨S_, .f32⟩ : BufTy).Contents (Elt F) → (⟨S_, .f32⟩ : BufTy).Contents (Elt F)),
    nullary main_cst_22 (constant S_ .f32 0x48FFC000#32),
    binary main_v60 main_cst_22 main_v61 (Host.divf : (⟨S_, .f32⟩ : BufTy).Contents (Elt F) → (⟨S_, .f32⟩ : BufTy).Contents (Elt F) → (⟨S_, .f32⟩ : BufTy).Contents (Elt F)) ]

/-- Segment H over the plain buffers. -/
abbrev segH : List (HloOp τ sig (Elt F)) :=
  [ unary main_c_15 main_v42 (broadcastInDim S523776 ![] bcast_S_S523776 : (⟨S_, .i32⟩ : BufTy).Contents (Elt F) → (⟨S523776, .i32⟩ : BufTy).Contents (Elt F)),
    binary main_v19 main_v42 main_v43 (cmpi .slt : (⟨S523776, .i32⟩ : BufTy).Contents (Elt F) → (⟨S523776, .i32⟩ : BufTy).Contents (Elt F) → (⟨S523776, .i1⟩ : BufTy).Contents (Elt F)),
    nullary main_c_16 (constantI S_ 32 1024#32),
    unary main_c_16 main_v44 (broadcastInDim S523776 ![] bcast_S_S523776 : (⟨S_, .i32⟩ : BufTy).Contents (Elt F) → (⟨S523776, .i32⟩ : BufTy).Contents (Elt F)),
    binary main_v19 main_v44 main_v45 (addi : (⟨S523776, .i32⟩ : BufTy).Contents (Elt F) → (⟨S523776, .i32⟩ : BufTy).Contents (Elt F) → (⟨S523776, .i32⟩ : BufTy).Contents (Elt F)),
    ternary main_v43 main_v45 main_v19 main_v46 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    unary main_v46 main_v47 (broadcastInDim S523776x1 ![0] bcast_S523776_S523776x1_0 : (⟨S523776, .i32⟩ : BufTy).Contents (Elt F) → (⟨S523776x1, .i32⟩ : BufTy).Contents (Elt F)),
    binary main_arg0 main_v47 main_v48 ((fun x i => Host.gather gather_S1024x512_S523776x1_S523776x512_1_0_n_n_0_1_1512 x i) : (⟨S1024x512, .f32⟩ : BufTy).Contents (Elt F) → (⟨S523776x1, .i32⟩ : BufTy).Contents (Elt F) → (⟨S523776x512, .f32⟩ : BufTy).Contents (Elt F)),
    binary main_v41 main_v48 main_v49 (subf : (⟨S523776x512, .f32⟩ : BufTy).Contents (Elt F) → (⟨S523776x512, .f32⟩ : BufTy).Contents (Elt F) → (⟨S523776x512, .f32⟩ : BufTy).Contents (Elt F)),
    binary main_v49 main_v49 main_v50 (mulf : (⟨S523776x512, .f32⟩ : BufTy).Contents (Elt F) → (⟨S523776x512, .f32⟩ : BufTy).Contents (Elt F) → (⟨S523776x512, .f32⟩ : BufTy).Contents (Elt F)),
    nullary main_cst_17 (constant S_ .f32 0x00000000#32),
    binary main_v50 main_cst_17 main_v51 ((fun x v => Host.reduceAdd x v reducesTo_S523776x512_S523776_d1 h_S_) : (⟨S523776x512, .f32⟩ : BufTy).Contents (Elt F) → (⟨S_, .f32⟩ : BufTy).Contents (Elt F) → (⟨S523776, .f32⟩ : BufTy).Contents (Elt F)),
    nullary main_cst_18 (constant S_ .f32 0x00000000#32),
    unary main_cst_18 main_call8_v0 id,
    unary main_call8_v0 main_call8_v1 (broadcastInDim S523776 ![] bcast_S_S523776),
    ternary main_v34 main_v51 main_call8_v1 main_v52 select,
    unary main_v51 main_v53 (Host.sqrt : (⟨S523776, .f32⟩ : BufTy).Contents (Elt F) → (⟨S523776, .f32⟩ : BufTy).Contents (Elt F)),
    nullary main_cst_19 (constant S_ .f32 0x3F800000#32),
    unary main_cst_19 main_v54 (broadcastInDim S523776 ![] bcast_S_S523776 : (⟨S_, .f32⟩ : BufTy).Contents (Elt F) → (⟨S523776, .f32⟩ : BufTy).Contents (Elt F)),
    binary main_v54 main_v53 main_v55 (subf : (⟨S523776, .f32⟩ : BufTy).Contents (Elt F) → (⟨S523776, .f32⟩ : BufTy).Contents (Elt F) → (⟨S523776, .f32⟩ : BufTy).Contents (Elt F)),
    nullary main_call9_cst (constant S_ .f32 0x00000000#32),
    unary main_call9_cst main_call9_v0 (broadcastInDim S523776 ![] bcast_S_S523776),
    binary main_v55 main_call9_v0 main_v56 maximumf,
    binary main_v56 main_v56 main_v57 (mulf : (⟨S523776, .f32⟩ : BufTy).Contents (Elt F) → (⟨S523776, .f32⟩ : BufTy).Contents (Elt F) → (⟨S523776, .f32⟩ : BufTy).Contents (Elt F)),
    nullary main_cst_20 (constant S_ .f32 0x00000000#32),
    unary main_cst_20 main_call10_v0 id,
    unary main_call10_v0 main_call10_v1 (broadcastInDim S523776 ![] bcast_S_S523776),
    ternary main_v34 main_call10_v1 main_v57 main_v58 select,
    binary main_v52 main_v58 main_v59 (addf : (⟨S523776, .f32⟩ : BufTy).Contents (Elt F) → (⟨S523776, .f32⟩ : BufTy).Contents (Elt F) → (⟨S523776, .f32⟩ : BufTy).Contents (Elt F)),
    nullary main_cst_21 (constant S_ .f32 0x00000000#32),
    binary main_v59 main_cst_21 main_v60 ((fun x v => Host.reduceAdd x v reducesTo_S523776_S_d0 h_S_) : (⟨S523776, .f32⟩ : BufTy).Contents (Elt F) → (⟨S_, .f32⟩ : BufTy).Contents (Elt F) → (⟨S_, .f32⟩ : BufTy).Contents (Elt F)),
    nullary main_cst_22 (constant S_ .f32 0x48FFC000#32),
    binary main_v60 main_cst_22 main_v61 (Host.divf : (⟨S_, .f32⟩ : BufTy).Contents (Elt F) → (⟨S_, .f32⟩ : BufTy).Contents (Elt F) → (⟨S_, .f32⟩ : BufTy).Contents (Elt F)) ]

attribute [local irreducible] Host.scatter Host.reduceWindow Host.gather Host.reduceAdd in
set_option maxRecDepth 65536 in
theorem segH_eq : (segH_T : List (HloOp τ sig (Elt F))) = segH := rfl

/-- @main's first window of statements: segments A to G. -/
abbrev ops_p0_T : List (HloOp τ sig (Elt F)) :=
  [ nullary main_cst (constant S_ .f32 0x3F800000#32),
    unary main_cst main_v0 (broadcastInDim S1024x1024 ![] bcast_S_S1024x1024 : (⟨S_, .f32⟩ : BufTy).Contents (Elt F) → (⟨S1024x1024, .f32⟩ : BufTy).Contents (Elt F)),
    TRef.nullary main_call0.v0 (iotaInDim S1024x1024 32 0),
    TRef.nullary main_call0.c (constantI S_ 32 0#32),
    TRef.unary main_call0.c main_call0.v1 (broadcastInDim S1024x1024 ![] bcast_S_S1024x1024),
    TRef.binary main_call0.v0 main_call0.v1 main_call0.v2 addi,
    TRef.nullary main_call0.v3 (iotaInDim S1024x1024 32 1),
    TRef.binary main_call0.v2 main_call0.v3 main_call0.v4 (cmpi .sge),
    TRef.nullary main_call0.cst (constant S_ .f32 0x00000000#32),
    TRef.unary main_call0.cst main_call0.v5 (broadcastInDim S1024x1024 ![] bcast_S_S1024x1024),
    TRef.ternary main_call0.v4 main_call0.v5 (TRef.of main_v0 rfl) main_call0.v6 select,
    nullary main_cst_0 (constant S_ .f32 0x00000000#32),
    unary main_cst_0 main_v2 (broadcastInDim S1024x1024 ![] bcast_S_S1024x1024 : (⟨S_, .f32⟩ : BufTy).Contents (Elt F) → (⟨S1024x1024, .f32⟩ : BufTy).Contents (Elt F)),
    binary main_v1 main_v2 main_v3 (cmpf .une : (⟨S1024x1024, .f32⟩ : BufTy).Contents (Elt F) → (⟨S1024x1024, .f32⟩ : BufTy).Contents (Elt F) → (⟨S1024x1024, .i1⟩ : BufTy).Contents (Elt F)),
    TRef.reshape (TRef.of main_v3 rfl) main_call1.v0 rfl shapeCasts_S1024x1024_S1048576,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![1048576] ![1] ![1048575] ![0] x v reduceWindows_S1048576_S1048576_w1048576s1p1048575_0 h_S_),
    nullary main_c (constantI S_ 32 0#32),
    unary main_c main_v5 (broadcastInDim S523776 ![] bcast_S_S523776 : (⟨S_, .i32⟩ : BufTy).Contents (Elt F) → (⟨S523776, .i32⟩ : BufTy).Contents (Elt F)),
    nullary main_c_1 (constantI S_ 32 0#32),
    TRef.unary (TRef.of main_c_1 rfl) main_call2.v0 id,
    TRef.unary main_call2.v0 main_call2.v1 (broadcastInDim S1048576 ![] bcast_S_S1048576),
    TRef.binary main_call2.v1 (TRef.of main_v4 rfl) main_call2.v2 maxsi,
    nullary main_c_2 (constantI S_ 32 0#32),
    unary main_c_2 main_v7 (broadcastInDim S1048576 ![] bcast_S_S1048576 : (⟨S_, .i32⟩ : BufTy).Contents (Elt F) → (⟨S1048576, .i32⟩ : BufTy).Contents (Elt F)),
    binary main_v6 main_v7 main_v8 (cmpi .slt : (⟨S1048576, .i32⟩ : BufTy).Contents (Elt F) → (⟨S1048576, .i32⟩ : BufTy).Contents (Elt F) → (⟨S1048576, .i1⟩ : BufTy).Contents (Elt F)),
    nullary main_c_3 (constantI S_ 32 523776#32),
    unary main_c_3 main_v9 (broadcastInDim S1048576 ![] bcast_S_S1048576 : (⟨S_, .i32⟩ : BufTy).Contents (Elt F) → (⟨S1048576, .i32⟩ : BufTy).Contents (Elt F)),
    binary main_v6 main_v9 main_v10 (addi : (⟨S1048576, .i32⟩ : BufTy).Contents (Elt F) → (⟨S1048576, .i32⟩ : BufTy).Contents (Elt F) → (⟨S1048576, .i32⟩ : BufTy).Contents (Elt F)),
    ternary main_v8 main_v10 main_v6 main_v11 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v11 main_v12 (broadcastInDim S1048576x1 ![0] bcast_S1048576_S1048576x1_0 : (⟨S1048576, .i32⟩ : BufTy).Contents (Elt F) → (⟨S1048576x1, .i32⟩ : BufTy).Contents (Elt F)),
    nullary main_c_4 (constantI S_ 32 1#32),
    unary main_c_4 main_v13 (broadcastInDim S1048576 ![] bcast_S_S1048576 : (⟨S_, .i32⟩ : BufTy).Contents (Elt F) → (⟨S1048576, .i32⟩ : BufTy).Contents (Elt F)),
    ternary main_v5 main_v12 main_v13 main_v14 ((fun x i u => Host.scatter scatter_S523776_S1048576x1_S1048576_n_0_0_1 IntOp.addi x i u) : (⟨S523776, .i32⟩ : BufTy).Contents (Elt F) → (⟨S1048576x1, .i32⟩ : BufTy).Contents (Elt F) → (⟨S1048576, .i32⟩ : BufTy).Contents (Elt F) → (⟨S523776, .i32⟩ : BufTy).Contents (Elt F)),
    TRef.nullary main_call3.call0.c (constantI S_ 32 0#32),
    TRef.unary main_call3.call0.c main_call3.call0.v0 (broadcastInDim S_ ![] bcast_S_S_),
    TRef.binary (TRef.of main_v14 rfl) main_call3.call0.v0 main_call3.call0.v1 (fun x v => Host.reduceWindow IntOp.addi ![523776] ![1] ![523775] ![0] x v reduceWindows_S523776_S523776_w523776s1p523775_0 h_S_),
    nullary main_c_5 (constantI S_ 32 1024#32),
    TRef.unary (TRef.of main_c_5 rfl) main_call4.v0 (broadcastInDim S523776 ![] bcast_S_S523776),
    TRef.binary (TRef.of main_v15 rfl) main_call4.v0 main_call4.v1 Host.divsi,
    TRef.unary (TRef.of main_v15 rfl) main_call4.v2 signi,
    TRef.unary (TRef.of main_c_5 rfl) main_call4.v3 signi,
    TRef.unary main_call4.v3 main_call4.v4 (broadcastInDim S523776 ![] bcast_S_S523776),
    TRef.binary main_call4.v2 main_call4.v4 main_call4.v5 (cmpi .ne),
    TRef.unary (TRef.of main_c_5 rfl) main_call4.v6 (broadcastInDim S523776 ![] bcast_S_S523776),
    TRef.binary (TRef.of main_v15 rfl) main_call4.v6 main_call4.v7 Host.remsi,
    TRef.nullary main_call4.c (constantI S_ 32 0#32),
    TRef.unary main_call4.c main_call4.v8 (broadcastInDim S523776 ![] bcast_S_S523776),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S523776 ![] bcast_S_S523776),
    TRef.binary main_call4.v1 main_call4.v11 main_call4.v12 subi,
    TRef.ternary main_call4.v10 main_call4.v12 main_call4.v1 main_call4.call0.v0 select,
    nullary main_c_6 (constantI S_ 32 1024#32),
    TRef.unary (TRef.of main_c_6 rfl) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S523776 ![] bcast_S_S523776),
    TRef.binary (TRef.of main_v16 rfl) main_call5.v3 main_call5.v4 Host.remsi,
    TRef.nullary main_call5.c_1 (constantI S_ 32 0#32),
    TRef.unary main_call5.c_1 main_call5.v5 (broadcastInDim S523776 ![] bcast_S_S523776),
    TRef.binary main_call5.v4 main_call5.v5 main_call5.v6 (cmpi .ne),
    TRef.nullary main_call5.c_2 (constantI S_ 32 0#32),
    TRef.unary main_call5.c_2 main_call5.v7 (broadcastInDim S523776 ![] bcast_S_S523776),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S523776 ![] bcast_S_S523776),
    TRef.binary main_call5.v8 main_call5.v10 main_call5.v11 (cmpi .ne),
    TRef.binary main_call5.v11 main_call5.v6 main_call5.v12 andi,
    TRef.unary main_call5.call0.v0 main_call5.v13 (broadcastInDim S523776 ![] bcast_S_S523776),
    TRef.binary main_call5.v4 main_call5.v13 main_call5.v14 addi,
    TRef.ternary main_call5.v12 main_call5.v14 main_call5.v4 main_call5.v15 select,
    nullary main_c_7 (constantI S_ 32 1#32),
    TRef.unary (TRef.of main_c_7 rfl) main_call6.v0 (broadcastInDim S523776 ![] bcast_S_S523776),
    TRef.binary (TRef.of main_v15 rfl) main_call6.v0 main_call6.v1 Host.divsi,
    TRef.unary (TRef.of main_v15 rfl) main_call6.v2 signi,
    TRef.unary (TRef.of main_c_7 rfl) main_call6.v3 signi,
    TRef.unary main_call6.v3 main_call6.v4 (broadcastInDim S523776 ![] bcast_S_S523776),
    TRef.binary main_call6.v2 main_call6.v4 main_call6.v5 (cmpi .ne),
    TRef.unary (TRef.of main_c_7 rfl) main_call6.v6 (broadcastInDim S523776 ![] bcast_S_S523776),
    TRef.binary (TRef.of main_v15 rfl) main_call6.v6 main_call6.v7 Host.remsi,
    TRef.nullary main_call6.c (constantI S_ 32 0#32),
    TRef.unary main_call6.c main_call6.v8 (broadcastInDim S523776 ![] bcast_S_S523776),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S523776 ![] bcast_S_S523776),
    TRef.binary main_call6.v1 main_call6.v11 main_call6.v12 subi,
    TRef.ternary main_call6.v10 main_call6.v12 main_call6.v1 main_call6.call0.v0 select,
    nullary main_c_8 (constantI S_ 32 1024#32),
    TRef.unary (TRef.of main_c_8 rfl) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S523776 ![] bcast_S_S523776),
    TRef.binary (TRef.of main_v18 rfl) main_call7.v3 main_call7.v4 Host.remsi,
    TRef.nullary main_call7.c_1 (constantI S_ 32 0#32),
    TRef.unary main_call7.c_1 main_call7.v5 (broadcastInDim S523776 ![] bcast_S_S523776),
    TRef.binary main_call7.v4 main_call7.v5 main_call7.v6 (cmpi .ne),
    TRef.nullary main_call7.c_2 (constantI S_ 32 0#32),
    TRef.unary main_call7.c_2 main_call7.v7 (broadcastInDim S523776 ![] bcast_S_S523776),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S523776 ![] bcast_S_S523776),
    TRef.binary main_call7.v8 main_call7.v10 main_call7.v11 (cmpi .ne),
    TRef.binary main_call7.v11 main_call7.v6 main_call7.v12 andi,
    TRef.unary main_call7.call0.v0 main_call7.v13 (broadcastInDim S523776 ![] bcast_S_S523776),
    TRef.binary main_call7.v4 main_call7.v13 main_call7.v14 addi,
    TRef.ternary main_call7.v12 main_call7.v14 main_call7.v4 main_call7.v15 select,
    nullary main_c_9 (constantI S_ 32 0#32),
    unary main_c_9 main_v20 (broadcastInDim S523776 ![] bcast_S_S523776 : (⟨S_, .i32⟩ : BufTy).Contents (Elt F) → (⟨S523776, .i32⟩ : BufTy).Contents (Elt F)),
    binary main_v17 main_v20 main_v21 (cmpi .slt : (⟨S523776, .i32⟩ : BufTy).Contents (Elt F) → (⟨S523776, .i32⟩ : BufTy).Contents (Elt F) → (⟨S523776, .i1⟩ : BufTy).Contents (Elt F)),
    nullary main_c_10 (constantI S_ 32 1024#32),
    unary main_c_10 main_v22 (broadcastInDim S523776 ![] bcast_S_S523776 : (⟨S_, .i32⟩ : BufTy).Contents (Elt F) → (⟨S523776, .i32⟩ : BufTy).Contents (Elt F)),
    binary main_v17 main_v22 main_v23 (addi : (⟨S523776, .i32⟩ : BufTy).Contents (Elt F) → (⟨S523776, .i32⟩ : BufTy).Contents (Elt F) → (⟨S523776, .i32⟩ : BufTy).Contents (Elt F)),
    ternary main_v21 main_v23 main_v17 main_v24 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    unary main_v24 main_v25 (broadcastInDim S523776x1 ![0] bcast_S523776_S523776x1_0 : (⟨S523776, .i32⟩ : BufTy).Contents (Elt F) → (⟨S523776x1, .i32⟩ : BufTy).Contents (Elt F)),
    binary main_arg1 main_v25 main_v26 ((fun x i => Host.gather gather_S1024_S523776x1_S523776_n_0_n_n_0_1_1 x i) : (⟨S1024, .i32⟩ : BufTy).Contents (Elt F) → (⟨S523776x1, .i32⟩ : BufTy).Contents (Elt F) → (⟨S523776, .i32⟩ : BufTy).Contents (Elt F)),
    nullary main_c_11 (constantI S_ 32 0#32),
    unary main_c_11 main_v27 (broadcastInDim S523776 ![] bcast_S_S523776 : (⟨S_, .i32⟩ : BufTy).Contents (Elt F) → (⟨S523776, .i32⟩ : BufTy).Contents (Elt F)),
    binary main_v19 main_v27 main_v28 (cmpi .slt : (⟨S523776, .i32⟩ : BufTy).Contents (Elt F) → (⟨S523776, .i32⟩ : BufTy).Contents (Elt F) → (⟨S523776, .i1⟩ : BufTy).Contents (Elt F)),
    nullary main_c_12 (constantI S_ 32 1024#32),
    unary main_c_12 main_v29 (broadcastInDim S523776 ![] bcast_S_S523776 : (⟨S_, .i32⟩ : BufTy).Contents (Elt F) → (⟨S523776, .i32⟩ : BufTy).Contents (Elt F)),
    binary main_v19 main_v29 main_v30 (addi : (⟨S523776, .i32⟩ : BufTy).Contents (Elt F) → (⟨S523776, .i32⟩ : BufTy).Contents (Elt F) → (⟨S523776, .i32⟩ : BufTy).Contents (Elt F)),
    ternary main_v28 main_v30 main_v19 main_v31 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    unary main_v31 main_v32 (broadcastInDim S523776x1 ![0] bcast_S523776_S523776x1_0 : (⟨S523776, .i32⟩ : BufTy).Contents (Elt F) → (⟨S523776x1, .i32⟩ : BufTy).Contents (Elt F)),
    binary main_arg1 main_v32 main_v33 ((fun x i => Host.gather gather_S1024_S523776x1_S523776_n_0_n_n_0_1_1 x i) : (⟨S1024, .i32⟩ : BufTy).Contents (Elt F) → (⟨S523776x1, .i32⟩ : BufTy).Contents (Elt F) → (⟨S523776, .i32⟩ : BufTy).Contents (Elt F)),
    binary main_v26 main_v33 main_v34 (cmpi .eq : (⟨S523776, .i32⟩ : BufTy).Contents (Elt F) → (⟨S523776, .i32⟩ : BufTy).Contents (Elt F) → (⟨S523776, .i1⟩ : BufTy).Contents (Elt F)),
    nullary main_c_13 (constantI S_ 32 0#32),
    unary main_c_13 main_v35 (broadcastInDim S523776 ![] bcast_S_S523776 : (⟨S_, .i32⟩ : BufTy).Contents (Elt F) → (⟨S523776, .i32⟩ : BufTy).Contents (Elt F)),
    binary main_v17 main_v35 main_v36 (cmpi .slt : (⟨S523776, .i32⟩ : BufTy).Contents (Elt F) → (⟨S523776, .i32⟩ : BufTy).Contents (Elt F) → (⟨S523776, .i1⟩ : BufTy).Contents (Elt F)),
    nullary main_c_14 (constantI S_ 32 1024#32),
    unary main_c_14 main_v37 (broadcastInDim S523776 ![] bcast_S_S523776 : (⟨S_, .i32⟩ : BufTy).Contents (Elt F) → (⟨S523776, .i32⟩ : BufTy).Contents (Elt F)),
    binary main_v17 main_v37 main_v38 (addi : (⟨S523776, .i32⟩ : BufTy).Contents (Elt F) → (⟨S523776, .i32⟩ : BufTy).Contents (Elt F) → (⟨S523776, .i32⟩ : BufTy).Contents (Elt F)),
    ternary main_v36 main_v38 main_v17 main_v39 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    unary main_v39 main_v40 (broadcastInDim S523776x1 ![0] bcast_S523776_S523776x1_0 : (⟨S523776, .i32⟩ : BufTy).Contents (Elt F) → (⟨S523776x1, .i32⟩ : BufTy).Contents (Elt F)),
    binary main_arg0 main_v40 main_v41 ((fun x i => Host.gather gather_S1024x512_S523776x1_S523776x512_1_0_n_n_0_1_1512 x i) : (⟨S1024x512, .f32⟩ : BufTy).Contents (Elt F) → (⟨S523776x1, .i32⟩ : BufTy).Contents (Elt F) → (⟨S523776x512, .f32⟩ : BufTy).Contents (Elt F)),
    nullary main_c_15 (constantI S_ 32 0#32) ]

theorem ops_p0_T_eq : (ops_p0_T : List (HloOp τ sig (Elt F))) = segA_T ++ (segB_T ++ (segC_T ++ (segD_T ++ (segE_T ++ segG_T)))) := rfl

/-- All of @main's operations, over the plain buffers. -/
abbrev ops : List (HloOp τ sig (Elt F)) := segA ++ (segB ++ (segC ++ (segD ++ (segE ++ (segG ++ segH)))))

set_option maxRecDepth 16384 in
set_option maxHeartbeats 4000000 in
theorem main_part0_eq (c : Dev nD) : main_part0 (F := F) c = seq ops_p0_T := by
  simp only [main_part0, fn_triu.body, fn_cumsum_0.body, fn_cumsum.body, fn_clip.body, fn_cumsum_2.body, fn_cumsum_1.body, fn_where.body,
    fn_floor_divide.body, fn_where_3.body, fn_remainder.body, seq, bind_assoc, pure_bind]
  rfl

set_option maxRecDepth 16384 in
set_option maxHeartbeats 4000000 in
theorem main_part1_eq (c : Dev nD) : main_part1 (F := F) c = seq segH_T := by
  simp only [main_part1, fn_where_4.body, fn_relu.body, fn_where_5.body, seq, bind_assoc, pure_bind]

theorem ops_eq : (ops : List (HloOp τ sig (Elt F))) = ops_p0_T ++ segH_T := by
  rw [ops_p0_T_eq, segA_eq, segB_eq, segC_eq, segD_eq, segE_eq, segG_eq, segH_eq]
  simp only [ops, List.append_assoc]

set_option maxRecDepth 16384 in
theorem main_eq (c : Dev nD) : main (F := F) c = seq ops := by
  rw [ops_eq]
  simp only [seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem segA_sub : (segA : List (HloOp τ sig (Elt F))).Forall fun op => op.bufs ⊆ tcRefs τ sig :=
  ⟨nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., reshape_bufs_sub .., unary_bufs_sub .., nullary_bufs_sub .., unary_bufs_sub .., binary_bufs_sub ..⟩
set_option maxRecDepth 16384 in
theorem segB_sub : (segB : List (HloOp τ sig (Elt F))).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩
set_option maxRecDepth 16384 in
theorem segC_sub : (segC : List (HloOp τ sig (Elt F))).Forall fun op => op.bufs ⊆ tcRefs τ sig :=
  ⟨nullary_bufs_sub .., unary_bufs_sub .., binary_bufs_sub ..⟩
set_option maxRecDepth 16384 in
theorem segD_sub : (segD : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
set_option maxRecDepth 16384 in
theorem segE_sub : (segE : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
set_option maxRecDepth 16384 in
theorem segG_sub : (segG : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩
set_option maxRecDepth 16384 in
theorem segH_sub : (segH : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., binary_bufs_sub .., nullary_bufs_sub .., binary_bufs_sub .., nullary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp segA_sub op h, List.forall_iff_forall_mem.mp segB_sub op h, List.forall_iff_forall_mem.mp segC_sub op h, List.forall_iff_forall_mem.mp segD_sub op h, List.forall_iff_forall_mem.mp segE_sub op h, List.forall_iff_forall_mem.mp segG_sub op h, List.forall_iff_forall_mem.mp segH_sub op h]

/-- Every weakly fair execution of @main terminates, and every final state has each buffer at the fold of the
    operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefStageDefs.lean ====
/-
  What each segment of the reference's host operations leaves in its result buffer, as a pure function of the
  buffers the segment reads: the operations of the segment composed in order.
-/
import proofs.«144406_g54881092108806_cont_sun_m_11_6_alg».proof.Proof.Gen.ReferenceIdeal

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- Segment A's result `main_v4` as a function of what the segment reads. -/
def stageA_v4  : IVec S1048576 32 :=
  ((fun x v => Host.reduceWindow IntOp.addi ![1048576] ![1] ![1048575] ![0] x v reduceWindows_S1048576_S1048576_w1048576s1p1048575_0 h_S_) ((extui 32 · natLt_1_32) (shapeCast S1048576 ((cmpf .une) (select ((cmpi .sge) (addi (iotaInDim S1024x1024 32 0) ((broadcastInDim S1024x1024 ![] bcast_S_S1024x1024) (constantI S_ 32 0#32))) (iotaInDim S1024x1024 32 1)) ((broadcastInDim S1024x1024 ![] bcast_S_S1024x1024) (constant (F := F) S_ .f32 0x00000000#32)) ((broadcastInDim S1024x1024 ![] bcast_S_S1024x1024) (constant (F := F) S_ .f32 0x3F800000#32))) ((broadcastInDim S1024x1024 ![] bcast_S_S1024x1024) (constant (F := F) S_ .f32 0x00000000#32))) shapeCasts_S1024x1024_S1048576)) ((broadcastInDim S_ ![] bcast_S_S_) (constantI S_ 32 0#32)))

/-- Segment B's result `main_v14` as a function of what the segment reads. -/
def stageB_v14 (x_v4 : IVec S1048576 32) : IVec S523776 32 :=
  (((fun x i u => Host.scatter scatter_S523776_S1048576x1_S1048576_n_0_0_1 IntOp.addi x i u)) ((broadcastInDim S523776 ![] bcast_S_S523776) (constantI S_ 32 0#32)) ((broadcastInDim S1048576x1 ![0] bcast_S1048576_S1048576x1_0) ((select) ((cmpi .slt) (maxsi ((broadcastInDim S1048576 ![] bcast_S_S1048576) (id (constantI S_ 32 0#32))) x_v4) ((broadcastInDim S1048576 ![] bcast_S_S1048576) (constantI S_ 32 0#32))) ((addi) (maxsi ((broadcastInDim S1048576 ![] bcast_S_S1048576) (id (constantI S_ 32 0#32))) x_v4) ((broadcastInDim S1048576 ![] bcast_S_S1048576) (constantI S_ 32 523776#32))) (maxsi ((broadcastInDim S1048576 ![] bcast_S_S1048576) (id (constantI S_ 32 0#32))) x_v4))) ((broadcastInDim S1048576 ![] bcast_S_S1048576) (constantI S_ 32 1#32)))

/-- Segment C's result `main_v15` as a function of what the segment reads. -/
def stageC_v15 (x_v14 : IVec S523776 32) : IVec S523776 32 :=
  ((fun x v => Host.reduceWindow IntOp.addi ![523776] ![1] ![523775] ![0] x v reduceWindows_S523776_S523776_w523776s1p523775_0 h_S_) x_v14 ((broadcastInDim S_ ![] bcast_S_S_) (constantI S_ 32 0#32)))

/-- Segment D's result `main_v17` as a function of what the segment reads. -/
def stageD_v17 (x_v15 : IVec S523776 32) : IVec S523776 32 :=
  (select (andi ((cmpi .ne) ((cmpi .slt) (Host.remsi (select (andi ((cmpi .ne) (signi x_v15) ((broadcastInDim S523776 ![] bcast_S_S523776) (signi (constantI S_ 32 1024#32)))) ((cmpi .ne) (Host.remsi x_v15 ((broadcastInDim S523776 ![] bcast_S_S523776) (constantI S_ 32 1024#32))) ((broadcastInDim S523776 ![] bcast_S_S523776) (constantI S_ 32 0#32)))) (subi (Host.divsi x_v15 ((broadcastInDim S523776 ![] bcast_S_S523776) (constantI S_ 32 1024#32))) ((broadcastInDim S523776 ![] bcast_S_S523776) (constantI S_ 32 1#32))) (Host.divsi x_v15 ((broadcastInDim S523776 ![] bcast_S_S523776) (constantI S_ 32 1024#32)))) ((broadcastInDim S523776 ![] bcast_S_S523776) (select ((cmpi .eq) (id (constantI S_ 32 1024#32)) (constantI S_ 32 0#32)) (constantI S_ 32 1#32) (id (constantI S_ 32 1024#32))))) ((broadcastInDim S523776 ![] bcast_S_S523776) (constantI S_ 32 0#32))) ((broadcastInDim S523776 ![] bcast_S_S523776) ((cmpi .slt) (select ((cmpi .eq) (id (constantI S_ 32 1024#32)) (constantI S_ 32 0#32)) (constantI S_ 32 1#32) (id (constantI S_ 32 1024#32))) (constantI S_ 32 0#32)))) ((cmpi .ne) (Host.remsi (select (andi ((cmpi .ne) (signi x_v15) ((broadcastInDim S523776 ![] bcast_S_S523776) (signi (constantI S_ 32 1024#32)))) ((cmpi .ne) (Host.remsi x_v15 ((broadcastInDim S523776 ![] bcast_S_S523776) (constantI S_ 32 1024#32))) ((broadcastInDim S523776 ![] bcast_S_S523776) (constantI S_ 32 0#32)))) (subi (Host.divsi x_v15 ((broadcastInDim S523776 ![] bcast_S_S523776) (constantI S_ 32 1024#32))) ((broadcastInDim S523776 ![] bcast_S_S523776) (constantI S_ 32 1#32))) (Host.divsi x_v15 ((broadcastInDim S523776 ![] bcast_S_S523776) (constantI S_ 32 1024#32)))) ((broadcastInDim S523776 ![] bcast_S_S523776) (select ((cmpi .eq) (id (constantI S_ 32 1024#32)) (constantI S_ 32 0#32)) (constantI S_ 32 1#32) (id (constantI S_ 32 1024#32))))) ((broadcastInDim S523776 ![] bcast_S_S523776) (constantI S_ 32 0#32)))) (addi (Host.remsi (select (andi ((cmpi .ne) (signi x_v15) ((broadcastInDim S523776 ![] bcast_S_S523776) (signi (constantI S_ 32 1024#32)))) ((cmpi .ne) (Host.remsi x_v15 ((broadcastInDim S523776 ![] bcast_S_S523776) (constantI S_ 32 1024#32))) ((broadcastInDim S523776 ![] bcast_S_S523776) (constantI S_ 32 0#32)))) (subi (Host.divsi x_v15 ((broadcastInDim S523776 ![] bcast_S_S523776) (constantI S_ 32 1024#32))) ((broadcastInDim S523776 ![] bcast_S_S523776) (constantI S_ 32 1#32))) (Host.divsi x_v15 ((broadcastInDim S523776 ![] bcast_S_S523776) (constantI S_ 32 1024#32)))) ((broadcastInDim S523776 ![] bcast_S_S523776) (select ((cmpi .eq) (id (constantI S_ 32 1024#32)) (constantI S_ 32 0#32)) (constantI S_ 32 1#32) (id (constantI S_ 32 1024#32))))) ((broadcastInDim S523776 ![] bcast_S_S523776) (select ((cmpi .eq) (id (constantI S_ 32 1024#32)) (constantI S_ 32 0#32)) (constantI S_ 32 1#32) (id (constantI S_ 32 1024#32))))) (Host.remsi (select (andi ((cmpi .ne) (signi x_v15) ((broadcastInDim S523776 ![] bcast_S_S523776) (signi (constantI S_ 32 1024#32)))) ((cmpi .ne) (Host.remsi x_v15 ((broadcastInDim S523776 ![] bcast_S_S523776) (constantI S_ 32 1024#32))) ((broadcastInDim S523776 ![] bcast_S_S523776) (constantI S_ 32 0#32)))) (subi (Host.divsi x_v15 ((broadcastInDim S523776 ![] bcast_S_S523776) (constantI S_ 32 1024#32))) ((broadcastInDim S523776 ![] bcast_S_S523776) (constantI S_ 32 1#32))) (Host.divsi x_v15 ((broadcastInDim S523776 ![] bcast_S_S523776) (constantI S_ 32 1024#32)))) ((broadcastInDim S523776 ![] bcast_S_S523776) (select ((cmpi .eq) (id (constantI S_ 32 1024#32)) (constantI S_ 32 0#32)) (constantI S_ 32 1#32) (id (constantI S_ 32 1024#32))))))

/-- Segment E's result `main_v19` as a function of what the segment reads. -/
def stageE_v19 (x_v15 : IVec S523776 32) : IVec S523776 32 :=
  (select (andi ((cmpi .ne) ((cmpi .slt) (Host.remsi (select (andi ((cmpi .ne) (signi x_v15) ((broadcastInDim S523776 ![] bcast_S_S523776) (signi (constantI S_ 32 1#32)))) ((cmpi .ne) (Host.remsi x_v15 ((broadcastInDim S523776 ![] bcast_S_S523776) (constantI S_ 32 1#32))) ((broadcastInDim S523776 ![] bcast_S_S523776) (constantI S_ 32 0#32)))) (subi (Host.divsi x_v15 ((broadcastInDim S523776 ![] bcast_S_S523776) (constantI S_ 32 1#32))) ((broadcastInDim S523776 ![] bcast_S_S523776) (constantI S_ 32 1#32))) (Host.divsi x_v15 ((broadcastInDim S523776 ![] bcast_S_S523776) (constantI S_ 32 1#32)))) ((broadcastInDim S523776 ![] bcast_S_S523776) (select ((cmpi .eq) (id (constantI S_ 32 1024#32)) (constantI S_ 32 0#32)) (constantI S_ 32 1#32) (id (constantI S_ 32 1024#32))))) ((broadcastInDim S523776 ![] bcast_S_S523776) (constantI S_ 32 0#32))) ((broadcastInDim S523776 ![] bcast_S_S523776) ((cmpi .slt) (select ((cmpi .eq) (id (constantI S_ 32 1024#32)) (constantI S_ 32 0#32)) (constantI S_ 32 1#32) (id (constantI S_ 32 1024#32))) (constantI S_ 32 0#32)))) ((cmpi .ne) (Host.remsi (select (andi ((cmpi .ne) (signi x_v15) ((broadcastInDim S523776 ![] bcast_S_S523776) (signi (constantI S_ 32 1#32)))) ((cmpi .ne) (Host.remsi x_v15 ((broadcastInDim S523776 ![] bcast_S_S523776) (constantI S_ 32 1#32))) ((broadcastInDim S523776 ![] bcast_S_S523776) (constantI S_ 32 0#32)))) (subi (Host.divsi x_v15 ((broadcastInDim S523776 ![] bcast_S_S523776) (constantI S_ 32 1#32))) ((broadcastInDim S523776 ![] bcast_S_S523776) (constantI S_ 32 1#32))) (Host.divsi x_v15 ((broadcastInDim S523776 ![] bcast_S_S523776) (constantI S_ 32 1#32)))) ((broadcastInDim S523776 ![] bcast_S_S523776) (select ((cmpi .eq) (id (constantI S_ 32 1024#32)) (constantI S_ 32 0#32)) (constantI S_ 32 1#32) (id (constantI S_ 32 1024#32))))) ((broadcastInDim S523776 ![] bcast_S_S523776) (constantI S_ 32 0#32)))) (addi (Host.remsi (select (andi ((cmpi .ne) (signi x_v15) ((broadcastInDim S523776 ![] bcast_S_S523776) (signi (constantI S_ 32 1#32)))) ((cmpi .ne) (Host.remsi x_v15 ((broadcastInDim S523776 ![] bcast_S_S523776) (constantI S_ 32 1#32))) ((broadcastInDim S523776 ![] bcast_S_S523776) (constantI S_ 32 0#32)))) (subi (Host.divsi x_v15 ((broadcastInDim S523776 ![] bcast_S_S523776) (constantI S_ 32 1#32))) ((broadcastInDim S523776 ![] bcast_S_S523776) (constantI S_ 32 1#32))) (Host.divsi x_v15 ((broadcastInDim S523776 ![] bcast_S_S523776) (constantI S_ 32 1#32)))) ((broadcastInDim S523776 ![] bcast_S_S523776) (select ((cmpi .eq) (id (constantI S_ 32 1024#32)) (constantI S_ 32 0#32)) (constantI S_ 32 1#32) (id (constantI S_ 32 1024#32))))) ((broadcastInDim S523776 ![] bcast_S_S523776) (select ((cmpi .eq) (id (constantI S_ 32 1024#32)) (constantI S_ 32 0#32)) (constantI S_ 32 1#32) (id (constantI S_ 32 1024#32))))) (Host.remsi (select (andi ((cmpi .ne) (signi x_v15) ((broadcastInDim S523776 ![] bcast_S_S523776) (signi (constantI S_ 32 1#32)))) ((cmpi .ne) (Host.remsi x_v15 ((broadcastInDim S523776 ![] bcast_S_S523776) (constantI S_ 32 1#32))) ((broadcastInDim S523776 ![] bcast_S_S523776) (constantI S_ 32 0#32)))) (subi (Host.divsi x_v15 ((broadcastInDim S523776 ![] bcast_S_S523776) (constantI S_ 32 1#32))) ((broadcastInDim S523776 ![] bcast_S_S523776) (constantI S_ 32 1#32))) (Host.divsi x_v15 ((broadcastInDim S523776 ![] bcast_S_S523776) (constantI S_ 32 1#32)))) ((broadcastInDim S523776 ![] bcast_S_S523776) (select ((cmpi .eq) (id (constantI S_ 32 1024#32)) (constantI S_ 32 0#32)) (constantI S_ 32 1#32) (id (constantI S_ 32 1024#32))))))

/-- Segment G's result `main_v34` as a function of what the segment reads. -/
def stageG_v34 (x_arg1 : IVec S1024 32) (x_v17 : IVec S523776 32) (x_v19 : IVec S523776 32) : IVec S523776 1 :=
  ((cmpi .eq) (((fun x i => Host.gather gather_S1024_S523776x1_S523776_n_0_n_n_0_1_1 x i)) x_arg1 ((broadcastInDim S523776x1 ![0] bcast_S523776_S523776x1_0) ((select) ((cmpi .slt) x_v17 ((broadcastInDim S523776 ![] bcast_S_S523776) (constantI S_ 32 0#32))) ((addi) x_v17 ((broadcastInDim S523776 ![] bcast_S_S523776) (constantI S_ 32 1024#32))) x_v17))) (((fun x i => Host.gather gather_S1024_S523776x1_S523776_n_0_n_n_0_1_1 x i)) x_arg1 ((broadcastInDim S523776x1 ![0] bcast_S523776_S523776x1_0) ((select) ((cmpi .slt) x_v19 ((broadcastInDim S523776 ![] bcast_S_S523776) (constantI S_ 32 0#32))) ((addi) x_v19 ((broadcastInDim S523776 ![] bcast_S_S523776) (constantI S_ 32 1024#32))) x_v19))))

/-- Segment G's result `main_v41` as a function of what the segment reads. -/
def stageG_v41 (x_arg0 : FVec F S1024x512 .f32) (x_v17 : IVec S523776 32) : FVec F S523776x512 .f32 :=
  (((fun x i => Host.gather gather_S1024x512_S523776x1_S523776x512_1_0_n_n_0_1_1512 x i)) x_arg0 ((broadcastInDim S523776x1 ![0] bcast_S523776_S523776x1_0) ((select) ((cmpi .slt) x_v17 ((broadcastInDim S523776 ![] bcast_S_S523776) (constantI S_ 32 0#32))) ((addi) x_v17 ((broadcastInDim S523776 ![] bcast_S_S523776) (constantI S_ 32 1024#32))) x_v17)))

/-- Segment G's result `main_c_15` as a function of what the segment reads. -/
def stageG_c_15  : IVec S_ 32 :=
  (constantI S_ 32 0#32)

/-- Segment H's result `main_v61` as a function of what the segment reads. -/
def stageH_v61 (x_v34 : IVec S523776 1) (x_v41 : FVec F S523776x512 .f32) (x_arg0 : FVec F S1024x512 .f32) (x_v19 : IVec S523776 32) (x_c_15 : IVec S_ 32) : FVec F S_ .f32 :=
  ((Host.divf) (((fun x v => Host.reduceAdd x v reducesTo_S523776_S_d0 h_S_)) ((addf) (select x_v34 (((fun x v => Host.reduceAdd x v reducesTo_S523776x512_S523776_d1 h_S_)) ((mulf) ((subf) x_v41 (((fun x i => Host.gather gather_S1024x512_S523776x1_S523776x512_1_0_n_n_0_1_1512 x i)) x_arg0 ((broadcastInDim S523776x1 ![0] bcast_S523776_S523776x1_0) ((select) ((cmpi .slt) x_v19 ((broadcastInDim S523776 ![] bcast_S_S523776) x_c_15)) ((addi) x_v19 ((broadcastInDim S523776 ![] bcast_S_S523776) (constantI S_ 32 1024#32))) x_v19)))) ((subf) x_v41 (((fun x i => Host.gather gather_S1024x512_S523776x1_S523776x512_1_0_n_n_0_1_1512 x i)) x_arg0 ((broadcastInDim S523776x1 ![0] bcast_S523776_S523776x1_0) ((select) ((cmpi .slt) x_v19 ((broadcastInDim S523776 ![] bcast_S_S523776) x_c_15)) ((addi) x_v19 ((broadcastInDim S523776 ![] bcast_S_S523776) (constantI S_ 32 1024#32))) x_v19))))) (constant (F := F) S_ .f32 0x00000000#32)) ((broadcastInDim S523776 ![] bcast_S_S523776) (id (constant (F := F) S_ .f32 0x00000000#32)))) (select x_v34 ((broadcastInDim S523776 ![] bcast_S_S523776) (id (constant (F := F) S_ .f32 0x00000000#32))) ((mulf) (maximumf ((subf) ((broadcastInDim S523776 ![] bcast_S_S523776) (constant (F := F) S_ .f32 0x3F800000#32)) ((Host.sqrt) (((fun x v => Host.reduceAdd x v reducesTo_S523776x512_S523776_d1 h_S_)) ((mulf) ((subf) x_v41 (((fun x i => Host.gather gather_S1024x512_S523776x1_S523776x512_1_0_n_n_0_1_1512 x i)) x_arg0 ((broadcastInDim S523776x1 ![0] bcast_S523776_S523776x1_0) ((select) ((cmpi .slt) x_v19 ((broadcastInDim S523776 ![] bcast_S_S523776) x_c_15)) ((addi) x_v19 ((broadcastInDim S523776 ![] bcast_S_S523776) (constantI S_ 32 1024#32))) x_v19)))) ((subf) x_v41 (((fun x i => Host.gather gather_S1024x512_S523776x1_S523776x512_1_0_n_n_0_1_1512 x i)) x_arg0 ((broadcastInDim S523776x1 ![0] bcast_S523776_S523776x1_0) ((select) ((cmpi .slt) x_v19 ((broadcastInDim S523776 ![] bcast_S_S523776) x_c_15)) ((addi) x_v19 ((broadcastInDim S523776 ![] bcast_S_S523776) (constantI S_ 32 1024#32))) x_v19))))) (constant (F := F) S_ .f32 0x00000000#32)))) ((broadcastInDim S523776 ![] bcast_S_S523776) (constant (F := F) S_ .f32 0x00000000#32))) (maximumf ((subf) ((broadcastInDim S523776 ![] bcast_S_S523776) (constant (F := F) S_ .f32 0x3F800000#32)) ((Host.sqrt) (((fun x v => Host.reduceAdd x v reducesTo_S523776x512_S523776_d1 h_S_)) ((mulf) ((subf) x_v41 (((fun x i => Host.gather gather_S1024x512_S523776x1_S523776x512_1_0_n_n_0_1_1512 x i)) x_arg0 ((broadcastInDim S523776x1 ![0] bcast_S523776_S523776x1_0) ((select) ((cmpi .slt) x_v19 ((broadcastInDim S523776 ![] bcast_S_S523776) x_c_15)) ((addi) x_v19 ((broadcastInDim S523776 ![] bcast_S_S523776) (constantI S_ 32 1024#32))) x_v19)))) ((subf) x_v41 (((fun x i => Host.gather gather_S1024x512_S523776x1_S523776x512_1_0_n_n_0_1_1512 x i)) x_arg0 ((broadcastInDim S523776x1 ![0] bcast_S523776_S523776x1_0) ((select) ((cmpi .slt) x_v19 ((broadcastInDim S523776 ![] bcast_S_S523776) x_c_15)) ((addi) x_v19 ((broadcastInDim S523776 ![] bcast_S_S523776) (constantI S_ 32 1024#32))) x_v19))))) (constant (F := F) S_ .f32 0x00000000#32)))) ((broadcastInDim S523776 ![] bcast_S_S523776) (constant (F := F) S_ .f32 0x00000000#32)))))) (constant (F := F) S_ .f32 0x00000000#32)) (constant (F := F) S_ .f32 0x48FFC000#32))

end Cert.ReferenceIdeal.RefRun

end
-- ==== Proof.RefStages.lean ====
/-
  What each segment of the reference's operations leaves in its result buffers, as a pure function of the buffers the
  segment reads; and the buffers a segment does not write, unchanged through it.
-/
import proofs.«144406_g54881092108806_cont_sun_m_11_6_alg».proof.Proof.RefOps
import proofs.«144406_g54881092108806_cont_sun_m_11_6_alg».proof.Proof.RefStageDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.scatter Host.reduceWindow Host.gather Host.reduceAdd in
set_option maxRecDepth 16384 in
set_option maxHeartbeats 4000000 in
theorem afterA_v4 (V : Valuation τ sig (Elt F)) :
    after (segA (F := F)) V (no_index (Proc.devRef .tc main_v4)) = stageA_v4 (F := F) := by
  simp only [segA]
  after_results_simp
  rfl

attribute [local irreducible] Host.scatter Host.reduceWindow Host.gather Host.reduceAdd in
set_option maxRecDepth 16384 in
set_option maxHeartbeats 4000000 in
theorem afterB_v14 (V : Valuation τ sig (Elt F)) :
    after (segB (F := F)) V (no_index (Proc.devRef .tc main_v14)) = stageB_v14 (V (Proc.devRef .tc main_v4)) := by
  simp only [segB]
  after_results_simp
  rfl

attribute [local irreducible] Host.scatter Host.reduceWindow Host.gather Host.reduceAdd in
set_option maxRecDepth 16384 in
set_option maxHeartbeats 4000000 in
theorem afterC_v15 (V : Valuation τ sig (Elt F)) :
    after (segC (F := F)) V (no_index (Proc.devRef .tc main_v15)) = stageC_v15 (V (Proc.devRef .tc main_v14)) := by
  simp only [segC]
  after_results_simp
  rfl

attribute [local irreducible] Host.scatter Host.reduceWindow Host.gather Host.reduceAdd in
set_option maxRecDepth 16384 in
set_option maxHeartbeats 4000000 in
theorem afterD_v17 (V : Valuation τ sig (Elt F)) :
    after (segD (F := F)) V (no_index (Proc.devRef .tc main_v17)) = stageD_v17 (V (Proc.devRef .tc main_v15)) := by
  simp only [segD]
  after_results_simp
  rfl

attribute [local irreducible] Host.scatter Host.reduceWindow Host.gather Host.reduceAdd in
set_option maxRecDepth 16384 in
set_option maxHeartbeats 4000000 in
theorem afterE_v19 (V : Valuation τ sig (Elt F)) :
    after (segE (F := F)) V (no_index (Proc.devRef .tc main_v19)) = stageE_v19 (V (Proc.devRef .tc main_v15)) := by
  simp only [segE]
  after_results_simp
  rfl

attribute [local irreducible] Host.scatter Host.reduceWindow Host.gather Host.reduceAdd in
set_option maxRecDepth 16384 in
set_option maxHeartbeats 4000000 in
theorem afterG_v34 (V : Valuation τ sig (Elt F)) :
    after (segG (F := F)) V (no_index (Proc.devRef .tc main_v34)) = stageG_v34 (V (Proc.devRef .tc main_arg1)) (V (Proc.devRef .tc main_v17)) (V (Proc.devRef .tc main_v19)) := by
  simp only [segG]
  after_results_simp
  rfl

attribute [local irreducible] Host.scatter Host.reduceWindow Host.gather Host.reduceAdd in
set_option maxRecDepth 16384 in
set_option maxHeartbeats 4000000 in
theorem afterG_v41 (V : Valuation τ sig (Elt F)) :
    after (segG (F := F)) V (no_index (Proc.devRef .tc main_v41)) = stageG_v41 (V (Proc.devRef .tc main_arg0)) (V (Proc.devRef .tc main_v17)) := by
  simp only [segG]
  after_results_simp
  rfl

attribute [local irreducible] Host.scatter Host.reduceWindow Host.gather Host.reduceAdd in
set_option maxRecDepth 16384 in
set_option maxHeartbeats 4000000 in
theorem afterG_c_15 (V : Valuation τ sig (Elt F)) :
    after (segG (F := F)) V (no_index (Proc.devRef .tc main_c_15)) = stageG_c_15 := by
  simp only [segG]
  after_results_simp
  rfl

attribute [local irreducible] Host.scatter Host.reduceWindow Host.gather Host.reduceAdd in
set_option maxRecDepth 16384 in
set_option maxHeartbeats 4000000 in
theorem afterH_v61 (V : Valuation τ sig (Elt F)) :
    after (segH (F := F)) V (no_index (Proc.devRef .tc main_v61)) = stageH_v61 (V (Proc.devRef .tc main_v34)) (V (Proc.devRef .tc main_v41)) (V (Proc.devRef .tc main_arg0)) (V (Proc.devRef .tc main_v19)) (V (Proc.devRef .tc main_c_15)) := by
  simp only [segH]
  after_results_simp
  rfl

/-- The buffers segment A writes. -/
abbrev segA_W : List (Ref sig .tc) := [main_cst, main_v0, main_call0_v0, main_call0_c, main_call0_v1, main_call0_v2, main_call0_v3, main_call0_v4, main_call0_cst, main_call0_v5, main_v1, main_cst_0, main_v2, main_v3, main_call1_v0, main_call1_v1, main_call1_call0_c, main_call1_call0_v0, main_v4]
set_option maxRecDepth 16384 in
theorem segA_writes : (segA : List (HloOp τ sig (Elt F))).Forall fun op => op.writes ⊆ (segA_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A buffer segment A does not write keeps its contents through it. -/
theorem keepA (V : Valuation τ sig (Elt F)) (r : Ref sig .tc) (h : r ∉ segA_W) :
    after (segA (F := F)) V (Proc.devRef .tc r) = V (Proc.devRef .tc r) :=
  after_of_writes_sub segA _ segA_writes h

/-- The buffers segment B writes. -/
abbrev segB_W : List (Ref sig .tc) := [main_c, main_v5, main_c_1, main_call2_v0, main_call2_v1, main_v6, main_c_2, main_v7, main_v8, main_c_3, main_v9, main_v10, main_v11, main_v12, main_c_4, main_v13, main_v14]
set_option maxRecDepth 16384 in
theorem segB_writes : (segB : List (HloOp τ sig (Elt F))).Forall fun op => op.writes ⊆ (segB_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A buffer segment B does not write keeps its contents through it. -/
theorem keepB (V : Valuation τ sig (Elt F)) (r : Ref sig .tc) (h : r ∉ segB_W) :
    after (segB (F := F)) V (Proc.devRef .tc r) = V (Proc.devRef .tc r) :=
  after_of_writes_sub segB _ segB_writes h

/-- The buffers segment C writes. -/
abbrev segC_W : List (Ref sig .tc) := [main_call3_call0_c, main_call3_call0_v0, main_v15]
set_option maxRecDepth 16384 in
theorem segC_writes : (segC : List (HloOp τ sig (Elt F))).Forall fun op => op.writes ⊆ (segC_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A buffer segment C does not write keeps its contents through it. -/
theorem keepC (V : Valuation τ sig (Elt F)) (r : Ref sig .tc) (h : r ∉ segC_W) :
    after (segC (F := F)) V (Proc.devRef .tc r) = V (Proc.devRef .tc r) :=
  after_of_writes_sub segC _ segC_writes h

/-- The buffers segment D writes. -/
abbrev segD_W : List (Ref sig .tc) := [main_c_5, main_call4_v0, main_call4_v1, main_call4_v2, main_call4_v3, main_call4_v4, main_call4_v5, main_call4_v6, main_call4_v7, main_call4_c, main_call4_v8, main_call4_v9, main_call4_v10, main_call4_c_0, main_call4_v11, main_call4_v12, main_v16, main_c_6, main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v17]
set_option maxRecDepth 16384 in
theorem segD_writes : (segD : List (HloOp τ sig (Elt F))).Forall fun op => op.writes ⊆ (segD_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A buffer segment D does not write keeps its contents through it. -/
theorem keepD (V : Valuation τ sig (Elt F)) (r : Ref sig .tc) (h : r ∉ segD_W) :
    after (segD (F := F)) V (Proc.devRef .tc r) = V (Proc.devRef .tc r) :=
  after_of_writes_sub segD _ segD_writes h

/-- The buffers segment E writes. -/
abbrev segE_W : List (Ref sig .tc) := [main_c_7, main_call6_v0, main_call6_v1, main_call6_v2, main_call6_v3, main_call6_v4, main_call6_v5, main_call6_v6, main_call6_v7, main_call6_c, main_call6_v8, main_call6_v9, main_call6_v10, main_call6_c_0, main_call6_v11, main_call6_v12, main_v18, main_c_8, main_call7_v0, main_call7_c, main_call7_v1, main_call7_c_0, main_call7_v2, main_call7_v3, main_call7_v4, main_call7_c_1, main_call7_v5, main_call7_v6, main_call7_c_2, main_call7_v7, main_call7_v8, main_call7_c_3, main_call7_v9, main_call7_v10, main_call7_v11, main_call7_v12, main_call7_v13, main_call7_v14, main_v19]
set_option maxRecDepth 16384 in
theorem segE_writes : (segE : List (HloOp τ sig (Elt F))).Forall fun op => op.writes ⊆ (segE_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A buffer segment E does not write keeps its contents through it. -/
theorem keepE (V : Valuation τ sig (Elt F)) (r : Ref sig .tc) (h : r ∉ segE_W) :
    after (segE (F := F)) V (Proc.devRef .tc r) = V (Proc.devRef .tc r) :=
  after_of_writes_sub segE _ segE_writes h

/-- The buffers segment G writes. -/
abbrev segG_W : List (Ref sig .tc) := [main_c_9, main_v20, main_v21, main_c_10, main_v22, main_v23, main_v24, main_v25, main_v26, main_c_11, main_v27, main_v28, main_c_12, main_v29, main_v30, main_v31, main_v32, main_v33, main_v34, main_c_13, main_v35, main_v36, main_c_14, main_v37, main_v38, main_v39, main_v40, main_v41, main_c_15]
set_option maxRecDepth 16384 in
theorem segG_writes : (segG : List (HloOp τ sig (Elt F))).Forall fun op => op.writes ⊆ (segG_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A buffer segment G does not write keeps its contents through it. -/
theorem keepG (V : Valuation τ sig (Elt F)) (r : Ref sig .tc) (h : r ∉ segG_W) :
    after (segG (F := F)) V (Proc.devRef .tc r) = V (Proc.devRef .tc r) :=
  after_of_writes_sub segG _ segG_writes h

/-- The buffers segment H writes. -/
abbrev segH_W : List (Ref sig .tc) := [main_v42, main_v43, main_c_16, main_v44, main_v45, main_v46, main_v47, main_v48, main_v49, main_v50, main_cst_17, main_v51, main_cst_18, main_call8_v0, main_call8_v1, main_v52, main_v53, main_cst_19, main_v54, main_v55, main_call9_cst, main_call9_v0, main_v56, main_v57, main_cst_20, main_call10_v0, main_call10_v1, main_v58, main_v59, main_cst_21, main_v60, main_cst_22, main_v61]
set_option maxRecDepth 16384 in
theorem segH_writes : (segH : List (HloOp τ sig (Elt F))).Forall fun op => op.writes ⊆ (segH_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A buffer segment H does not write keeps its contents through it. -/
theorem keepH (V : Valuation τ sig (Elt F)) (r : Ref sig .tc) (h : r ∉ segH_W) :
    after (segH (F := F)) V (Proc.devRef .tc r) = V (Proc.devRef .tc r) :=
  after_of_writes_sub segH _ segH_writes h

end Cert.ReferenceIdeal.RefRun

end
-- ==== Proof.LibCumsum.lean ====
/-
  GENERAL LEMMAS — an integer cumulative sum written as a padded window reduction, read at an index.

  `Host.reduceWindow IntOp.addi ![n] ![1] ![lo] ![0] x init` with `lo + 1 = n` (a window as wide as the operand, stride one,
  padded `n - 1` low: how a cumulative sum of a rank-1 array is written) is, at index `j`, the sum of `x` over the
  indices `q ≤ j`, plus one copy of the initial value for the start of the fold and one for every padding position
  (`reduceWindow_cumsum_apply_general`: `(n - j) • init ix0 + ∑ q ≤ j, x q`); with the initial value zero it is the sum
  alone (`reduceWindow_cumsum_apply`). `toNat_sum_of_small` reads a sum of 32-bit words as the sum of the numbers when
  that does not wrap. The steps: a left fold of additions is the start plus the sum (`foldl_add_eq`,
  `foldl_finRange_add_eq`); the window positions of a rank-1 window are `Fin n` (`idx1Equiv`); the positions that read
  the operand are the `w` with `lo ≤ j + w`, reading `x (j + w - lo)` (`sum_window_eq`).
-/
import Mathlib
import Idealize.ShloMosaic.PureOps.Contract
import Idealize.ShloMosaic.Lib.ValueIdx

open scoped BigOperators

namespace Idealize.ShloMosaic.HostInt

open Idealize.ShloMosaic Idealize.ShloMosaic.ValueIdx

/-- A left fold of additions is the start plus the sum of the summands. -/
theorem foldl_add_eq {α M : Type*} [AddCommMonoid M] (g : α → M) (l : List α) (v : M) :
    l.foldl (fun r m => r + g m) v = v + (l.map g).sum := by
  induction l generalizing v with
  | nil => simp
  | cons a l ih => simp [ih, add_assoc]

/-- A left fold of additions over all of `Fin N` is the start plus the sum over `Fin N`. -/
theorem foldl_finRange_add_eq {M : Type*} [AddCommMonoid M] {N : ℕ} (g : Fin N → M) (v : M) :
    (List.finRange N).foldl (fun r m => r + g m) v = v + ∑ m, g m := by
  rw [foldl_add_eq, Fin.sum_univ_def]

/-- A rank-1 multi-index is its one coordinate. -/
def idx1Equiv (n : ℕ) : (⟨1, ![n]⟩ : Shape).Idx ≃ Fin n where
  toFun i := i 0
  invFun := ix1
  left_inv i := (eq_ix1 i).symm
  right_inv _ := rfl

/-- The sum over the window positions of a padded cumulative sum: the positions `w` with `lo ≤ j + w` read the operand
    at `j + w - lo`, the others the padding value. -/
theorem sum_window_eq {n lo : ℕ} (hlo : lo + 1 = n) (X : ℕ → BitVec 32) (v : BitVec 32) (j : ℕ) (hj : j < n) :
    ∑ w ∈ Finset.range n, (if lo ≤ j + w then X (j + w - lo) else v)
      = (lo - j) • v + ∑ q ∈ Finset.range (j + 1), X q := by
  rw [Finset.sum_ite, Finset.sum_const, add_comm]
  congr 1
  · congr 1
    have : (Finset.range n).filter (fun w => ¬ lo ≤ j + w) = Finset.range (lo - j) := by
      ext w; simp only [Finset.mem_filter, Finset.mem_range]; omega
    rw [this, Finset.card_range]
  · have : (Finset.range n).filter (fun w => lo ≤ j + w) = Finset.Ico (lo - j) n := by
      ext w; simp only [Finset.mem_filter, Finset.mem_range, Finset.mem_Ico]; omega
    rw [this, Finset.sum_Ico_eq_sum_range]
    have hn : n - (lo - j) = j + 1 := by omega
    rw [hn]
    refine Finset.sum_congr rfl fun k _ => ?_
    congr 1; omega

/-- The padded window sum read at index `j`: one copy of the initial value for the start of the fold and one for each of the
    `lo - j` padding positions, and the operand's elements at the indices up to `j`. -/
theorem reduceWindow_cumsum_apply_general {n lo : ℕ} (hlo : lo + 1 = n) (x : (⟨1, ![n]⟩ : Shape).Idx → BitVec 32) (init : (⟨0, ![]⟩ : Shape).Idx → BitVec 32)
    (h : (⟨1, ![n]⟩ : Shape).ReduceWindows (![n] : Fin 1 → ℕ) ![1] ![lo] ![0] ⟨1, ![n]⟩) (hu : 0 < (⟨0, ![]⟩ : Shape).numel) (j : Fin n) :
    Host.reduceWindow IntOp.addi ![n] ![1] ![lo] ![0] x init h hu (ix1 j)
      = (n - j.val) • init ix0 + ∑ q ∈ (Finset.univ : Finset (Fin n)).filter (fun q => q ≤ j), x (ix1 q) := by
  have hv0 : init (Shape.Idx.first hu) = init ix0 := congrArg init (eq_ix0 _)
  unfold Host.reduceWindow
  simp only [IntOp.addi]
  rw [foldl_finRange_add_eq, hv0]
  generalize init ix0 = v
  let X : ℕ → BitVec 32 := fun k => if hk : k < n then x (ix1 ⟨k, hk⟩) else 0
  let G : Fin n → BitVec 32 := fun w => if lo ≤ j.val + w.val then X (j.val + w.val - lo) else v
  trans v + ∑ m : Fin (Shape.numel ⟨1, ![n]⟩), G (idx1Equiv n ((⟨1, ![n]⟩ : Shape).rowMajor.symm m))
  · congr 1
    refine Finset.sum_congr rfl fun m _ => ?_
    simp only [G, idx1Equiv, Equiv.coe_fn_mk]
    show _ = if lo ≤ j.val + ((⟨1, ![n]⟩ : Shape).rowMajor.symm m 0).val then X (j.val + ((⟨1, ![n]⟩ : Shape).rowMajor.symm m 0).val - lo) else v
    have hwlt : ((⟨1, ![n]⟩ : Shape).rowMajor.symm m 0).val < n := ((⟨1, ![n]⟩ : Shape).rowMajor.symm m 0).isLt
    by_cases hc : lo ≤ j.val + ((⟨1, ![n]⟩ : Shape).rowMajor.symm m 0).val
    · rw [if_pos hc]
      have hk : j.val + ((⟨1, ![n]⟩ : Shape).rowMajor.symm m 0).val - lo < n := by have := j.isLt; omega
      split
      · simp only [X]
        rw [dif_pos hk]
        congr 1
        funext a
        match a with
        | ⟨0, _⟩ =>
          apply Fin.ext
          show j.val * 1 + ((⟨1, ![n]⟩ : Shape).rowMajor.symm m 0).val - lo = j.val + ((⟨1, ![n]⟩ : Shape).rowMajor.symm m 0).val - lo
          omega
      · next hin =>
        exfalso
        apply hin
        intro a
        match a with
        | ⟨0, _⟩ =>
          show lo ≤ j.val * 1 + ((⟨1, ![n]⟩ : Shape).rowMajor.symm m 0).val ∧ j.val * 1 + ((⟨1, ![n]⟩ : Shape).rowMajor.symm m 0).val - lo < n
          omega
    · rw [if_neg hc]
      split
      · next hin =>
        exfalso
        have := (hin 0).1
        apply hc
        change lo ≤ j.val * 1 + ((⟨1, ![n]⟩ : Shape).rowMajor.symm m 0).val at this
        omega
      · rfl
  · rw [show (∑ m : Fin (Shape.numel ⟨1, ![n]⟩), G (idx1Equiv n ((⟨1, ![n]⟩ : Shape).rowMajor.symm m))) = ∑ w : Fin n, G w from
      Fintype.sum_equiv (((⟨1, ![n]⟩ : Shape).rowMajor.symm).trans (idx1Equiv n)) _ G (fun m => rfl)]
    rw [Fin.sum_univ_eq_sum_range (fun w => if lo ≤ j.val + w then X (j.val + w - lo) else v) n]
    rw [sum_window_eq hlo X v j.val j.isLt]
    have hS : ∑ q ∈ (Finset.univ : Finset (Fin n)).filter (fun q => q ≤ j), x (ix1 q) = ∑ q ∈ Finset.range (j.val + 1), X q := by
      rw [Finset.sum_filter]
      have : ∀ q : Fin n, (if q ≤ j then x (ix1 q) else 0) = (fun k : ℕ => if k ≤ j.val then X k else 0) q.val := by
        intro q
        simp only [X, Fin.le_def]
        rw [dif_pos q.isLt]
      rw [Finset.sum_congr rfl (fun q _ => this q), Fin.sum_univ_eq_sum_range (fun k : ℕ => if k ≤ j.val then X k else 0) n,
        ← Finset.sum_filter]
      congr 1
      ext k; simp only [Finset.mem_filter, Finset.mem_range]; have := j.isLt; omega
    rw [hS]
    have hn : n - j.val = (lo - j.val) + 1 := by have := j.isLt; omega
    rw [hn, add_nsmul, one_nsmul]
    abel

/-- The cumulative sum with initial value zero, read at index `j`: the sum of the operand over the indices up to `j`. -/
theorem reduceWindow_cumsum_apply {n lo : ℕ} (hlo : lo + 1 = n) (x : (⟨1, ![n]⟩ : Shape).Idx → BitVec 32) (init : (⟨0, ![]⟩ : Shape).Idx → BitVec 32)
    (h : (⟨1, ![n]⟩ : Shape).ReduceWindows (![n] : Fin 1 → ℕ) ![1] ![lo] ![0] ⟨1, ![n]⟩) (hu : 0 < (⟨0, ![]⟩ : Shape).numel)
    (hinit : init (Shape.Idx.first hu) = 0#32) (j : Fin n) :
    Host.reduceWindow IntOp.addi ![n] ![1] ![lo] ![0] x init h hu (ix1 j)
      = ∑ q ∈ (Finset.univ : Finset (Fin n)).filter (fun q => q ≤ j), x (ix1 q) := by
  have hv0 : init ix0 = 0#32 := by rw [← hinit]; exact congrArg init (eq_ix0 _).symm
  rw [reduceWindow_cumsum_apply_general hlo x init h hu j, hv0]
  have : (0#32 : BitVec 32) = 0 := rfl
  rw [this, smul_zero, zero_add]

/-- A sum of 32-bit words whose numbers add up to less than `2 ^ 32` is, as a number, the sum of the numbers. -/
theorem toNat_sum_of_small {ι : Type*} (s : Finset ι) (f : ι → BitVec 32) (hb : ∑ i ∈ s, (f i).toNat < 2 ^ 32) :
    (∑ i ∈ s, f i).toNat = ∑ i ∈ s, (f i).toNat := by
  classical
  induction s using Finset.induction_on with
  | empty => simp
  | insert a s ha ih =>
    rw [Finset.sum_insert ha] at hb
    rw [Finset.sum_insert ha, Finset.sum_insert ha, BitVec.toNat_add, ih (by omega), Nat.mod_eq_of_lt hb]

end Idealize.ShloMosaic.HostInt
-- ==== Proof.PairEnum.lean ====
/-
  The enumeration of the pairs i < j below 1024 in row-major order.

  The running count `cnt` of positions above the diagonal is nondecreasing with steps of 0 or 1 and starts at 0,
  so the positions whose count is at most `k` form an initial segment of the flattened matrix; its length `pos k`
  is the first position whose count is `k + 1`, which therefore lies above the diagonal.  The total count is
  1024 · 1023 / 2, obtained row by row: row `r` holds `1024 − (r + 1)` positions above the diagonal.
-/
import Mathlib
import proofs.«144406_g54881092108806_cont_sun_m_11_6_alg».proof.Proof.Spec

noncomputable section

open scoped BigOperators

namespace Cert.PairLoss

/-! ## General facts -/

/-- For a monotone `c`, the arguments below `N` whose value is at most `k` form an initial segment. -/
theorem filter_le_eq_range (c : ℕ → ℕ) (hc : Monotone c) (k N : ℕ) :
    ∃ m, m ≤ N ∧ (Finset.range N).filter (fun p => c p ≤ k) = Finset.range m := by
  induction N with
  | zero => exact ⟨0, le_refl _, by simp⟩
  | succ N ih =>
    by_cases h : c N ≤ k
    · refine ⟨N + 1, le_refl _, ?_⟩
      apply Finset.filter_true_of_mem
      intro p hp
      have hpN : p ≤ N := Nat.lt_succ_iff.mp (Finset.mem_range.mp hp)
      exact le_trans (hc hpN) h
    · obtain ⟨m, hm, he⟩ := ih
      refine ⟨m, Nat.le_succ_of_le hm, ?_⟩
      rw [Finset.range_add_one, Finset.filter_insert, if_neg h, he]

/-- The length of that initial segment is the number of its elements, and membership is comparison with it. -/
theorem card_filter_le_spec (c : ℕ → ℕ) (hc : Monotone c) (k N : ℕ) :
    ((Finset.range N).filter (fun p => c p ≤ k)).card ≤ N ∧
    ∀ p, p < N → (c p ≤ k ↔ p < ((Finset.range N).filter (fun p => c p ≤ k)).card) := by
  obtain ⟨m, hm, he⟩ := filter_le_eq_range c hc k N
  have hcard : ((Finset.range N).filter (fun p => c p ≤ k)).card = m := by
    rw [he, Finset.card_range]
  rw [hcard]
  refine ⟨hm, fun p hp => ?_⟩
  have hmem : p ∈ (Finset.range N).filter (fun p => c p ≤ k) ↔ p ∈ Finset.range m := by rw [he]
  simp only [Finset.mem_filter, Finset.mem_range] at hmem
  constructor
  · intro h; exact hmem.mp ⟨hp, h⟩
  · intro h; exact (hmem.mpr h).2

/-- In a row of length `n`, the columns to the right of column `r` number `n − (r + 1)`. -/
theorem card_row (n r : ℕ) :
    ((Finset.range n).filter (fun j => r < j)).card = n - (r + 1) := by
  have h : (Finset.range n).filter (fun j => r < j) = Finset.Ico (r + 1) n := by
    ext j
    simp only [Finset.mem_filter, Finset.mem_range, Finset.mem_Ico]
    constructor <;> intro h <;> omega
  rw [h, Nat.card_Ico]

/-- The first `r` rows of an `n × n` matrix hold `Σ_{i<r} (n − (i + 1))` positions above the diagonal. -/
theorem sum_above_rows (n : ℕ) (hn : 0 < n) (r : ℕ) (hr : r ≤ n) :
    (∑ q ∈ Finset.range (r * n), if q / n < q % n then 1 else 0)
      = ∑ i ∈ Finset.range r, (n - (i + 1)) := by
  induction r with
  | zero => simp
  | succ r ih =>
    have hr' : r < n := hr
    rw [Nat.succ_mul, Finset.sum_range_add, ih (le_of_lt hr'), Finset.sum_range_succ]
    congr 1
    rw [← card_row n r, Finset.card_filter]
    apply Finset.sum_congr rfl
    intro j hj
    have hj' : j < n := Finset.mem_range.mp hj
    have h1 : (r * n + j) / n = r := by
      rw [Nat.mul_comm r n, Nat.mul_add_div hn, Nat.div_eq_of_lt hj', add_zero]
    have h2 : (r * n + j) % n = j := by
      rw [Nat.mul_comm r n, Nat.mul_add_mod, Nat.mod_eq_of_lt hj']
    rw [h1, h2]

/-- An `n × n` matrix holds `n (n − 1) / 2` positions above the diagonal. -/
theorem card_above_general (n : ℕ) (hn : 0 < n) :
    ((Finset.range (n * n)).filter (fun q => q / n < q % n)).card * 2 = n * (n - 1) := by
  rw [Finset.card_filter, sum_above_rows n hn n (le_refl n), ← Finset.sum_range_id_mul_two n,
    ← Finset.sum_range_reflect (fun i => i) n]
  congr 1
  apply Finset.sum_congr rfl
  intro i hi
  have hi' : i < n := Finset.mem_range.mp hi
  omega

/-! ## The running count -/

theorem cnt_mono {p p' : ℕ} (h : p ≤ p') : cnt p ≤ cnt p' := by
  unfold cnt
  apply Finset.card_le_card
  apply Finset.filter_subset_filter
  exact Finset.range_mono (Nat.succ_le_succ h)

theorem cnt_monotone : Monotone cnt := fun _ _ h => cnt_mono h

theorem cnt_le_succ (p : ℕ) : cnt p ≤ p + 1 := by
  unfold cnt
  calc ((Finset.range (p + 1)).filter above).card ≤ (Finset.range (p + 1)).card :=
        Finset.card_filter_le _ _
    _ = p + 1 := Finset.card_range _

/-- The count moves by one exactly at the positions above the diagonal. -/
theorem cnt_succ (p : ℕ) : cnt (p + 1) = cnt p + if above (p + 1) then 1 else 0 := by
  unfold cnt
  rw [Finset.range_add_one, Finset.filter_insert]
  split_ifs with h
  · rw [Finset.card_insert_of_notMem]
    simp
  · simp

/-- Position 0 is on the diagonal. -/
theorem cnt_zero : cnt 0 = 0 := by
  unfold cnt
  rw [Finset.card_eq_zero, Finset.filter_eq_empty_iff]
  intro q hq
  have hq' : q < 1 := Finset.mem_range.mp hq
  have : q = 0 := by omega
  subst this
  unfold above
  omega

theorem cnt_total : cnt 1048575 = 523776 := by
  have h := card_above_general 1024 (by norm_num)
  have e : cnt 1048575 = ((Finset.range (1024 * 1024)).filter (fun q => q / 1024 < q % 1024)).card := by
    unfold cnt
    rfl
  rw [e]
  omega

theorem cnt_le_total {p : ℕ} (hp : p < 1048576) : cnt p ≤ 523776 := by
  rw [← cnt_total]
  exact cnt_mono (by omega)

/-! ## The position of the (k+1)-th pair -/

/-- `pos k` cuts the positions below 1024² into those with count at most `k` and the rest. -/
theorem pos_spec (k : ℕ) :
    pos k ≤ 1048576 ∧ ∀ p, p < 1048576 → (cnt p ≤ k ↔ p < pos k) :=
  card_filter_le_spec cnt cnt_monotone k 1048576

theorem pos_lt {k : ℕ} (hk : k < 523776) : pos k < 1048576 := by
  obtain ⟨hle, hiff⟩ := pos_spec k
  by_contra hcon
  have heq : pos k = 1048576 := by omega
  have h1 : cnt 1048575 ≤ k := (hiff 1048575 (by norm_num)).mpr (by omega)
  rw [cnt_total] at h1
  omega

/-- At `pos k` the count steps from `k` to `k + 1`. -/
theorem pos_step {k : ℕ} (hk : k < 523776) : above (pos k) ∧ cnt (pos k) = k + 1 := by
  obtain ⟨_, hiff⟩ := pos_spec k
  have hlt := pos_lt hk
  have hgt : ¬ cnt (pos k) ≤ k := fun h => lt_irrefl _ ((hiff (pos k) hlt).mp h)
  rcases Nat.eq_zero_or_pos (pos k) with h0 | hpos
  · rw [h0, cnt_zero] at hgt
    omega
  · obtain ⟨m, hm⟩ : ∃ m, pos k = m + 1 := ⟨pos k - 1, by omega⟩
    have hm1 : cnt m ≤ k := (hiff m (by omega)).mpr (by omega)
    rw [hm] at hgt ⊢
    have hs := cnt_succ m
    by_cases ha : above (m + 1)
    · rw [if_pos ha] at hs
      exact ⟨ha, by omega⟩
    · rw [if_neg ha] at hs
      omega

theorem above_pos {k : ℕ} (hk : k < 523776) : above (pos k) := (pos_step hk).1

theorem cnt_pos {k : ℕ} (hk : k < 523776) : cnt (pos k) = k + 1 := (pos_step hk).2

theorem pos_inj {k k' : ℕ} (hk : k < 523776) (hk' : k' < 523776) (h : pos k = pos k') : k = k' := by
  have h1 := cnt_pos hk
  have h2 := cnt_pos hk'
  rw [h] at h1
  omega

theorem pos_surj {p : ℕ} (hp : p < 1048576) (ha : above p) : ∃ k, k < 523776 ∧ pos k = p := by
  rcases Nat.eq_zero_or_pos p with h0 | hpos
  · subst h0
    unfold above at ha
    omega
  · obtain ⟨m, hm⟩ : ∃ m, p = m + 1 := ⟨p - 1, by omega⟩
    subst hm
    have hs := cnt_succ m
    rw [if_pos ha] at hs
    have htot := cnt_le_total hp
    refine ⟨cnt m, by omega, ?_⟩
    obtain ⟨_, hiff⟩ := pos_spec (cnt m)
    have h1 : m < pos (cnt m) := (hiff m (by omega)).mp (le_refl _)
    have h2 : ¬ (m + 1 < pos (cnt m)) := fun h => by
      have := (hiff (m + 1) hp).mpr h
      omega
    omega

/-! ## The packaged enumeration -/

/-- The (k+1)-th pair i < j in row-major order. -/
def pairOf (k : Fin 523776) : Fin 1024 × Fin 1024 :=
  (⟨pos k / 1024, by have := pos_lt k.isLt; omega⟩, ⟨pos k % 1024, Nat.mod_lt _ (by norm_num)⟩)

theorem pairOf_injective : Function.Injective pairOf := by
  intro k k' h
  have h1 : pos k / 1024 = pos k' / 1024 := congrArg (fun x => (x.1 : ℕ)) h
  have h2 : pos k % 1024 = pos k' % 1024 := congrArg (fun x => (x.2 : ℕ)) h
  have h3 : pos k = pos k' := by omega
  exact Fin.ext (pos_inj k.isLt k'.isLt h3)

theorem pairOf_lt (k : Fin 523776) : (pairOf k).1 < (pairOf k).2 := by
  have h := above_pos k.isLt
  unfold above at h
  exact Fin.mk_lt_mk.mpr h

theorem pairOf_surj (i j : Fin 1024) (h : i < j) : ∃ k, pairOf k = (i, j) := by
  have hi := i.isLt
  have hj := j.isLt
  have hij : (i : ℕ) < (j : ℕ) := h
  have hp : (i : ℕ) * 1024 + j < 1048576 := by omega
  have hd : ((i : ℕ) * 1024 + j) / 1024 = i := by omega
  have hm : ((i : ℕ) * 1024 + j) % 1024 = j := by omega
  have ha : above ((i : ℕ) * 1024 + j) := by
    unfold above
    omega
  obtain ⟨k, hk, hpk⟩ := pos_surj hp ha
  refine ⟨⟨k, hk⟩, ?_⟩
  apply Prod.ext
  · apply Fin.ext
    show pos k / 1024 = i
    rw [hpk, hd]
  · apply Fin.ext
    show pos k % 1024 = j
    rw [hpk, hm]

end Cert.PairLoss

end
-- ==== Proof.RefReadMask.lean ====
/-
  Segment A read at an index: the strict upper triangle of the 1024 × 1024 matrix of ones, flattened row-major, has
  at flat position q the word 1 when q / 1024 < q % 1024 and 0 otherwise; its inclusive running sum at position p is
  the number of positions q ≤ p above the diagonal.
-/
import proofs.«144406_g54881092108806_cont_sun_m_11_6_alg».proof.Proof.RefStageDefs
import proofs.«144406_g54881092108806_cont_sun_m_11_6_alg».proof.Proof.LibCumsum
import proofs.«144406_g54881092108806_cont_sun_m_11_6_alg».proof.Proof.PairEnum
import Idealize.ShloMosaic.Lib.Pipeline.Value
import Idealize.ShloMosaic.Lib.ValueIdx
import Idealize.ShloMosaic.PureOps.Ideal.Laws

noncomputable section

namespace Cert.ReferenceIdeal.RefRead

open Cert.ReferenceIdeal Cert.ReferenceIdeal.Gen Cert.ReferenceIdeal.RefRun Idealize.ShloMosaic Idealize.ShloMosaic.ValueIdx
open Cert.PairLoss Idealize.ShloMosaic.HostInt Idealize.ShloMosaic.Pipeline

/-- The triangle's mask as 32-bit words, flattened. -/
def maskVec : IVec S1048576 32 :=
  (extui 32 · natLt_1_32) (shapeCast S1048576 ((cmpf .une) (select ((cmpi .sge) (addi (iotaInDim S1024x1024 32 0) ((broadcastInDim S1024x1024 ![] bcast_S_S1024x1024) (constantI S_ 32 0#32))) (iotaInDim S1024x1024 32 1)) ((broadcastInDim S1024x1024 ![] bcast_S_S1024x1024) (constant (F := Ideal) S_ .f32 0x00000000#32)) ((broadcastInDim S1024x1024 ![] bcast_S_S1024x1024) (constant (F := Ideal) S_ .f32 0x3F800000#32))) ((broadcastInDim S1024x1024 ![] bcast_S_S1024x1024) (constant (F := Ideal) S_ .f32 0x00000000#32))) shapeCasts_S1024x1024_S1048576)

theorem stageA_eq : stageA_v4 (F := Ideal) = Host.reduceWindow IntOp.addi ![1048576] ![1] ![1048575] ![0] maskVec ((broadcastInDim S_ ![] bcast_S_S_) (constantI S_ 32 0#32)) reduceWindows_S1048576_S1048576_w1048576s1p1048575_0 h_S_ := rfl

/-- A small natural number as a 32-bit word, read signed, is itself. -/
theorem toInt_ofNat_small (n : ℕ) (h : n < 2 ^ 31) : (BitVec.ofNat 32 n).toInt = (n : ℤ) := by
  rw [BitVec.toInt_eq_toNat_of_lt (by rw [BitVec.toNat_ofNat]; omega), BitVec.toNat_ofNat]
  congr 1; omega

theorem one_ne_zero_ideal : Ideal.ofBits .f32 0x3F800000#32 ≠ 0 := by
  simp [Ideal.ofBits, Ideal.ieee]

/-- The mask at flat position q. -/
theorem maskVec_apply (q : Fin 1048576) : maskVec (ix1 q) = if above q.val then (1 : BitVec 32) else 0 := by
  have hq := q.isLt
  have ha : q.val / 1024 < 1024 := by omega
  have hb : q.val % 1024 < 1024 := Nat.mod_lt _ (by norm_num)
  unfold maskVec
  show BitVec.setWidth 32 (shapeCast S1048576 _ shapeCasts_S1024x1024_S1048576 (ix1 q) : BitVec 1) = _
  rw [shapeCast_apply _ _ (ix1 q) (ix2 (⟨q.val / 1024, ha⟩ : Fin 1024) (⟨q.val % 1024, hb⟩ : Fin 1024))
    (by rw [Shape.rowMajor_val_two, Shape.rowMajor_val_one]; show q.val / 1024 * 1024 + q.val % 1024 = q.val; omega)]
  show (FloatOps.cmpf (F := Ideal) .une (Scalar.select (IntOp.cmpi .sge (IntOp.addi (BitVec.ofNat 32 (q.val / 1024)) 0#32) (BitVec.ofNat 32 (q.val % 1024))) (FloatOps.ofBits (F := Ideal) .f32 0x00000000#32) (FloatOps.ofBits (F := Ideal) .f32 0x3F800000#32)) (FloatOps.ofBits (F := Ideal) .f32 0x00000000#32) : BitVec 1).setWidth 32 = _
  have hsle : (BitVec.ofNat 32 (q.val % 1024)).sle (BitVec.ofNat 32 (q.val / 1024)) = decide (q.val % 1024 ≤ q.val / 1024) := by
    unfold BitVec.sle
    rw [toInt_ofNat_small _ (by omega), toInt_ofNat_small _ (by omega)]
    simp only [decide_eq_decide]
    omega
  simp only [IntOp.cmpi, IntOp.addi, BitVec.add_zero, hsle, Ideal.cmpf_def, Ideal.ofBits_def, Scalar.select]
  unfold above
  by_cases h : q.val / 1024 < q.val % 1024
  · have h' : ¬ (q.val % 1024 ≤ q.val / 1024) := by omega
    simp only [h, h', decide_false, BitVec.ofBool_false, if_true, Ideal.cmp]
    rw [if_neg (by decide)]
    simp [one_ne_zero_ideal]
  · have h' : q.val % 1024 ≤ q.val / 1024 := by omega
    simp only [h, h', decide_true, BitVec.ofBool_true, if_false, Ideal.cmp]
    simp

/-- The running count of the triangle at flat position p. -/
theorem stageA_apply (p : Fin 1048576) : stageA_v4 (F := Ideal) (ix1 p) = BitVec.ofNat 32 (cnt p.val) := by
  rw [stageA_eq, reduceWindow_cumsum_apply (n := 1048576) (lo := 1048575) rfl maskVec _ _ _ rfl p]
  simp only [maskVec_apply]
  rw [Finset.sum_ite, Finset.sum_const_zero, add_zero, Finset.sum_const, Finset.filter_filter]
  have hcard : ((Finset.univ : Finset (Fin 1048576)).filter (fun q => q ≤ p ∧ above q.val)).card = cnt p.val := by
    unfold cnt
    refine Finset.card_bij (fun q _ => q.val) ?_ ?_ ?_
    · intro q hq
      simp only [Finset.mem_filter, Finset.mem_univ, true_and] at hq
      simp only [Finset.mem_filter, Finset.mem_range]
      exact ⟨Nat.lt_succ_of_le hq.1, hq.2⟩
    · intro a _ b _ h; exact Fin.ext h
    · intro n hn
      simp only [Finset.mem_filter, Finset.mem_range] at hn
      exact ⟨⟨n, by have := p.isLt; omega⟩, by simp only [Finset.mem_filter, Finset.mem_univ, true_and]; exact ⟨Nat.lt_succ_iff.mp hn.1, hn.2⟩, rfl⟩
  rw [hcard, nsmul_eq_mul, mul_one]
  rfl

end Cert.ReferenceIdeal.RefRead

end
-- ==== Proof.LibScatterCount.lean ====
/-
  GENERAL LEMMAS — an integer scatter-add of one column of indices into a rank-1 array, read at an index.

  `Host.scatter d IntOp.addi x idx upd` with the dimension numbers of `x.at[idx].add(upd)` on a flat array (no update
  window axes, the operand's one axis inserted and named by the one index component, the index vector on axis 1 of the
  `b × 1` indices) is, at index `i`, `x i` plus the sum of the updates `upd n` whose index `idx (n, 0)`, read signed,
  is `i` (`scatter_add_apply`); indices outside `[0, a)` land nowhere. With `x` zero and every update one it counts
  them (`scatter_count_apply`). The steps: with these dimension numbers the window start on the operand's axis is the
  index read signed and the window coordinate is zero (`scatter1_start`, `scatter1_window`), so update `n` lands on
  `i` exactly when its index is `i` (`scatter1_resultIdx?_eq_some_iff`); a left fold of steps that each add a term at
  every index is, at an index, the start plus the sum of the terms there (`foldl_pointwise_add`).
-/
import Mathlib
import Idealize.ShloMosaic.PureOps.Contract
import Idealize.ShloMosaic.PureOps.ShapeOps
import Idealize.ShloMosaic.PureOps.Dims
import Idealize.ShloMosaic.Lib.ValueIdx
import proofs.«144406_g54881092108806_cont_sun_m_11_6_alg».proof.Proof.LibCumsum

open scoped BigOperators

namespace Idealize.ShloMosaic.HostInt

open Idealize.ShloMosaic Idealize.ShloMosaic.ValueIdx

/-- A left fold of steps each of which adds, at every index, a term depending on the list element and the index, read at
    an index: the start there plus the sum of the terms there. -/
theorem foldl_pointwise_add {β I M : Type*} [AddCommMonoid M] (step : (I → M) → β → (I → M)) (c : β → I → M)
    (hstep : ∀ r n i, step r n i = r i + c n i) (l : List β) (x : I → M) (i : I) :
    l.foldl step x i = x i + (l.map (fun n => c n i)).sum := by
  induction l generalizing x with
  | nil => simp
  | cons a l ih => rw [List.foldl_cons, ih, hstep, List.map_cons, List.sum_cons, add_assoc]

/-- With the dimension numbers of a flat `x.at[idx].add(u)`, the window of update `n` starts on the operand's axis at its index
    `idx (n, 0)`, read signed. -/
theorem scatter1_start {a b w : ℕ} (d : ScatterDims ⟨1, ![a]⟩ ⟨2, ![b, 1]⟩ ⟨1, ![b]⟩)
    (h1 : d.updateWindowDims = []) (h2 : d.insertedWindowDims = [0]) (h3 : d.scatterDimsToOperandDims = [0]) (h4 : d.indexVectorDim = 1)
    (idx : IVec ⟨2, ![b, 1]⟩ w) (n : Fin b) (a0 : Fin 1) :
    d.start (ix1 n) idx a0 = (idx (ix2 n 0)).toInt := by
  obtain ⟨uw, iw, sd, iv, wf⟩ := d
  simp only at h1 h2 h3 h4
  subst h1 h2 h3 h4
  match a0 with
  | ⟨0, _⟩ =>
    unfold ScatterDims.start
    split
    · congr 2
      funext b0
      match b0 with
      | ⟨0, _⟩ => rfl
      | ⟨1, _⟩ => rfl
    · next ha => exact absurd (List.mem_singleton.2 rfl) ha

/-- With those dimension numbers the window coordinate on the operand's (inserted) axis is zero. -/
theorem scatter1_window {a b : ℕ} (d : ScatterDims ⟨1, ![a]⟩ ⟨2, ![b, 1]⟩ ⟨1, ![b]⟩)
    (h1 : d.updateWindowDims = []) (h2 : d.insertedWindowDims = [0]) (h3 : d.scatterDimsToOperandDims = [0]) (h4 : d.indexVectorDim = 1)
    (n : Fin b) (a0 : Fin 1) :
    d.window (ix1 n) a0 = 0 := by
  obtain ⟨uw, iw, sd, iv, wf⟩ := d
  simp only at h1 h2 h3 h4
  subst h1 h2 h3 h4
  match a0 with
  | ⟨0, _⟩ =>
    unfold ScatterDims.window
    split
    · next ha => exact absurd ha (by simp [ScatterDims.sKept, Shape.kept])
    · rfl

/-- Update `n` lands on operand index `i` exactly when its index, read signed, is `i`. -/
theorem scatter1_resultIdx?_eq_some_iff {a b w : ℕ} (d : ScatterDims ⟨1, ![a]⟩ ⟨2, ![b, 1]⟩ ⟨1, ![b]⟩)
    (h1 : d.updateWindowDims = []) (h2 : d.insertedWindowDims = [0]) (h3 : d.scatterDimsToOperandDims = [0]) (h4 : d.indexVectorDim = 1)
    (idx : IVec ⟨2, ![b, 1]⟩ w) (n : Fin b) (i : Fin a) :
    d.resultIdx? (ix1 n) idx = some (ix1 i) ↔ (idx (ix2 n 0)).toInt = (i.val : ℤ) := by
  have hs := scatter1_start d h1 h2 h3 h4 idx n
  have hw := scatter1_window d h1 h2 h3 h4 n
  have hi := i.isLt
  unfold ScatterDims.resultIdx?
  split
  · next hin =>
    rw [Option.some.injEq]
    have h0 := hin 0
    rw [hs 0, hw 0] at h0
    constructor
    · intro he
      have := congrArg (fun k => (k 0).val) he
      change (d.start (ix1 n) idx 0 + (d.window (ix1 n) 0 : ℤ)).toNat = i.val at this
      rw [hs 0, hw 0] at this
      omega
    · intro he
      funext a0
      match a0 with
      | ⟨0, _⟩ =>
        apply Fin.ext
        show (d.start (ix1 n) idx 0 + (d.window (ix1 n) 0 : ℤ)).toNat = i.val
        rw [hs 0, hw 0]
        omega
  · next hin =>
    constructor
    · intro he; exact absurd he (by simp)
    · intro he
      exfalso
      apply hin
      intro a0
      rw [hs a0, hw a0]
      match a0 with
      | ⟨0, _⟩ =>
        show 0 ≤ (idx (ix2 n 0)).toInt + ((0 : ℕ) : ℤ) ∧ (idx (ix2 n 0)).toInt + ((0 : ℕ) : ℤ) < ((a : ℕ) : ℤ)
        omega

/-- The scatter-add read at index `i`: the operand there plus the updates whose index is `i`. -/
theorem scatter_add_apply {a b w : ℕ} (d : ScatterDims ⟨1, ![a]⟩ ⟨2, ![b, 1]⟩ ⟨1, ![b]⟩)
    (h1 : d.updateWindowDims = []) (h2 : d.insertedWindowDims = [0]) (h3 : d.scatterDimsToOperandDims = [0]) (h4 : d.indexVectorDim = 1)
    (x : (⟨1, ![a]⟩ : Shape).Idx → BitVec 32) (idx : IVec ⟨2, ![b, 1]⟩ w) (upd : (⟨1, ![b]⟩ : Shape).Idx → BitVec 32) (i : Fin a) :
    Host.scatter d IntOp.addi x idx upd (ix1 i)
      = x (ix1 i) + ∑ n ∈ (Finset.univ : Finset (Fin b)).filter (fun n => (idx (ix2 n 0)).toInt = (i.val : ℤ)), upd (ix1 n) := by
  unfold Host.scatter
  rw [foldl_pointwise_add _ (fun n i' => if d.resultIdx? ((⟨1, ![b]⟩ : Shape).rowMajor.symm n) idx = some i' then upd ((⟨1, ![b]⟩ : Shape).rowMajor.symm n) else 0)]
  · congr 1
    rw [← Fin.sum_univ_def]
    rw [Fintype.sum_equiv (((⟨1, ![b]⟩ : Shape).rowMajor.symm).trans (idx1Equiv b)) _
      (fun k : Fin b => if d.resultIdx? (ix1 k) idx = some (ix1 i) then upd (ix1 k) else 0)
      (fun m => by
        show (if d.resultIdx? ((⟨1, ![b]⟩ : Shape).rowMajor.symm m) idx = some (ix1 i) then upd ((⟨1, ![b]⟩ : Shape).rowMajor.symm m) else 0)
          = if d.resultIdx? (ix1 ((⟨1, ![b]⟩ : Shape).rowMajor.symm m 0)) idx = some (ix1 i) then upd (ix1 ((⟨1, ![b]⟩ : Shape).rowMajor.symm m 0)) else 0
        generalize (⟨1, ![b]⟩ : Shape).rowMajor.symm m = k
        obtain ⟨k0, rfl⟩ : ∃ k0, k = ix1 k0 := ⟨k 0, eq_ix1 k⟩
        rfl)]
    simp only [scatter1_resultIdx?_eq_some_iff d h1 h2 h3 h4]
    rw [Finset.sum_filter]
  · intro r n i'
    cases hres : d.resultIdx? ((⟨1, ![b]⟩ : Shape).rowMajor.symm n) idx with
    | none => simp
    | some i0 =>
      by_cases hi : i' = i0
      · subst hi; simp [IntOp.addi]
      · have : ¬ i0 = i' := fun e => hi e.symm
        simp [hi, this]

/-- Scattering ones into zeros counts: at index `i`, the number of updates whose index is `i`. -/
theorem scatter_count_apply {a b w : ℕ} (d : ScatterDims ⟨1, ![a]⟩ ⟨2, ![b, 1]⟩ ⟨1, ![b]⟩)
    (h1 : d.updateWindowDims = []) (h2 : d.insertedWindowDims = [0]) (h3 : d.scatterDimsToOperandDims = [0]) (h4 : d.indexVectorDim = 1)
    (x : (⟨1, ![a]⟩ : Shape).Idx → BitVec 32) (idx : IVec ⟨2, ![b, 1]⟩ w) (upd : (⟨1, ![b]⟩ : Shape).Idx → BitVec 32)
    (hx : ∀ k, x k = 0#32) (hupd : ∀ k, upd k = 1#32) (hb : b < 2 ^ 32) (i : Fin a) :
    (Host.scatter d IntOp.addi x idx upd (ix1 i)).toNat
      = ((Finset.univ : Finset (Fin b)).filter (fun n => (idx (ix2 n 0)).toInt = (i.val : ℤ))).card := by
  have h0 : (0#32 : BitVec 32) = 0 := rfl
  have hsum : ∑ n ∈ (Finset.univ : Finset (Fin b)).filter (fun n => (idx (ix2 n 0)).toInt = (i.val : ℤ)), (upd (ix1 n)).toNat
      = ((Finset.univ : Finset (Fin b)).filter (fun n => (idx (ix2 n 0)).toInt = (i.val : ℤ))).card := by
    rw [Finset.sum_congr rfl (fun n _ => by rw [hupd]; rfl : ∀ n ∈ _, (upd (ix1 n)).toNat = 1)]
    simp
  have hcard : ((Finset.univ : Finset (Fin b)).filter (fun n => (idx (ix2 n 0)).toInt = (i.val : ℤ))).card ≤ b := by
    calc _ ≤ (Finset.univ : Finset (Fin b)).card := Finset.card_filter_le _ _
      _ = b := by simp
  rw [scatter_add_apply d h1 h2 h3 h4, hx, h0, zero_add, toNat_sum_of_small _ _ (by rw [hsum]; omega), hsum]

end Idealize.ShloMosaic.HostInt
-- ==== Proof.RefReadCount.lean ====
/-
  Segments B and C read at an index: the histogram of the running count of the strict upper triangle, and its
  running sum.

  Segment B scatters a one into a zero array of length 523776 at the index held by each of the 1048576 flat
  positions, the index being the running count there (clipped below at zero and wrapped when negative, neither of
  which changes a count): at index v it leaves the number of positions whose count is v.  Segment C takes the
  inclusive running sum of that histogram: at index k the number of positions whose count is at most k, which is the
  flat position of the (k+1)-th pair.
-/
import proofs.«144406_g54881092108806_cont_sun_m_11_6_alg».proof.Proof.RefStageDefs
import proofs.«144406_g54881092108806_cont_sun_m_11_6_alg».proof.Proof.LibCumsum
import proofs.«144406_g54881092108806_cont_sun_m_11_6_alg».proof.Proof.LibScatterCount
import proofs.«144406_g54881092108806_cont_sun_m_11_6_alg».proof.Proof.PairEnum
import Idealize.ShloMosaic.Lib.Pipeline.Value
import Idealize.ShloMosaic.Lib.ValueIdx
import Idealize.ShloMosaic.Lib.IdealHost

noncomputable section

open scoped BigOperators

namespace Cert.ReferenceIdeal.RefRead

open Cert.ReferenceIdeal Cert.ReferenceIdeal.Gen Cert.ReferenceIdeal.RefRun Idealize.ShloMosaic Idealize.ShloMosaic.ValueIdx
open Cert.PairLoss Idealize.ShloMosaic.HostInt Idealize.ShloMosaic.Pipeline

/-- The column of scatter indices segment B builds from the running count. -/
def countIdx (x4 : IVec S1048576 32) : IVec S1048576x1 32 :=
  (broadcastInDim S1048576x1 ![0] bcast_S1048576_S1048576x1_0) ((select) ((cmpi .slt) (maxsi ((broadcastInDim S1048576 ![] bcast_S_S1048576) (id (constantI S_ 32 0#32))) x4) ((broadcastInDim S1048576 ![] bcast_S_S1048576) (constantI S_ 32 0#32))) ((addi) (maxsi ((broadcastInDim S1048576 ![] bcast_S_S1048576) (id (constantI S_ 32 0#32))) x4) ((broadcastInDim S1048576 ![] bcast_S_S1048576) (constantI S_ 32 523776#32))) (maxsi ((broadcastInDim S1048576 ![] bcast_S_S1048576) (id (constantI S_ 32 0#32))) x4))

theorem stageB_eq (x4 : IVec S1048576 32) :
    stageB_v14 x4 = Host.scatter scatter_S523776_S1048576x1_S1048576_n_0_0_1 IntOp.addi
      ((broadcastInDim S523776 ![] bcast_S_S523776) (constantI S_ 32 0#32)) (countIdx x4)
      ((broadcastInDim S1048576 ![] bcast_S_S1048576) (constantI S_ 32 1#32)) := rfl

theorem stageC_eq (x14 : IVec S523776 32) :
    stageC_v15 x14 = Host.reduceWindow IntOp.addi ![523776] ![1] ![523775] ![0] x14
      ((broadcastInDim S_ ![] bcast_S_S_) (constantI S_ 32 0#32)) reduceWindows_S523776_S523776_w523776s1p523775_0 h_S_ := rfl

/-- A word that is nonnegative read signed passes the clip at zero and the wrap of negative indices unchanged. -/
theorem index_word_of_nonneg (c : BitVec 32) (hc : 0 ≤ c.toInt) :
    Scalar.select (IntOp.cmpi .slt (IntOp.maxsi 0#32 c) 0#32) (IntOp.addi (IntOp.maxsi 0#32 c) 523776#32) (IntOp.maxsi 0#32 c) = c := by
  have hs : c.slt 0#32 = false := by
    unfold BitVec.slt
    simp only [BitVec.toInt_zero, decide_eq_false_iff_not, not_lt]
    exact hc
  have hm : IntOp.maxsi 0#32 c = c := by
    unfold IntOp.maxsi
    rw [hs]; rfl
  rw [hm]
  unfold IntOp.cmpi
  simp only [hs, BitVec.ofBool_false]
  exact select_zero _ _

/-- A count as a 32-bit word, read signed, is itself. -/
theorem toInt_ofNat_cnt (p : Fin 1048576) : (BitVec.ofNat 32 (cnt p.val)).toInt = (cnt p.val : ℤ) := by
  have h := cnt_le_total p.isLt
  rw [BitVec.toInt_eq_toNat_of_lt (by rw [BitVec.toNat_ofNat]; omega), BitVec.toNat_ofNat]
  congr 1; omega

/-- The scatter index of flat position n is its running count. -/
theorem countIdx_toInt (x4 : IVec S1048576 32) (hx : ∀ p : Fin 1048576, x4 (ix1 p) = BitVec.ofNat 32 (cnt p))
    (n : Fin 1048576) : (countIdx x4 (ix2 n 0)).toInt = (cnt n.val : ℤ) := by
  unfold countIdx
  rw [broadcastInDim_apply _ _ _ (ix2 n 0) (ix1 n) (by
    intro a
    match a with
    | ⟨0, _⟩ => exact (if_neg (show ¬ (1048576 : ℕ) = 1 by norm_num)).symm)]
  show (Scalar.select (IntOp.cmpi .slt (IntOp.maxsi 0#32 (x4 (ix1 n))) 0#32) (IntOp.addi (IntOp.maxsi 0#32 (x4 (ix1 n))) 523776#32) (IntOp.maxsi 0#32 (x4 (ix1 n)))).toInt = _
  rw [hx n, index_word_of_nonneg _ (by rw [toInt_ofNat_cnt]; exact Int.natCast_nonneg _), toInt_ofNat_cnt]

/-- Segment B at index v: the number of flat positions whose running count is v. -/
theorem stageB_v14_apply (x4 : IVec S1048576 32) (hx : ∀ p : Fin 1048576, x4 (ix1 p) = BitVec.ofNat 32 (cnt p)) (v : Fin 523776) :
    stageB_v14 x4 (ix1 v) = BitVec.ofNat 32 (((Finset.univ : Finset (Fin 1048576)).filter (fun p : Fin 1048576 => cnt p.val = v.val)).card) := by
  have hcard : ((Finset.univ : Finset (Fin 1048576)).filter (fun p : Fin 1048576 => cnt p.val = v.val)).card ≤ 1048576 := by
    exact (Finset.card_le_univ _).trans_eq (Fintype.card_fin _)
  apply BitVec.eq_of_toNat_eq
  rw [stageB_eq, scatter_count_apply (a := 523776) (b := 1048576) scatter_S523776_S1048576x1_S1048576_n_0_0_1 rfl rfl rfl rfl
    ((broadcastInDim S523776 ![] bcast_S_S523776) (constantI S_ 32 0#32)) (countIdx x4)
    ((broadcastInDim S1048576 ![] bcast_S_S1048576) (constantI S_ 32 1#32))
    (fun _ => rfl) (fun _ => rfl) (by norm_num) v, BitVec.toNat_ofNat, Nat.mod_eq_of_lt (by omega)]
  refine congrArg Finset.card (Finset.filter_congr fun n _ => ?_)
  rw [countIdx_toInt x4 hx n]
  exact Nat.cast_inj

/-- A sum of small numbers as words is the word of the sum. -/
theorem sum_ofNat {ι : Type*} (s : Finset ι) (c : ι → ℕ) :
    ∑ q ∈ s, BitVec.ofNat 32 (c q) = BitVec.ofNat 32 (∑ q ∈ s, c q) := by
  classical
  induction s using Finset.induction_on with
  | empty => rfl
  | insert a s ha ih => rw [Finset.sum_insert ha, Finset.sum_insert ha, ih, BitVec.ofNat_add]

/-- The positions whose count is at most k, counted count by count. -/
theorem sum_card_cnt_eq (k : Fin 523776) :
    ∑ q ∈ (Finset.univ : Finset (Fin 523776)).filter (fun q => q ≤ k),
        ((Finset.univ : Finset (Fin 1048576)).filter (fun p : Fin 1048576 => cnt p.val = q.val)).card = pos k := by
  have hk := k.isLt
  -- the sum over the indices up to k, as a sum over the numbers up to k
  have h1 : ∑ q ∈ (Finset.univ : Finset (Fin 523776)).filter (fun q => q ≤ k),
        ((Finset.univ : Finset (Fin 1048576)).filter (fun p : Fin 1048576 => cnt p.val = q.val)).card
      = ∑ b ∈ Finset.range (k.val + 1), ((Finset.univ : Finset (Fin 1048576)).filter (fun p : Fin 1048576 => cnt p.val = b)).card := by
    rw [Finset.sum_filter]
    simp only [Fin.le_def]
    rw [Fin.sum_univ_eq_sum_range (fun b => if b ≤ k.val then ((Finset.univ : Finset (Fin 1048576)).filter (fun p : Fin 1048576 => cnt p.val = b)).card else 0) 523776,
      ← Finset.sum_filter]
    have hr : (Finset.range 523776).filter (fun b => b ≤ k.val) = Finset.range (k.val + 1) := by
      ext b
      simp only [Finset.mem_filter, Finset.mem_range]
      omega
    rw [hr]
  -- the positions with count at most k, split by their count
  have h2 : ((Finset.univ : Finset (Fin 1048576)).filter (fun p => cnt p.val ≤ k.val)).card
      = ∑ b ∈ Finset.range (k.val + 1), ((Finset.univ : Finset (Fin 1048576)).filter (fun p : Fin 1048576 => cnt p.val = b)).card := by
    rw [Finset.card_eq_sum_card_fiberwise (f := fun p : Fin 1048576 => cnt p.val) (t := Finset.range (k.val + 1))
      (fun p hp => Finset.mem_range.2 (Nat.lt_succ_of_le (Finset.mem_filter.1 hp).2))]
    refine Finset.sum_congr rfl fun b hb => ?_
    rw [Finset.filter_filter]
    refine congrArg Finset.card (Finset.filter_congr fun p _ => ?_)
    have hb' := Finset.mem_range.1 hb
    show cnt p.val ≤ k.val ∧ cnt p.val = b ↔ cnt p.val = b
    constructor
    · intro h; exact h.2
    · intro h; exact ⟨by omega, h⟩
  -- and they are the positions below 1024² with count at most k
  have h3 : ((Finset.univ : Finset (Fin 1048576)).filter (fun p => cnt p.val ≤ k.val)).card = pos k.val := by
    unfold pos
    refine Finset.card_bij (fun q _ => q.val) ?_ ?_ ?_
    · intro q hq
      simp only [Finset.mem_filter, Finset.mem_univ, true_and] at hq
      simp only [Finset.mem_filter, Finset.mem_range]
      exact ⟨q.isLt, hq⟩
    · intro a _ b _ h; exact Fin.ext h
    · intro n hn
      simp only [Finset.mem_filter, Finset.mem_range] at hn
      exact ⟨⟨n, hn.1⟩, by simp only [Finset.mem_filter, Finset.mem_univ, true_and]; exact hn.2, rfl⟩
  rw [h1, ← h2, h3]

/-- Segment C at index k: the flat position of the (k+1)-th pair. -/
theorem stageC_v15_apply (x14 : IVec S523776 32) (hx : ∀ v : Fin 523776, x14 (ix1 v) = BitVec.ofNat 32 (((Finset.univ : Finset (Fin 1048576)).filter (fun p : Fin 1048576 => cnt p.val = v.val)).card)) (k : Fin 523776) :
    stageC_v15 x14 (ix1 k) = BitVec.ofNat 32 (pos k) := by
  rw [stageC_eq, reduceWindow_cumsum_apply (n := 523776) (lo := 523775) rfl x14 _ _ _ rfl k]
  simp only [hx]
  rw [sum_ofNat, sum_card_cnt_eq]

end Cert.ReferenceIdeal.RefRead

end
-- ==== Proof.RefReadDiv.lean ====
/-
  Reading the two elementwise integer chains of the reference at an index.

  Both chains are a floor division followed by a floor remainder on 32-bit two's-complement words: the truncated
  quotient is lowered by one when the signs of dividend and divisor differ and the remainder is not zero, and the
  truncated remainder is raised by the divisor when its sign differs from the divisor's and it is not zero.  On a
  word holding a number below 1024² and for the positive divisors 1024 and 1, the division corners do not occur,
  signed quotient and remainder are the quotient and remainder of the numbers, and neither correction fires.
-/
import Mathlib
import Idealize.ShloMosaic.Lib.ValueIdx
import proofs.«144406_g54881092108806_cont_sun_m_11_6_alg».proof.Proof.RefStageDefs

noncomputable section

open Cert.ReferenceIdeal Cert.ReferenceIdeal.Gen Idealize.ShloMosaic Idealize.ShloMosaic.ValueIdx
open Cert.ReferenceIdeal.RefRun

namespace Cert.ReferenceIdeal.RefRead

/-! ## Small nonnegative words -/

/-- A word below 2^31 has a clear sign bit. -/
private theorem msb_small (a : ℕ) (ha : a < 2 ^ 31) : (BitVec.ofNat 32 a).msb = false := by
  rw [BitVec.msb_eq_false_iff_two_mul_lt, BitVec.toNat_ofNat]
  have : a % 2 ^ 32 = a := Nat.mod_eq_of_lt (by omega)
  omega

/-- Signed division of two small nonnegative words is the quotient of the numbers. -/
private theorem sdiv_small (a b : ℕ) (ha : a < 2 ^ 31) (hb : b < 2 ^ 31) :
    (BitVec.ofNat 32 a).sdiv (BitVec.ofNat 32 b) = BitVec.ofNat 32 (a / b) := by
  rw [BitVec.sdiv_eq, msb_small a ha, msb_small b hb]
  apply BitVec.eq_of_toNat_eq
  show ((BitVec.ofNat 32 a) / (BitVec.ofNat 32 b)).toNat = _
  rw [BitVec.toNat_udiv, BitVec.toNat_ofNat, BitVec.toNat_ofNat, BitVec.toNat_ofNat]
  have h1 : a % 2 ^ 32 = a := Nat.mod_eq_of_lt (by omega)
  have h2 : b % 2 ^ 32 = b := Nat.mod_eq_of_lt (by omega)
  have h3 : a / b ≤ a := Nat.div_le_self a b
  rw [h1, h2, Nat.mod_eq_of_lt (show a / b < 2 ^ 32 by omega)]

/-- Signed remainder of two small nonnegative words is the remainder of the numbers. -/
private theorem srem_small (a b : ℕ) (ha : a < 2 ^ 31) (hb : b < 2 ^ 31) :
    (BitVec.ofNat 32 a).srem (BitVec.ofNat 32 b) = BitVec.ofNat 32 (a % b) := by
  rw [BitVec.srem_eq, msb_small a ha, msb_small b hb]
  apply BitVec.eq_of_toNat_eq
  show ((BitVec.ofNat 32 a) % (BitVec.ofNat 32 b)).toNat = _
  rw [BitVec.toNat_umod, BitVec.toNat_ofNat, BitVec.toNat_ofNat, BitVec.toNat_ofNat]
  have h1 : a % 2 ^ 32 = a := Nat.mod_eq_of_lt (by omega)
  have h2 : b % 2 ^ 32 = b := Nat.mod_eq_of_lt (by omega)
  have h3 : a % b ≤ a := Nat.mod_le a b
  rw [h1, h2, Nat.mod_eq_of_lt (show a % b < 2 ^ 32 by omega)]

/-- Neither corner of signed division occurs for the divisor 1024. -/
private theorem not_corner_1024 (x : BitVec 32) : ¬ IntOp.SDivCorner x 1024#32 := by
  intro h
  rcases h with h | ⟨_, h⟩
  · exact absurd h (by decide)
  · exact absurd h (by decide)

/-- Neither corner of signed division occurs for the divisor 1. -/
private theorem not_corner_1 (x : BitVec 32) : ¬ IntOp.SDivCorner x 1#32 := by
  intro h
  rcases h with h | ⟨_, h⟩
  · exact absurd h (by decide)
  · exact absurd h (by decide)

private theorem divsi_1024 (a : ℕ) (ha : a < 2 ^ 31) :
    IntOp.divsi .host (BitVec.ofNat 32 a) 1024#32 = BitVec.ofNat 32 (a / 1024) := by
  unfold IntOp.divsi
  rw [if_neg (not_corner_1024 _)]
  exact sdiv_small a 1024 ha (by norm_num)

private theorem remsi_1024 (a : ℕ) (ha : a < 2 ^ 31) :
    IntOp.remsi .host (BitVec.ofNat 32 a) 1024#32 = BitVec.ofNat 32 (a % 1024) := by
  unfold IntOp.remsi
  rw [if_neg (not_corner_1024 _)]
  exact srem_small a 1024 ha (by norm_num)

private theorem divsi_1 (a : ℕ) (ha : a < 2 ^ 31) :
    IntOp.divsi .host (BitVec.ofNat 32 a) 1#32 = BitVec.ofNat 32 a := by
  unfold IntOp.divsi
  rw [if_neg (not_corner_1 _)]
  have h := sdiv_small a 1 ha (by norm_num)
  rw [Nat.div_one] at h
  exact h

private theorem remsi_1 (a : ℕ) (ha : a < 2 ^ 31) :
    IntOp.remsi .host (BitVec.ofNat 32 a) 1#32 = 0#32 := by
  unfold IntOp.remsi
  rw [if_neg (not_corner_1 _)]
  have h := srem_small a 1 ha (by norm_num)
  rw [Nat.mod_one] at h
  exact h

/-! ## The scalar chains -/

/-- The sign of a word as a word: 0, −1 or 1. -/
private def sgn (x : BitVec 32) : BitVec 32 := if x = 0 then 0 else if x.msb then -1 else 1

/-- Floor division by `d`: the truncated quotient, lowered by one when the signs differ and the remainder is not
    zero. -/
private def floorDiv (x d : BitVec 32) : BitVec 32 :=
  Scalar.select
    (IntOp.andi (IntOp.cmpi .ne (sgn x) (sgn d)) (IntOp.cmpi .ne (IntOp.remsi .host x d) 0#32))
    (IntOp.subi (IntOp.divsi .host x d) 1#32) (IntOp.divsi .host x d)

/-- The divisor of the remainder: 1024, replaced by 1 if it were zero. -/
private def dsel : BitVec 32 := Scalar.select (IntOp.cmpi .eq 1024#32 0#32) 1#32 1024#32

/-- Floor remainder by `dsel`: the truncated remainder, raised by the divisor when its sign differs from the
    divisor's and it is not zero. -/
private def floorRem (y : BitVec 32) : BitVec 32 :=
  Scalar.select
    (IntOp.andi
      (IntOp.cmpi .ne (IntOp.cmpi .slt (IntOp.remsi .host y dsel) 0#32) (IntOp.cmpi .slt dsel 0#32))
      (IntOp.cmpi .ne (IntOp.remsi .host y dsel) 0#32))
    (IntOp.addi (IntOp.remsi .host y dsel) dsel) (IntOp.remsi .host y dsel)

private theorem select_zero {α : Type} (a b : α) : Scalar.select 0#1 a b = b := by
  unfold Scalar.select
  rw [if_neg (by decide)]

private theorem dsel_eq : dsel = 1024#32 := by decide

private theorem ofNat_ne_zero (n : ℕ) (h0 : 0 < n) (hn : n < 2 ^ 31) : BitVec.ofNat 32 n ≠ 0 := by
  intro h
  have h' := congrArg BitVec.toNat h
  rw [BitVec.toNat_ofNat, Nat.mod_eq_of_lt (show n < 2 ^ 32 by omega)] at h'
  have hz : (0 : BitVec 32).toNat = 0 := rfl
  omega

/-- A positive small word has sign 1. -/
private theorem sgn_pos (n : ℕ) (h0 : 0 < n) (hn : n < 2 ^ 31) : sgn (BitVec.ofNat 32 n) = 1#32 := by
  unfold sgn
  rw [if_neg (ofNat_ne_zero n h0 hn), msb_small n hn]
  rfl

/-- A small nonnegative word is not below zero. -/
private theorem cmpi_slt_zero_small (r : ℕ) (hr : r < 2 ^ 31) :
    IntOp.cmpi .slt (BitVec.ofNat 32 r) 0#32 = 0#1 := by
  show BitVec.ofBool ((BitVec.ofNat 32 r).slt 0#32) = 0#1
  rw [BitVec.slt_zero_eq_msb, msb_small r hr]
  rfl

private theorem andi_zero_left (c : BitVec 1) : IntOp.andi 0#1 c = 0#1 := by
  unfold IntOp.andi
  exact BitVec.zero_and

private theorem andi_zero_right (c : BitVec 1) : IntOp.andi c 0#1 = 0#1 := by
  unfold IntOp.andi
  exact BitVec.and_zero

/-- Floor division of a small nonnegative word by 1024 is the quotient of the number. -/
private theorem floorDiv_1024 (n : ℕ) (hn : n < 2 ^ 31) :
    floorDiv (BitVec.ofNat 32 n) 1024#32 = BitVec.ofNat 32 (n / 1024) := by
  unfold floorDiv
  rw [divsi_1024 n hn, remsi_1024 n hn]
  have hc : IntOp.andi (IntOp.cmpi .ne (sgn (BitVec.ofNat 32 n)) (sgn 1024#32))
      (IntOp.cmpi .ne (BitVec.ofNat 32 (n % 1024)) 0#32) = 0#1 := by
    rcases Nat.eq_zero_or_pos n with h0 | hpos
    · subst h0
      decide
    · rw [sgn_pos n hpos hn]
      have h1 : IntOp.cmpi .ne 1#32 (sgn 1024#32) = 0#1 := by decide
      rw [h1]
      exact andi_zero_left _
  rw [hc, select_zero]

/-- Floor division of a small nonnegative word by 1 is the word. -/
private theorem floorDiv_1 (n : ℕ) (hn : n < 2 ^ 31) :
    floorDiv (BitVec.ofNat 32 n) 1#32 = BitVec.ofNat 32 n := by
  unfold floorDiv
  rw [divsi_1 n hn, remsi_1 n hn]
  have h1 : IntOp.cmpi .ne 0#32 0#32 = 0#1 := by decide
  rw [h1, andi_zero_right, select_zero]

/-- Floor remainder of a small nonnegative word by 1024 is the remainder of the number. -/
private theorem floorRem_small (m : ℕ) (hm : m < 2 ^ 31) :
    floorRem (BitVec.ofNat 32 m) = BitVec.ofNat 32 (m % 1024) := by
  unfold floorRem
  rw [dsel_eq, remsi_1024 m hm]
  have hr : m % 1024 < 2 ^ 31 := by omega
  have h1 : IntOp.cmpi .slt 1024#32 0#32 = 0#1 := by decide
  have h2 : IntOp.cmpi .ne 0#1 0#1 = 0#1 := by decide
  rw [cmpi_slt_zero_small (m % 1024) hr, h1, h2, andi_zero_left, select_zero]

/-! ## The two stages at an index -/

/-- Row of the pair: floor division by 1024, then floor remainder by 1024. -/
private theorem stageD_v17_eq (f : IVec S523776 32) (k : S523776.Idx) :
    stageD_v17 f k = floorRem (floorDiv (f k) 1024#32) := rfl

/-- Column of the pair: floor division by 1, then floor remainder by 1024. -/
private theorem stageE_v19_eq (f : IVec S523776 32) (k : S523776.Idx) :
    stageE_v19 f k = floorRem (floorDiv (f k) 1#32) := rfl

theorem stageD_v17_apply (f : IVec S523776 32) (k : S523776.Idx) (n : ℕ) (hn : n < 1048576)
    (hf : f k = BitVec.ofNat 32 n) : stageD_v17 f k = BitVec.ofNat 32 (n / 1024) := by
  rw [stageD_v17_eq, hf, floorDiv_1024 n (by omega), floorRem_small (n / 1024) (by omega),
    Nat.mod_eq_of_lt (show n / 1024 < 1024 by omega)]

theorem stageE_v19_apply (f : IVec S523776 32) (k : S523776.Idx) (n : ℕ) (hn : n < 1048576)
    (hf : f k = BitVec.ofNat 32 n) : stageE_v19 f k = BitVec.ofNat 32 (n % 1024) := by
  rw [stageE_v19_eq, hf, floorDiv_1 n (by omega), floorRem_small n (by omega)]

end Cert.ReferenceIdeal.RefRead

end
-- ==== Proof.RefReadGather.lean ====
/-
  The row gathers of the reference, read at an index.

  The reference takes row r of an array by the index r written as a 32-bit word: it adds 1024 to the word if it is
  negative (the wrap of a negative index), lays the index vector out as a column, and gathers along the first axis, the
  start index read as a signed integer and clamped into [0, 1023]. For a word that is a number below 1024 none of this
  changes anything: it is not negative, so the wrap keeps it; its signed value is the number; the clamp keeps it.
  So gathering the labels at such words reads the label at that number, and gathering the rows of x reads that row.
-/
import proofs.«144406_g54881092108806_cont_sun_m_11_6_alg».proof.Proof.RefStageDefs
import Idealize.ShloMosaic.Lib.ValueIdx
import Idealize.ShloMosaic.Lib.Pipeline.Value

noncomputable section

namespace Cert.ReferenceIdeal.RefRead

open Cert.ReferenceIdeal Cert.ReferenceIdeal.Gen Idealize.ShloMosaic Idealize.ShloMosaic.ValueIdx
open Cert.ReferenceIdeal.RefRun

/-! ## A number below 1024 as a 32-bit word -/

/-- Its unsigned value is the number. -/
theorem word_toNat (v : Fin 1024) : (BitVec.ofNat 32 v.val).toNat = v.val := by
  rw [BitVec.toNat_ofNat]
  exact Nat.mod_eq_of_lt (by have := v.isLt; omega)

/-- Its signed value is the number. -/
theorem word_toInt (v : Fin 1024) : (BitVec.ofNat 32 v.val).toInt = (v.val : Int) := by
  rw [BitVec.toInt_eq_toNat_cond, word_toNat]
  have := v.isLt
  split
  · rfl
  · omega

/-- It is not negative. -/
theorem word_slt_zero (v : Fin 1024) : (BitVec.ofNat 32 v.val).slt 0#32 = false := by
  rw [BitVec.slt_eq_decide, word_toInt]
  simp

/-- Clamping its signed value into [0, 1023] gives the number back. -/
theorem clamp_word (v : Fin 1024) : min (BitVec.ofNat 32 v.val).toInt.toNat 1023 = v.val := by
  rw [word_toInt, Int.toNat_natCast]
  exact Nat.min_eq_left (by have := v.isLt; omega)

/-! ## The index column -/

/-- A vector laid out as a column reads, at (k, ·), the vector at k. -/
theorem col_apply {α : Type} (v : S523776.Idx → α) (k : Fin 523776) (u : Fin 1) :
    broadcastInDim S523776x1 ![0] bcast_S523776_S523776x1_0 v (ix2 k u) = v (ix1 k) := by
  unfold broadcastInDim
  congr 1
  funext a
  match a with
  | ⟨0, _⟩ => rfl

/-- The wrapped index column of a vector of numbers below 1024, the wrap's zero read from `z`, holds the same words. -/
theorem wrapCol_apply (xs : IVec S523776 32) (z : IVec S_ 32) (hz : z = constantI S_ 32 0#32) (r : Fin 523776 → Fin 1024)
    (h : ∀ k : Fin 523776, xs (ix1 k) = BitVec.ofNat 32 (r k).val) (k : Fin 523776) :
    broadcastInDim S523776x1 ![0] bcast_S523776_S523776x1_0
        (select (cmpi .slt xs (broadcastInDim S523776 ![] bcast_S_S523776 z))
          (addi xs (broadcastInDim S523776 ![] bcast_S_S523776 (constantI S_ 32 1024#32))) xs) (ix2 k (0 : Fin 1))
      = BitVec.ofNat 32 (r k).val := by
  subst hz
  rw [col_apply]
  show Scalar.select (IntOp.cmpi .slt (xs (ix1 k)) 0#32) (IntOp.addi (xs (ix1 k)) 1024#32) (xs (ix1 k)) = _
  rw [h k]
  have hc : IntOp.cmpi .slt (BitVec.ofNat 32 (r k).val) 0#32 = BitVec.ofBool ((BitVec.ofNat 32 (r k).val).slt 0#32) := rfl
  rw [hc, word_slt_zero]
  exact if_neg (by decide)

/-! ## The two gathers at an index -/

/-- Gathering a vector of 1024 entries along its one axis: result k is the operand at the start index of row k, read
    signed and clamped into [0, 1023]. -/
theorem gather1_apply {α : Type} (x : S1024.Idx → α) (idx : IVec S523776x1 32) (k : Fin 523776) :
    Host.gather gather_S1024_S523776x1_S523776_n_0_n_n_0_1_1 x idx (ix1 k)
      = x (ix1 ⟨min (idx (ix2 k (0 : Fin 1))).toInt.toNat 1023, by omega⟩) := by
  unfold Host.gather
  congr 1
  funext a
  obtain rfl : a = 0 := Subsingleton.elim _ _
  refine Fin.ext ?_
  show gather_S1024_S523776x1_S523776_n_0_n_n_0_1_1.start (ix1 k) idx 0
      + gather_S1024_S523776x1_S523776_n_0_n_n_0_1_1.batchCoord (ix1 k) 0
      + gather_S1024_S523776x1_S523776_n_0_n_n_0_1_1.offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S1024_S523776x1_S523776_n_0_n_n_0_1_1.startIndexMap from List.mem_singleton.mpr rfl)]
  have hsi : gather_S1024_S523776x1_S523776_n_0_n_n_0_1_1.siIdx (ix1 k)
      ⟨List.idxOf (0 : Fin 1) gather_S1024_S523776x1_S523776_n_0_n_n_0_1_1.startIndexMap,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

/-- Gathering the rows of a 1024 × 512 array: result (k, d) is the operand at (the start index of row k, read signed
    and clamped into [0, 1023]; d). -/
theorem gather2_apply {α : Type} (x : S1024x512.Idx → α) (idx : IVec S523776x1 32) (k : Fin 523776) (d : Fin 512) :
    Host.gather gather_S1024x512_S523776x1_S523776x512_1_0_n_n_0_1_1512 x idx (ix2 k d)
      = x (ix2 ⟨min (idx (ix2 k (0 : Fin 1))).toInt.toNat 1023, by omega⟩ d) := by
  unfold Host.gather
  congr 1
  funext a
  refine Fin.ext ?_
  match a with
  | ⟨0, _⟩ =>
    show gather_S1024x512_S523776x1_S523776x512_1_0_n_n_0_1_1512.start (ix2 k d) idx 0
        + gather_S1024x512_S523776x1_S523776x512_1_0_n_n_0_1_1512.batchCoord (ix2 k d) 0
        + gather_S1024x512_S523776x1_S523776x512_1_0_n_n_0_1_1512.offCoord (ix2 k d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1024x512_S523776x1_S523776x512_1_0_n_n_0_1_1512.startIndexMap from List.mem_singleton.mpr rfl)]
    have hsi : gather_S1024x512_S523776x1_S523776x512_1_0_n_n_0_1_1512.siIdx (ix2 k d)
        ⟨List.idxOf (0 : Fin 2) gather_S1024x512_S523776x1_S523776x512_1_0_n_n_0_1_1512.startIndexMap,
          List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show gather_S1024x512_S523776x1_S523776x512_1_0_n_n_0_1_1512.start (ix2 k d) idx 1
        + gather_S1024x512_S523776x1_S523776x512_1_0_n_n_0_1_1512.batchCoord (ix2 k d) 1
        + gather_S1024x512_S523776x1_S523776x512_1_0_n_n_0_1_1512.offCoord (ix2 k d) 1 = d.val
    have hs : gather_S1024x512_S523776x1_S523776x512_1_0_n_n_0_1_1512.start (ix2 k d) idx 1 = 0 := by
      unfold GatherDims.start
      exact dif_neg (show ¬ (1 : Fin 2) ∈ ([0] : List (Fin 2)) by decide)
    have ho : gather_S1024x512_S523776x1_S523776x512_1_0_n_n_0_1_1512.offCoord (ix2 k d) 1 = d.val := by
      unfold GatherDims.offCoord
      rw [dif_pos ((GatherDims.mem_sKept _ _).mpr ⟨(show ¬ (1 : Fin 2) ∈ ([0] : List (Fin 2)) by decide), List.not_mem_nil⟩)]
      rfl
    rw [hs, GatherDims.batchCoord_eq_zero _ _ _ List.not_mem_nil, ho]
    omega

/-- At a start index that is a number v below 1024, the vector gather reads entry v. -/
theorem gather1_word {α : Type} (x : S1024.Idx → α) (idx : IVec S523776x1 32) (k : Fin 523776) (v : Fin 1024)
    (hv : idx (ix2 k (0 : Fin 1)) = BitVec.ofNat 32 v.val) :
    Host.gather gather_S1024_S523776x1_S523776_n_0_n_n_0_1_1 x idx (ix1 k) = x (ix1 v) := by
  rw [gather1_apply]
  have e : (⟨min (idx (ix2 k (0 : Fin 1))).toInt.toNat 1023, by omega⟩ : Fin 1024) = v :=
    Fin.ext (show min (idx (ix2 k (0 : Fin 1))).toInt.toNat 1023 = v.val by rw [hv]; exact clamp_word v)
  rw [e]

/-- At a start index that is a number v below 1024, the row gather reads row v. -/
theorem gather2_word {α : Type} (x : S1024x512.Idx → α) (idx : IVec S523776x1 32) (k : Fin 523776) (d : Fin 512) (v : Fin 1024)
    (hv : idx (ix2 k (0 : Fin 1)) = BitVec.ofNat 32 v.val) :
    Host.gather gather_S1024x512_S523776x1_S523776x512_1_0_n_n_0_1_1512 x idx (ix2 k d) = x (ix2 v d) := by
  rw [gather2_apply]
  have e : (⟨min (idx (ix2 k (0 : Fin 1))).toInt.toNat 1023, by omega⟩ : Fin 1024) = v :=
    Fin.ext (show min (idx (ix2 k (0 : Fin 1))).toInt.toNat 1023 = v.val by rw [hv]; exact clamp_word v)
  rw [e]

/-! ## Segment G, and the form segment H uses -/

/-- The label comparison of pair k compares the labels at the pair's row and column numbers. -/
theorem stageG_v34_apply (lab : IVec S1024 32) (x17 x19 : IVec S523776 32) (r c : Fin 523776 → Fin 1024)
    (h17 : ∀ k : Fin 523776, x17 (ix1 k) = BitVec.ofNat 32 (r k).val) (h19 : ∀ k : Fin 523776, x19 (ix1 k) = BitVec.ofNat 32 (c k).val)
    (k : Fin 523776) :
    stageG_v34 lab x17 x19 (ix1 k) = IntOp.cmpi .eq (lab (ix1 (r k))) (lab (ix1 (c k))) := by
  unfold stageG_v34
  show IntOp.cmpi .eq (Host.gather gather_S1024_S523776x1_S523776_n_0_n_n_0_1_1 lab _ (ix1 k)) (Host.gather gather_S1024_S523776x1_S523776_n_0_n_n_0_1_1 lab _ (ix1 k)) = _
  rw [gather1_word lab _ k (r k) (wrapCol_apply x17 _ rfl r h17 k), gather1_word lab _ k (c k) (wrapCol_apply x19 _ rfl c h19 k)]

/-- The first gathered row of pair k is row r k of x. -/
theorem stageG_v41_apply {F : FTy → Type} [FloatOps F] (x : FVec F S1024x512 .f32) (x17 : IVec S523776 32) (r : Fin 523776 → Fin 1024)
    (h17 : ∀ k : Fin 523776, x17 (ix1 k) = BitVec.ofNat 32 (r k).val) (k : Fin 523776) (d : Fin 512) :
    stageG_v41 x x17 (ix2 k d) = x (ix2 (r k) d) := by
  unfold stageG_v41
  exact gather2_word x _ k d (r k) (wrapCol_apply x17 _ rfl r h17 k)

/-- The row gather with the wrap's zero read from a buffer holding zero: row c k of x. -/
theorem gather_rows_apply {F : FTy → Type} [FloatOps F] (x : FVec F S1024x512 .f32) (x19 : IVec S523776 32) (z : IVec S_ 32)
    (hz : z = constantI S_ 32 0#32) (c : Fin 523776 → Fin 1024)
    (h19 : ∀ k : Fin 523776, x19 (ix1 k) = BitVec.ofNat 32 (c k).val) (k : Fin 523776) (d : Fin 512) :
    Host.gather gather_S1024x512_S523776x1_S523776x512_1_0_n_n_0_1_1512 x
        (broadcastInDim S523776x1 ![0] bcast_S523776_S523776x1_0
          (select (cmpi .slt x19 (broadcastInDim S523776 ![] bcast_S_S523776 z))
            (addi x19 (broadcastInDim S523776 ![] bcast_S_S523776 (constantI S_ 32 1024#32))) x19)) (ix2 k d)
      = x (ix2 (c k) d) :=
  gather2_word x _ k d (c k) (wrapCol_apply x19 z hz c h19 k)

end Cert.ReferenceIdeal.RefRead

end
-- ==== Proof.RefReadLoss.lean ====
/-
  Segment H read at exact (extended-real) arithmetic: the loss of each enumerated pair and its mean.

  For the k-th enumerated pair (r k, c k), the first gathered row is row r k of x and the second is row c k. The sum
  over the 512 coordinates of the squared differences, started from zero, is the squared distance Σ_d (x_rd − x_cd)².
  Where the labels agree the loss is that squared distance plus zero; where they differ it is zero plus the squared
  hinge (max (1 − √·) 0)². The sum of the losses over the 523776 pairs, started from zero, is divided by the word
  0x48FFC000, which is the real number 523776 = (2²³ + 0x7FC000) · 2⁻⁵.
-/
import proofs.«144406_g54881092108806_cont_sun_m_11_6_alg».proof.Proof.RefStageDefs
import proofs.«144406_g54881092108806_cont_sun_m_11_6_alg».proof.Proof.Spec
import Idealize.ShloMosaic.PureOps.Ideal.Laws
import Idealize.ShloMosaic.Lib.ValueIdx
import Idealize.ShloMosaic.Lib.IdealHost
import Idealize.ShloMosaic.Lib.Affine

noncomputable section

open scoped BigOperators

namespace Cert.ReferenceIdeal.RefRead

open Cert.ReferenceIdeal Cert.ReferenceIdeal.Gen Cert.ReferenceIdeal.RefRun Idealize.ShloMosaic Idealize.ShloMosaic.ValueIdx
open Cert.PairLoss

namespace Loss

/-- The word 0x48FFC000 is the real number 523776. -/
theorem ofBits_523776 : Ideal.ofBits .f32 0x48FFC000#32 = ((523776 : ℝ) : EReal) := by
  simp [Ideal.ofBits, Ideal.ieee, -EReal.coe_mul]; norm_num

/-- The word 0x3F800000 is the real number 1. -/
theorem ofBits_one_real : Ideal.ofBits .f32 0x3F800000#32 = ((1 : ℝ) : EReal) := by
  rw [Ideal.ofBits_one_f32]; norm_cast

/-- The gathered second rows. -/
def gath (x : FVec Ideal S1024x512 .f32) (x19 : IVec S523776 32) (z : IVec S_ 32) : FVec Ideal S523776x512 .f32 :=
  Host.gather gather_S1024x512_S523776x1_S523776x512_1_0_n_n_0_1_1512 x (broadcastInDim S523776x1 ![0] bcast_S523776_S523776x1_0 (select (cmpi .slt x19 (broadcastInDim S523776 ![] bcast_S_S523776 z)) (addi x19 (broadcastInDim S523776 ![] bcast_S_S523776 (constantI S_ 32 1024#32))) x19))

/-- The squared distances of the pairs: the row sums of the squared differences, from zero. -/
def sqv (x41 G : FVec Ideal S523776x512 .f32) : FVec Ideal S523776 .f32 :=
  Host.reduceAdd (mulf (subf x41 G) (subf x41 G)) (constant (F := Ideal) S_ .f32 0x00000000#32) reducesTo_S523776x512_S523776_d1 h_S_

/-- max (1 − √·) 0 of each squared distance. -/
def hingev (SQ : FVec Ideal S523776 .f32) : FVec Ideal S523776 .f32 :=
  maximumf (subf (broadcastInDim S523776 ![] bcast_S_S523776 (constant (F := Ideal) S_ .f32 0x3F800000#32)) (Host.sqrt SQ)) (broadcastInDim S523776 ![] bcast_S_S523776 (constant (F := Ideal) S_ .f32 0x00000000#32))

/-- The losses of the pairs: the positive part plus the negative part. -/
def lossv (x34 : IVec S523776 1) (SQ : FVec Ideal S523776 .f32) : FVec Ideal S523776 .f32 :=
  addf (select x34 SQ (broadcastInDim S523776 ![] bcast_S_S523776 (id (constant (F := Ideal) S_ .f32 0x00000000#32))))
    (select x34 (broadcastInDim S523776 ![] bcast_S_S523776 (id (constant (F := Ideal) S_ .f32 0x00000000#32))) (mulf (hingev SQ) (hingev SQ)))

/-- The segment's result in these terms. -/
theorem stageH_unfold (x34 : IVec S523776 1) (x41 : FVec Ideal S523776x512 .f32) (x : FVec Ideal S1024x512 .f32)
    (x19 : IVec S523776 32) (z : IVec S_ 32) :
    stageH_v61 (F := Ideal) x34 x41 x x19 z
      = Host.divf (Host.reduceAdd (lossv x34 (sqv x41 (gath x x19 z))) (constant (F := Ideal) S_ .f32 0x00000000#32) reducesTo_S523776_S_d0 h_S_)
          (constant (F := Ideal) S_ .f32 0x48FFC000#32) := rfl

/-- The squared distance of pair k is the sum over the 512 coordinates of the squared differences. -/
theorem sqv_apply (x41 G : FVec Ideal S523776x512 .f32) (k : Fin 523776) :
    sqv x41 G (ix1 k) = ∑ d : Fin 512, (x41 (ix2 k d) - G (ix2 k d)) * (x41 (ix2 k d) - G (ix2 k d)) := by
  have hR : S523776x512.Reduces [1] S523776 := by decide
  unfold sqv
  rw [hostReduceAdd_apply, Ideal.hostReduceAdd_single reducesTo_S523776x512_S523776_d1 hR]
  show Ideal.ofBits .f32 0x00000000#32 + _ = _
  rw [Ideal.ofBits_zero_f32, zero_add]
  refine Finset.sum_congr rfl (fun d _ => ?_)
  have hl : hR.lift (ix1 k) d = ix2 k d := by
    funext a
    match a with
    | ⟨0, _⟩ => rfl
    | ⟨1, _⟩ => rfl
  rw [hl]
  rfl

/-- The loss of pair k. -/
theorem lossv_apply (x34 : IVec S523776 1) (SQ : FVec Ideal S523776 .f32) (k : Fin 523776) :
    lossv x34 SQ (ix1 k)
      = (if x34 (ix1 k) = 1#1 then SQ (ix1 k) else 0) + (if x34 (ix1 k) = 1#1 then 0 else hinge (SQ (ix1 k))) := by
  show Scalar.select (x34 (ix1 k)) (SQ (ix1 k)) (Ideal.ofBits .f32 0x00000000#32)
      + Scalar.select (x34 (ix1 k)) (Ideal.ofBits .f32 0x00000000#32)
          (max (Ideal.ofBits .f32 0x3F800000#32 - Ideal.sqrt (SQ (ix1 k))) (Ideal.ofBits .f32 0x00000000#32)
            * max (Ideal.ofBits .f32 0x3F800000#32 - Ideal.sqrt (SQ (ix1 k))) (Ideal.ofBits .f32 0x00000000#32)) = _
  rw [Ideal.ofBits_zero_f32, ofBits_one_real]
  rfl

/-- The indices of a vector are its positions. -/
def idx1Equiv (n : Nat) : Fin n ≃ (⟨1, ![n]⟩ : Shape).Idx where
  toFun k := ix1 k
  invFun i := i 0
  left_inv _ := rfl
  right_inv i := (eq_ix1 i).symm

/-- The sum of a vector over all its positions, from zero. -/
theorem total_apply (V : FVec Ideal S523776 .f32) (j : S_.Idx) :
    Host.reduceAdd V (constant (F := Ideal) S_ .f32 0x00000000#32) reducesTo_S523776_S_d0 h_S_ j
      = ∑ k : Fin 523776, V (ix1 k) := by
  rw [hostReduceAdd_apply, Ideal.hostReduceAdd_total reducesTo_S523776_S_d0 (fun b => b.elim0)]
  show Ideal.ofBits .f32 0x00000000#32 + _ = _
  rw [Ideal.ofBits_zero_f32, zero_add]
  exact (Equiv.sum_comp (idx1Equiv 523776) V).symm

end Loss

/-- Segment H's result: the mean, over the enumerated pairs, of the pair loss. -/
theorem stageH_v61_eq (x34 : IVec S523776 1) (x41 : FVec Ideal S523776x512 .f32) (x : FVec Ideal S1024x512 .f32)
    (x19 : IVec S523776 32) (z : IVec S_ 32)
    (lab : Fin 1024 → BitVec 32) (r c : Fin 523776 → Fin 1024)
    (h34 : ∀ k : Fin 523776, x34 (ix1 k) = IntOp.cmpi .eq (lab (r k)) (lab (c k)))
    (h41 : ∀ (k : Fin 523776) (d : Fin 512), x41 (ix2 k d) = x (ix2 (r k) d))
    (hg : ∀ (k : Fin 523776) (d : Fin 512), Host.gather gather_S1024x512_S523776x1_S523776x512_1_0_n_n_0_1_1512 x (broadcastInDim S523776x1 ![0] bcast_S523776_S523776x1_0 (select (cmpi .slt x19 (broadcastInDim S523776 ![] bcast_S_S523776 z)) (addi x19 (broadcastInDim S523776 ![] bcast_S_S523776 (constantI S_ 32 1024#32))) x19)) (ix2 k d) = x (ix2 (c k) d)) :
    stageH_v61 (F := Ideal) x34 x41 x x19 z
      = fun _ => Cert.PairLoss.refVal (fun i d => x (ix2 i d)) lab (fun k => (r k, c k)) := by
  funext j
  rw [Loss.stageH_unfold, hostDivf_apply, Loss.total_apply]
  show Ideal.div _ (Ideal.ofBits .f32 0x48FFC000#32) = _
  rw [Loss.ofBits_523776]
  unfold refVal
  refine congrArg (fun t => Ideal.div t ((523776 : ℝ) : EReal)) ?_
  refine Finset.sum_congr rfl (fun k _ => ?_)
  rw [Loss.lossv_apply, Loss.sqv_apply]
  have hc : (x34 (ix1 k) = 1#1) ↔ lab (r k) = lab (c k) := by
    rw [h34]
    exact IntOp.cmpi_eq
  have hs : (∑ d : Fin 512, (x41 (ix2 k d) - Loss.gath x x19 z (ix2 k d)) * (x41 (ix2 k d) - Loss.gath x x19 z (ix2 k d)))
      = distR (fun i d => x (ix2 i d)) (r k) (c k) := by
    unfold distR
    refine Finset.sum_congr rfl (fun d _ => ?_)
    rw [h41, show Loss.gath x x19 z (ix2 k d) = x (ix2 (c k) d) from hg k d]
  rw [hs]
  show _ = lossR (fun i d => x (ix2 i d)) lab (r k) (c k)
  unfold lossR
  by_cases hl : lab (r k) = lab (c k)
  · rw [if_pos (hc.mpr hl), if_pos (hc.mpr hl), if_pos hl, if_pos hl]
  · rw [if_neg (fun h => hl (hc.mp h)), if_neg (fun h => hl (hc.mp h)), if_neg hl, if_neg hl]

end Cert.ReferenceIdeal.RefRead

end
-- ==== Proof.RefValue.lean ====
/-
  The reference's result, read through its seven segments: the running count of the strict upper triangle, its
  histogram and the histogram's running sum give, at each k < 523776, the flat position of the k-th pair i < j in
  row-major order; floor-division and remainder by 1024 split it into the pair's row and column; the two row gathers
  and the label gathers read the arguments there; the last segment is the mean of the pairs' losses. The arguments
  end unchanged.
-/
import proofs.«144406_g54881092108806_cont_sun_m_11_6_alg».proof.Proof.RefStages
import proofs.«144406_g54881092108806_cont_sun_m_11_6_alg».proof.Proof.RefReadMask
import proofs.«144406_g54881092108806_cont_sun_m_11_6_alg».proof.Proof.RefReadCount
import proofs.«144406_g54881092108806_cont_sun_m_11_6_alg».proof.Proof.RefReadDiv
import proofs.«144406_g54881092108806_cont_sun_m_11_6_alg».proof.Proof.RefReadGather
import proofs.«144406_g54881092108806_cont_sun_m_11_6_alg».proof.Proof.RefReadLoss
import proofs.«144406_g54881092108806_cont_sun_m_11_6_alg».proof.Proof.PairEnum
import proofs.«144406_g54881092108806_cont_sun_m_11_6_alg».proof.Proof.Spec
import Idealize.ShloMosaic.Lib.Pipeline.Frame

noncomputable section

namespace Cert.ReferenceIdeal.RefRead

open Cert.ReferenceIdeal Cert.ReferenceIdeal.Gen Cert.ReferenceIdeal.RefRun Idealize.ShloMosaic Idealize.ShloMosaic.TcCoe Idealize.SL.Sem
open Idealize.ShloMosaic.StableHlo Idealize.ShloMosaic.ValueIdx Cert.PairLoss

/-- The flat position of each pair, as the three counting segments leave it. -/
def posVec : IVec S523776 32 := stageC_v15 (stageB_v14 (stageA_v4 (F := Ideal)))

theorem posVec_apply (k : Fin 523776) : posVec (ix1 k) = BitVec.ofNat 32 (pos k) :=
  stageC_v15_apply _ (stageB_v14_apply _ stageA_apply) k

/-- The row and the column of the k-th pair. -/
def rowOf (k : Fin 523776) : Fin 1024 := (pairOf k).1
def colOf (k : Fin 523776) : Fin 1024 := (pairOf k).2

theorem row_apply (k : Fin 523776) : stageD_v17 posVec (ix1 k) = BitVec.ofNat 32 (rowOf k).val :=
  stageD_v17_apply posVec (ix1 k) (pos k) (pos_lt k.isLt) (posVec_apply k)

theorem col_apply' (k : Fin 523776) : stageE_v19 posVec (ix1 k) = BitVec.ofNat 32 (colOf k).val :=
  stageE_v19_apply posVec (ix1 k) (pos k) (pos_lt k.isLt) (posVec_apply k)

section Chain

variable (V : Valuation τ sig (Elt Ideal))

local notation "W1" => after (segA (F := Ideal)) V
local notation "W2" => after (segB (F := Ideal)) W1
local notation "W3" => after (segC (F := Ideal)) W2
local notation "W4" => after (segD (F := Ideal)) W3
local notation "W5" => after (segE (F := Ideal)) W4
local notation "W6" => after (segG (F := Ideal)) W5
local notation "W7" => after (segH (F := Ideal)) W6

theorem after_ops : after (ops (F := Ideal)) V = W7 := by
  simp only [ops, StableHlo.after_append]

theorem e15 : W3 (Proc.devRef .tc main_v15) = posVec :=
  (afterC_v15 W2).trans (congrArg stageC_v15 ((afterB_v14 W1).trans (congrArg stageB_v14 (afterA_v4 V))))

theorem e17 : W4 (Proc.devRef .tc main_v17) = stageD_v17 posVec :=
  (afterD_v17 W3).trans (congrArg stageD_v17 (e15 V))

theorem e15' : W4 (Proc.devRef .tc main_v15) = posVec :=
  (keepD W3 main_v15 (by decide)).trans (e15 V)

theorem e19 : W5 (Proc.devRef .tc main_v19) = stageE_v19 posVec :=
  (afterE_v19 W4).trans (congrArg stageE_v19 (e15' V))

theorem e17' : W5 (Proc.devRef .tc main_v17) = stageD_v17 posVec :=
  (keepE W4 main_v17 (by decide)).trans (e17 V)

theorem a0_5 : W5 (Proc.devRef .tc main_arg0) = V (Proc.devRef .tc main_arg0) :=
  (keepE W4 main_arg0 (by decide)).trans ((keepD W3 main_arg0 (by decide)).trans ((keepC W2 main_arg0 (by decide)).trans
    ((keepB W1 main_arg0 (by decide)).trans (keepA V main_arg0 (by decide)))))

theorem a1_5 : W5 (Proc.devRef .tc main_arg1) = V (Proc.devRef .tc main_arg1) :=
  (keepE W4 main_arg1 (by decide)).trans ((keepD W3 main_arg1 (by decide)).trans ((keepC W2 main_arg1 (by decide)).trans
    ((keepB W1 main_arg1 (by decide)).trans (keepA V main_arg1 (by decide)))))

theorem e34 : W6 (Proc.devRef .tc main_v34) = stageG_v34 (V (Proc.devRef .tc main_arg1)) (stageD_v17 posVec) (stageE_v19 posVec) := by
  rw [afterG_v34 W5, a1_5 V, e17' V, e19 V]

theorem e41 : W6 (Proc.devRef .tc main_v41) = stageG_v41 (F := Ideal) (V (Proc.devRef .tc main_arg0)) (stageD_v17 posVec) := by
  rw [afterG_v41 W5, a0_5 V, e17' V]

theorem ec15 : W6 (Proc.devRef .tc main_c_15) = stageG_c_15 := afterG_c_15 W5

theorem e19' : W6 (Proc.devRef .tc main_v19) = stageE_v19 posVec :=
  (keepG W5 main_v19 (by decide)).trans (e19 V)

theorem a0_6 : W6 (Proc.devRef .tc main_arg0) = V (Proc.devRef .tc main_arg0) :=
  (keepG W5 main_arg0 (by decide)).trans (a0_5 V)

theorem a1_6 : W6 (Proc.devRef .tc main_arg1) = V (Proc.devRef .tc main_arg1) :=
  (keepG W5 main_arg1 (by decide)).trans (a1_5 V)

/-- The reference's result: the mean of the loss over the pairs i < j enumerated in row-major order. -/
theorem ref_value : after (ops (F := Ideal)) V (Proc.devRef .tc main_v61)
    = fun _ => refVal (fun i d => (V (Proc.devRef .tc main_arg0) : FVec Ideal S1024x512 .f32) (ix2 i d))
        (fun i => (V (Proc.devRef .tc main_arg1) : IVec S1024 32) (ix1 i)) pairOf := by
  rw [after_ops V, afterH_v61 W6, e34 V, e41 V, a0_6 V, e19' V, ec15 V]
  exact stageH_v61_eq _ _ (V (Proc.devRef .tc main_arg0)) _ _ (fun i => (V (Proc.devRef .tc main_arg1) : IVec S1024 32) (ix1 i)) rowOf colOf
    (fun k => stageG_v34_apply (V (Proc.devRef .tc main_arg1)) _ _ rowOf colOf row_apply col_apply' k)
    (fun k d => stageG_v41_apply (F := Ideal) (V (Proc.devRef .tc main_arg0)) _ rowOf row_apply k d)
    (fun k d => gather_rows_apply (F := Ideal) (V (Proc.devRef .tc main_arg0)) _ stageG_c_15 rfl colOf col_apply' k d)

theorem ref_arg0 : after (ops (F := Ideal)) V (Proc.devRef .tc main_arg0) = V (Proc.devRef .tc main_arg0) := by
  rw [after_ops V]; exact (keepH W6 main_arg0 (by decide)).trans (a0_6 V)

theorem ref_arg1 : after (ops (F := Ideal)) V (Proc.devRef .tc main_arg1) = V (Proc.devRef .tc main_arg1) := by
  rw [after_ops V]; exact (keepH W6 main_arg1 (by decide)).trans (a1_6 V)

end Chain

end Cert.ReferenceIdeal.RefRead

end
-- ==== Proof.PairAlgebra.lean ====
/-
  The two readings of the pair loss agree when every coordinate is a real number.

  With real coordinates, ‖x_i‖² + ‖x_j‖² − 2⟨x_i, x_j⟩ = Σ_k (x_ik − x_jk)² ≥ 0, so the clamp at zero is the
  identity and both squared distances are the same coerced real. The loss of a pair is then one real function,
  symmetric in (i, j) and zero on the diagonal, so its sum over all ordered pairs is twice its sum over the pairs
  i < j; an injective enumeration of exactly those pairs reindexes the latter sum; and 2 · T / 1047552 = T / 523776.
-/
import Mathlib
import Idealize.ShloMosaic.PureOps.Ideal
import proofs.«144406_g54881092108806_cont_sun_m_11_6_alg».proof.Proof.Spec

noncomputable section

open scoped BigOperators
open Idealize.ShloMosaic

namespace Cert.PairLoss

namespace PairAlgebra

/-! ## Coercion of finite sums -/

/-- The coercion ℝ → EReal commutes with finite sums. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The coercion ℝ → EReal commutes with max. -/
theorem coe_max' (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-! ## The real-valued quantities -/

/-- The rows as extended reals. -/
def cx (r : Fin 1024 → Fin 512 → ℝ) : Fin 1024 → Fin 512 → EReal := fun i k => (r i k : EReal)

/-- ‖r_i‖². -/
def sqR (r : Fin 1024 → Fin 512 → ℝ) (i : Fin 1024) : ℝ := ∑ k : Fin 512, r i k * r i k

/-- ⟨r_i, r_j⟩. -/
def gramR (r : Fin 1024 → Fin 512 → ℝ) (i j : Fin 1024) : ℝ := ∑ k : Fin 512, r i k * r j k

/-- Σ_k (r_ik − r_jk)². -/
def dR (r : Fin 1024 → Fin 512 → ℝ) (i j : Fin 1024) : ℝ :=
  ∑ k : Fin 512, (r i k - r j k) * (r i k - r j k)

/-- The squared hinge of a real squared distance. -/
def hingeR (d : ℝ) : ℝ := max (1 - Real.sqrt d) 0 * max (1 - Real.sqrt d) 0

/-- The real loss of the pair (i, j). -/
def lR (r : Fin 1024 → Fin 512 → ℝ) (lab : Fin 1024 → BitVec 32) (i j : Fin 1024) : ℝ :=
  if lab i = lab j then dR r i j else hingeR (dR r i j)

theorem dR_nonneg (r : Fin 1024 → Fin 512 → ℝ) (i j : Fin 1024) : 0 ≤ dR r i j :=
  Finset.sum_nonneg (fun k _ => mul_self_nonneg _)

theorem dR_symm (r : Fin 1024 → Fin 512 → ℝ) (i j : Fin 1024) : dR r i j = dR r j i :=
  Finset.sum_congr rfl (fun k _ => by ring)

theorem dR_self (r : Fin 1024 → Fin 512 → ℝ) (i : Fin 1024) : dR r i i = 0 := by
  simp [dR]

/-- The expansion of the squared distance. -/
theorem expand (r : Fin 1024 → Fin 512 → ℝ) (i j : Fin 1024) :
    sqR r i + sqR r j - 2 * gramR r i j = dR r i j := by
  simp only [sqR, gramR, dR, Finset.mul_sum, ← Finset.sum_add_distrib, ← Finset.sum_sub_distrib]
  exact Finset.sum_congr rfl (fun k _ => by ring)

theorem lR_symm (r : Fin 1024 → Fin 512 → ℝ) (lab : Fin 1024 → BitVec 32) (i j : Fin 1024) :
    lR r lab i j = lR r lab j i := by
  unfold lR
  rw [dR_symm r i j]
  by_cases h : lab i = lab j
  · rw [if_pos h, if_pos h.symm]
  · rw [if_neg h, if_neg (fun h' => h h'.symm)]

theorem lR_self (r : Fin 1024 → Fin 512 → ℝ) (lab : Fin 1024 → BitVec 32) (i : Fin 1024) :
    lR r lab i i = 0 := by
  unfold lR
  rw [if_pos rfl, dR_self]

/-! ## Both losses are the coerced real loss -/

theorem sq_coe (r : Fin 1024 → Fin 512 → ℝ) (i : Fin 1024) : sq (cx r) i = (sqR r i : EReal) := by
  simp only [sq, sqR, cx, coe_sum, EReal.coe_mul]

theorem gram_coe (r : Fin 1024 → Fin 512 → ℝ) (i j : Fin 1024) :
    gram (cx r) i j = (gramR r i j : EReal) := by
  simp only [gram, gramR, cx, coe_sum, EReal.coe_mul]

theorem distR_coe (r : Fin 1024 → Fin 512 → ℝ) (i j : Fin 1024) :
    distR (cx r) i j = (dR r i j : EReal) := by
  simp only [distR, dR, cx, coe_sum, EReal.coe_mul, EReal.coe_sub]

theorem distK_coe (r : Fin 1024 → Fin 512 → ℝ) (i j : Fin 1024) :
    distK (cx r) i j = (dR r i j : EReal) := by
  rw [distK, sq_coe, sq_coe, gram_coe, ← EReal.coe_mul, ← EReal.coe_add, ← EReal.coe_sub, expand]
  exact max_eq_left (EReal.coe_nonneg.mpr (dR_nonneg r i j))

theorem hinge_coe {d : ℝ} (hd : 0 ≤ d) : hinge (d : EReal) = (hingeR d : EReal) := by
  have hs : Ideal.sqrt (d : EReal) = (Real.sqrt d : EReal) := by
    rw [Ideal.sqrt_coe, if_neg (not_lt.mpr hd)]
  have hm : max (((1 : ℝ) : EReal) - (Real.sqrt d : EReal)) 0 = ((max (1 - Real.sqrt d) 0 : ℝ) : EReal) := by
    rw [coe_max', EReal.coe_sub, EReal.coe_zero]
  rw [hinge, hs, hm, ← EReal.coe_mul, hingeR]

theorem lossK_coe (r : Fin 1024 → Fin 512 → ℝ) (lab : Fin 1024 → BitVec 32) (i j : Fin 1024) :
    lossK (cx r) lab i j = (lR r lab i j : EReal) := by
  unfold lossK lR
  rw [distK_coe]
  by_cases h : lab i = lab j
  · simp only [if_pos h]
  · simp only [if_neg h, hinge_coe (dR_nonneg r i j)]

theorem lossR_coe (r : Fin 1024 → Fin 512 → ℝ) (lab : Fin 1024 → BitVec 32) (i j : Fin 1024) :
    lossR (cx r) lab i j = (lR r lab i j : EReal) := by
  unfold lossR lR
  rw [distR_coe]
  by_cases h : lab i = lab j
  · simp only [if_pos h, add_zero]
  · simp only [if_neg h, zero_add, hinge_coe (dR_nonneg r i j)]

/-! ## Sums over pairs -/

/-- An injective enumeration of exactly the pairs i < j reindexes a sum over those pairs. -/
theorem sum_enum {M : Type*} [AddCommMonoid M] (g : Fin 1024 × Fin 1024 → M)
    (e : Fin 523776 → Fin 1024 × Fin 1024) (he : Function.Injective e)
    (hlt : ∀ k, (e k).1 < (e k).2) (hsurj : ∀ i j : Fin 1024, i < j → ∃ k, e k = (i, j)) :
    ∑ k : Fin 523776, g (e k)
      = ∑ p ∈ Finset.univ.filter (fun p : Fin 1024 × Fin 1024 => p.1 < p.2), g p := by
  have himg : Finset.univ.image e = Finset.univ.filter (fun p : Fin 1024 × Fin 1024 => p.1 < p.2) := by
    ext p
    simp only [Finset.mem_image, Finset.mem_univ, true_and, Finset.mem_filter]
    constructor
    · rintro ⟨k, rfl⟩
      exact hlt k
    · intro h
      obtain ⟨k, hk⟩ := hsurj p.1 p.2 h
      exact ⟨k, hk⟩
  rw [← himg, Finset.sum_image (fun a _ b _ h => he h)]

/-- A symmetric function that vanishes on the diagonal sums, over all ordered pairs, to twice its sum over the
    pairs i < j. -/
theorem sum_sym_halve (f : Fin 1024 → Fin 1024 → ℝ) (hs : ∀ i j, f i j = f j i) (hd : ∀ i, f i i = 0) :
    ∑ i : Fin 1024, ∑ j : Fin 1024, f i j
      = 2 * ∑ p ∈ Finset.univ.filter (fun p : Fin 1024 × Fin 1024 => p.1 < p.2), f p.1 p.2 := by
  have key : ∀ p : Fin 1024 × Fin 1024,
      f p.1 p.2 = (if p.1 < p.2 then f p.1 p.2 else 0) + (if p.2 < p.1 then f p.1 p.2 else 0) := by
    intro p
    rcases lt_trichotomy p.1 p.2 with h | h | h
    · rw [if_pos h, if_neg (not_lt_of_gt h), add_zero]
    · rw [h, hd, if_neg (lt_irrefl _), add_zero]
    · rw [if_neg (not_lt_of_gt h), if_pos h, zero_add]
  have hswap : ∑ p ∈ Finset.univ.filter (fun p : Fin 1024 × Fin 1024 => p.2 < p.1), f p.1 p.2
      = ∑ p ∈ Finset.univ.filter (fun p : Fin 1024 × Fin 1024 => p.1 < p.2), f p.1 p.2 := by
    refine Finset.sum_equiv (Equiv.prodComm _ _) ?_ ?_
    · intro p
      simp only [Finset.mem_filter, Finset.mem_univ, true_and, Equiv.prodComm_apply, Prod.fst_swap, Prod.snd_swap]
    · intro p _
      simp only [Equiv.prodComm_apply, Prod.fst_swap, Prod.snd_swap]
      exact hs _ _
  rw [← Fintype.sum_prod_type', Fintype.sum_congr _ _ key, Finset.sum_add_distrib, ← Finset.sum_filter,
    ← Finset.sum_filter, hswap, two_mul]

end PairAlgebra

open PairAlgebra

/-! ## The two results agree -/

theorem kernelVal_eq_refVal (x : Fin 1024 → Fin 512 → EReal) (lab : Fin 1024 → BitVec 32)
    (hx : ∀ i k, ∃ r : ℝ, x i k = (r : EReal))
    (e : Fin 523776 → Fin 1024 × Fin 1024) (he : Function.Injective e)
    (hlt : ∀ k, (e k).1 < (e k).2) (hsurj : ∀ i j : Fin 1024, i < j → ∃ k, e k = (i, j)) :
    kernelVal x lab = refVal x lab e := by
  choose r hr using hx
  have hxr : x = cx r := by
    funext i k
    exact hr i k
  subst hxr
  unfold kernelVal refVal
  rw [Ideal.div_coe (by norm_num : (523776 : ℝ) ≠ 0)]
  simp only [lossK_coe, lossR_coe, ← coe_sum]
  rw [← EReal.coe_mul, ← EReal.coe_mul, EReal.coe_eq_coe_iff,
    sum_sym_halve _ (lR_symm r lab) (lR_self r lab),
    sum_enum (fun p => lR r lab p.1 p.2) e he hlt hsurj]
  ring

end Cert.PairLoss

end
-- ==== Proof.PreFinite.lean ====
/-
  Finiteness from the precondition: every entry of the first argument array is a real number.

  The precondition says that the conjunction, over all 1024 × 512 entries x, of the comparison |x| < +∞ is true.
  A conjunction that is true is true at every entry; |x| = max x (−x) is below +∞ only when x is neither +∞ nor −∞,
  and an extended real that is neither infinity is a real.
-/
import proofs.«144406_g54881092108806_cont_sun_m_11_6_alg».proof.Defs
import proofs.«144406_g54881092108806_cont_sun_m_11_6_alg».proof.Proof.Gen.Pre_finite_inputs
import Idealize.ShloMosaic.Lib.ReduceAll
import Idealize.ShloMosaic.Lib.ValueIdx

noncomputable section

namespace Cert.PreFinite

open Idealize.ShloMosaic Idealize.SL.Sem Idealize.ShloMosaic.ValueIdx

/-- An extended real whose absolute value max x (−x) is below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- One entry: if the comparison |x| < +∞ answers true, then x is a real. -/
theorem elem_real (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have hlt : max (x : EReal) (-(x : EReal)) < ⊤ := by
    by_contra hn
    simp [hn] at h
  exact real_of_abs_lt_top x hlt

/-- Under the precondition, every entry of the first argument array is a real. -/
theorem entries_real
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) (i : Fin 1024) (k : Fin 512) :
    ∃ r : ℝ, m ((c.tc : Thread Cert.KernelIdeal.nD Cert.KernelIdeal.τ).loc Cert.KernelIdeal.main_arg0) (ix2 i k)
      = (r : EReal) := by
  haveI : Subsingleton Cert.Pre_finite_inputs.S_.Idx := ⟨fun a b => funext fun d => d.elim0⟩
  have h0 := congrFun (h c) ValueIdx.ix0
  dsimp only [Cert.Pre_finite_inputs.fn] at h0
  have h1 := Host.reduce_andi_all _ _ _ _ _ h0 (ix2 i k)
  exact elem_real _ h1

end Cert.PreFinite

end
-- ==== Proof.lean ====
/-
  The proof of the claim: the kernel computes the mean contrastive loss over all pairs of rows through the Gram
  matrix — squared distances ‖x_i‖² + ‖x_j‖² − 2⟨x_i, x_j⟩ clamped at zero, the loss summed over ALL ordered
  pairs and scaled by the named constant 1 / (1024 · 1023) —, the reference through an enumeration of the 523776
  pairs i < j (the positions of the strict upper triangle found by a running count, a histogram and a running sum),
  the squared distances Σ_k (x_ik − x_jk)², and a division by 523776. Over finite inputs the two squared distances are
  one real number, the loss is symmetric and vanishes on the diagonal, the enumeration is a bijection onto the pairs
  i < j, and (2·T)·(1/1047552) = T / 523776.

  The three frames are the generated frame runs (the reference's from its run over the operation list); the one
  ledger entry is the named constant's statement; the algebraic claim joins the kernel's value (read off its frame
  run) and the reference's value (read segment by segment) by the algebra above.
-/
import proofs.«144406_g54881092108806_cont_sun_m_11_6_alg».proof.Proof.Gen.Kernel
import proofs.«144406_g54881092108806_cont_sun_m_11_6_alg».proof.Proof.Gen.Kernel.Frame
import proofs.«144406_g54881092108806_cont_sun_m_11_6_alg».proof.Proof.Gen.KernelIdeal
import proofs.«144406_g54881092108806_cont_sun_m_11_6_alg».proof.Proof.Gen.KernelIdeal.Frame
import proofs.«144406_g54881092108806_cont_sun_m_11_6_alg».proof.Proof.Gen.ReferenceIdeal
import proofs.«144406_g54881092108806_cont_sun_m_11_6_alg».proof.Proof.Gen.Pre_finite_inputs
import proofs.«144406_g54881092108806_cont_sun_m_11_6_alg».proof.Defs
import proofs.«144406_g54881092108806_cont_sun_m_11_6_alg».proof.Proof.KernelPreserves
import proofs.«144406_g54881092108806_cont_sun_m_11_6_alg».proof.Proof.KernelValue
import proofs.«144406_g54881092108806_cont_sun_m_11_6_alg».proof.Proof.RefValue
import proofs.«144406_g54881092108806_cont_sun_m_11_6_alg».proof.Proof.PairAlgebra
import proofs.«144406_g54881092108806_cont_sun_m_11_6_alg».proof.Proof.PairEnum
import proofs.«144406_g54881092108806_cont_sun_m_11_6_alg».proof.Proof.PreFinite
import Idealize.ShloMosaic.Adequacy
import Idealize.ShloMosaic.Init

noncomputable section

namespace Cert.Proof

open Idealize.ShloMosaic Idealize.ShloMosaic.TcCoe Idealize.SL.Sem Idealize.ShloMosaic.ValueIdx Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference's frame: its run over the operation list, the argument buffers read back unchanged. -/
theorem frame_ri : Cert.frame_ReferenceIdeal := fun m ρ _ =>
  (θ_run Cert.ReferenceIdeal.defs _ _).mono
    (fun _ h c => ⟨(h c Cert.ReferenceIdeal.main_arg0).trans (Cert.ReferenceIdeal.RefRead.ref_arg0 _),
      (h c Cert.ReferenceIdeal.main_arg1).trans (Cert.ReferenceIdeal.RefRead.ref_arg1 _)⟩)
    (Cert.ReferenceIdeal.RefRun.run_main (F := Ideal) m ρ)

/-- Both programs end at one extended real: the kernel's scaled sum over all ordered pairs is the reference's mean
    over the enumerated pairs i < j, every entry being a real by the precondition. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono
    (fun _ h c => ⟨(h c Cert.ReferenceIdeal.main_v61).trans ?_,
      (h c Cert.ReferenceIdeal.main_arg0).trans (Cert.ReferenceIdeal.RefRead.ref_arg0 _),
      (h c Cert.ReferenceIdeal.main_arg1).trans (Cert.ReferenceIdeal.RefRead.ref_arg1 _)⟩)
    (Cert.ReferenceIdeal.RefRun.run_main (F := Ideal) m' ρ')
  rw [Cert.ReferenceIdeal.RefRead.ref_value]
  have key : Cert.PairLoss.refVal
      (fun i d => (m' ((c.tc : Thread Cert.ReferenceIdeal.nD Cert.ReferenceIdeal.τ).loc Cert.ReferenceIdeal.main_arg0) : Cert.ReferenceIdeal.S1024x512.Idx → EReal) (ix2 i d))
      (fun i => (m' ((c.tc : Thread Cert.ReferenceIdeal.nD Cert.ReferenceIdeal.τ).loc Cert.ReferenceIdeal.main_arg1) : Cert.ReferenceIdeal.S1024.Idx → BitVec 32) (ix1 i))
      Cert.PairLoss.pairOf
      = Cert.PairLoss.kernelVal
          (fun i k => (m ((c.tc : Thread Cert.KernelIdeal.nD Cert.KernelIdeal.τ).loc Cert.KernelIdeal.main_arg0) : Cert.KernelIdeal.S1024x512.Idx → EReal) (ix2 i k))
          (fun i => (m ((c.tc : Thread Cert.KernelIdeal.nD Cert.KernelIdeal.τ).loc Cert.KernelIdeal.main_arg1) : Cert.KernelIdeal.S1024.Idx → BitVec 32) (ix1 i)) := by
    rw [(hagree c).1, (hagree c).2]
    exact (Cert.PairLoss.kernelVal_eq_refVal _ _ (fun i k => Cert.PreFinite.entries_real m hpre c i k)
      Cert.PairLoss.pairOf Cert.PairLoss.pairOf_injective Cert.PairLoss.pairOf_lt Cert.PairLoss.pairOf_surj).symm
  exact funext fun _ => key

theorem claim : Cert.Claim :=
  ⟨Cert.Kernel.Gen.facts, Cert.KernelIdeal.Gen.facts, Cert.ReferenceIdeal.Gen.facts, Cert.Pre_finite_inputs.Gen.facts,
    frame_k, frame_ki, frame_ri, Cert.KernelIdeal.KValue.preserves, algebraic⟩

end Cert.Proof

end
